-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x256 : Shape := ⟨3, ![4, 8192, 256]⟩
abbrev S4x8192x2 : Shape := ⟨3, ![4, 8192, 2]⟩
abbrev S512x256 : Shape := ⟨2, ![512, 256]⟩
abbrev S256x512 : Shape := ⟨2, ![256, 512]⟩
abbrev S256 : Shape := ⟨1, ![256]⟩
abbrev S_ : Shape := ⟨0, ![]⟩

class Facts : Prop where
  bcast_S_S4x8192x256 : S_.BroadcastsInDim S4x8192x256 (![] : Fin 0 → Fin S4x8192x256.rank)
  reducesTo_S4x8192x256_S_d0_1_2 : S4x8192x256.ReducesTo [0, 1, 2] S_
  h_S_ : 0 < S_.numel
  bcast_S_S4x8192x2 : S_.BroadcastsInDim S4x8192x2 (![] : Fin 0 → Fin S4x8192x2.rank)
  reducesTo_S4x8192x2_S_d0_1_2 : S4x8192x2.ReducesTo [0, 1, 2] S_
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S512x256 .f32) (main_arg5 : FVec F S256x512 .f32) (main_arg6 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S4x8192x256 .f32) (main_arg1 : FVec F S4x8192x2 .f32) (main_arg2 : FVec F S512x256 .f32) (main_arg3 : FVec F S512x256 .f32) (main_arg4 : FVec F S512x256 .f32) (main_arg5 : FVec F S256x512 .f32) (main_arg6 : FVec F S256 .f32) : IVec S_ 1 :=
  let main_v0 : FVec F S4x8192x256 .f32 := Host.absf main_arg0
  let main_cst : FVec F S_ .f32 := constant S_ .f32 0x7F800000#32
  let main_v1 : FVec F S4x8192x256 .f32 := broadcastInDim S4x8192x256 ![] bcast_S_S4x8192x256 main_cst
  let main_v2 : IVec S4x8192x256 1 := cmpf .olt main_v0 main_v1
  let main_c : IVec S_ 1 := constantI S_ 1 1#1
  let main_v3 : IVec S_ 1 := (fun x v => Host.reduce IntOp.andi x v reducesTo_S4x8192x256_S_d0_1_2 h_S_) main_v2 main_c
  let main_v4 : FVec F S4x8192x2 .f32 := Host.absf main_arg1
  let main_cst_0 : FVec F S_ .f32 := constant S_ .f32 0x7F800000#32
  let main_v5 : FVec F S4x8192x2 .f32 := broadcastInDim S4x8192x2 ![] bcast_S_S4x8192x2 main_cst_0
  let main_v6 : IVec S4x8192x2 1 := cmpf .olt main_v4 main_v5
  let main_c_1 : IVec S_ 1 := constantI S_ 1 1#1
  let main_v7 : IVec S_ 1 := (fun x v => Host.reduce IntOp.andi x v reducesTo_S4x8192x2_S_d0_1_2 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S4x8192x256 : Shape := ⟨3, ![4, 8192, 256]⟩
abbrev S4x8192x2 : Shape := ⟨3, ![4, 8192, 2]⟩
abbrev S512x256 : Shape := ⟨2, ![512, 256]⟩
abbrev S256x512 : Shape := ⟨2, ![256, 512]⟩
abbrev S256 : Shape := ⟨1, ![256]⟩
abbrev S8x64x256 : Shape := ⟨3, ![8, 64, 256]⟩
abbrev S256x8x64 : Shape := ⟨3, ![256, 8, 64]⟩
abbrev S1x256 : Shape := ⟨2, ![1, 256]⟩
abbrev S4x8x64x64 : Shape := ⟨4, ![4, 8, 64, 64]⟩
abbrev S1x2048x256 : Shape := ⟨3, ![1, 2048, 256]⟩
abbrev S1x8x64x64 : Shape := ⟨4, ![1, 8, 64, 64]⟩
abbrev S2048x256 : Shape := ⟨2, ![2048, 256]⟩
abbrev S1x64x256 : Shape := ⟨3, ![1, 64, 256]⟩
abbrev S64x256 : Shape := ⟨2, ![64, 256]⟩
abbrev S2048x64 : Shape := ⟨2, ![2048, 64]⟩
abbrev S2048 : Shape := ⟨1, ![2048]⟩
abbrev S2048x1 : Shape := ⟨2, ![2048, 1]⟩
abbrev S64x64 : Shape := ⟨2, ![64, 64]⟩
abbrev S1x1x64x64 : Shape := ⟨4, ![1, 1, 64, 64]⟩

abbrev nBuf : Space → Nat
  | .hbm => 15
  | .vmem => 15
  | .smem => 0
  | _ => 0

abbrev bufTy : (tb : Table) → Fin (tcTables nBuf tb) → BufTy
  | .hbm, ⟨0, _⟩ => ⟨S4x8192x256, .f32⟩
  | .hbm, ⟨1, _⟩ => ⟨S4x8192x2, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S256x512, .f32⟩
  | .hbm, ⟨6, _⟩ => ⟨S256, .f32⟩
  | .hbm, ⟨7, _⟩ => ⟨S8x64x256, .f32⟩
  | .hbm, ⟨8, _⟩ => ⟨S8x64x256, .f32⟩
  | .hbm, ⟨9, _⟩ => ⟨S8x64x256, .f32⟩
  | .hbm, ⟨10, _⟩ => ⟨S256x8x64, .f32⟩
  | .hbm, ⟨11, _⟩ => ⟨S8x64x256, .f32⟩
  | .hbm, ⟨12, _⟩ => ⟨S1x256, .f32⟩
  | .hbm, ⟨13, _⟩ => ⟨S4x8x64x64, .f32⟩
  | .hbm, ⟨14, _⟩ => ⟨S4x8192x256, .f32⟩
  | .local _ .vmem, ⟨0, _⟩ => ⟨S1x2048x256, .f32⟩
  | .local _ .vmem, ⟨1, _⟩ => ⟨S1x2048x256, .f32⟩
  | .local _ .vmem, ⟨2, _⟩ => ⟨S8x64x256, .f32⟩
  | .local _ .vmem, ⟨3, _⟩ => ⟨S8x64x256, .f32⟩
  | .local _ .vmem, ⟨4, _⟩ => ⟨S1x8x64x64, .f32⟩
  | .local _ .vmem, ⟨5, _⟩ => ⟨S1x8x64x64, .f32⟩
  | .local _ .vmem, ⟨6, _⟩ => ⟨S1x2048x256, .f32⟩
  | .local _ .vmem, ⟨7, _⟩ => ⟨S1x2048x256, .f32⟩
  | .local _ .vmem, ⟨8, _⟩ => ⟨S8x64x256, .f32⟩
  | .local _ .vmem, ⟨9, _⟩ => ⟨S1x8x64x64, .f32⟩
  | .local _ .vmem, ⟨10, _⟩ => ⟨S1x8x64x64, .f32⟩
  | .local _ .vmem, ⟨11, _⟩ => ⟨S8x64x256, .f32⟩
  | .local _ .vmem, ⟨12, _⟩ => ⟨S1x256, .f32⟩
  | .local _ .vmem, ⟨13, _⟩ => ⟨S1x2048x256, .f32⟩
  | .local _ .vmem, ⟨14, _⟩ => ⟨S1x2048x256, .f32⟩
  | _, _ => ⟨S4x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8x64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x8x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S8x64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S512x256_S8x64x256 : S512x256.ShapeCasts S8x64x256
  shapeCasts_S256x512_S256x8x64 : S256x512.ShapeCasts S256x8x64
  transposes_S256x8x64_S8x64x256_1_2_0 : S256x8x64.Transposes [1, 2, 0] S8x64x256
  shapeCasts_S256_S1x256 : S256.ShapeCasts S1x256
  inb_S1x8x64x64_S1x8x64x64_0_0_0_0 : ∀ a, (![0, 0, 0, 0] : Fin 4 → Nat) a + S1x8x64x64.size a ≤ S1x8x64x64.size a
  h_S1x8x64x64 : 0 < S1x8x64x64.numel
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S8x64x256_S1x64x256_0_0_0 : ∀ a, (![0, 0, 0] : Fin 3 → Nat) a + S1x64x256.size a ≤ S8x64x256.size a
  h_S1x64x256 : 0 < S1x64x256.numel
  shapeCasts_S1x64x256_S64x256 : S1x64x256.ShapeCasts S64x256
  reduces_S2048x64_S2048 : S2048x64.Reduces [1] S2048
  shapeCasts_S2048_S2048x1 : S2048.ShapeCasts S2048x1
  broadcasts_S2048x1_S2048x64 : S2048x1.Broadcasts S2048x64
  inb_S1x8x64x64_S1x1x64x64_0_0_0_0 : ∀ a, (![0, 0, 0, 0] : Fin 4 → Nat) a + S1x1x64x64.size a ≤ S1x8x64x64.size a
  h_S1x1x64x64 : 0 < S1x1x64x64.numel
  shapeCasts_S1x1x64x64_S64x64 : S1x1x64x64.ShapeCasts S64x64
  shapeCasts_S64x64_S1x1x64x64 : S64x64.ShapeCasts S1x1x64x64
  inb_S8x64x256_S1x64x256_1_0_0 : ∀ a, (![1, 0, 0] : Fin 3 → Nat) a + S1x64x256.size a ≤ S8x64x256.size a
  inb_S1x8x64x64_S1x1x64x64_0_1_0_0 : ∀ a, (![0, 1, 0, 0] : Fin 4 → Nat) a + S1x1x64x64.size a ≤ S1x8x64x64.size a
  inb_S8x64x256_S1x64x256_2_0_0 : ∀ a, (![2, 0, 0] : Fin 3 → Nat) a + S1x64x256.size a ≤ S8x64x256.size a
  inb_S1x8x64x64_S1x1x64x64_0_2_0_0 : ∀ a, (![0, 2, 0, 0] : Fin 4 → Nat) a + S1x1x64x64.size a ≤ S1x8x64x64.size a
  inb_S8x64x256_S1x64x256_3_0_0 : ∀ a, (![3, 0, 0] : Fin 3 → Nat) a + S1x64x256.size a ≤ S8x64x256.size a
  inb_S1x8x64x64_S1x1x64x64_0_3_0_0 : ∀ a, (![0, 3, 0, 0] : Fin 4 → Nat) a + S1x1x64x64.size a ≤ S1x8x64x64.size a
  inb_S8x64x256_S1x64x256_4_0_0 : ∀ a, (![4, 0, 0] : Fin 3 → Nat) a + S1x64x256.size a ≤ S8x64x256.size a
  inb_S1x8x64x64_S1x1x64x64_0_4_0_0 : ∀ a, (![0, 4, 0, 0] : Fin 4 → Nat) a + S1x1x64x64.size a ≤ S1x8x64x64.size a
  inb_S8x64x256_S1x64x256_5_0_0 : ∀ a, (![5, 0, 0] : Fin 3 → Nat) a + S1x64x256.size a ≤ S8x64x256.size a
  inb_S1x8x64x64_S1x1x64x64_0_5_0_0 : ∀ a, (![0, 5, 0, 0] : Fin 4 → Nat) a + S1x1x64x64.size a ≤ S1x8x64x64.size a
  inb_S8x64x256_S1x64x256_6_0_0 : ∀ a, (![6, 0, 0] : Fin 3 → Nat) a + S1x64x256.size a ≤ S8x64x256.size a
  inb_S1x8x64x64_S1x1x64x64_0_6_0_0 : ∀ a, (![0, 6, 0, 0] : Fin 4 → Nat) a + S1x1x64x64.size a ≤ S1x8x64x64.size a
  inb_S8x64x256_S1x64x256_7_0_0 : ∀ a, (![7, 0, 0] : Fin 3 → Nat) a + S1x64x256.size a ≤ S8x64x256.size a
  inb_S1x8x64x64_S1x1x64x64_0_7_0_0 : ∀ a, (![0, 7, 0, 0] : Fin 4 → Nat) a + S1x1x64x64.size a ≤ S1x8x64x64.size a
  inb_S1x256_S1x256_0_0 : ∀ a, (![0, 0] : Fin 2 → Nat) a + S1x256.size a ≤ S1x256.size a
  h_S1x256 : 0 < S1x256.numel
  shapeCasts_S1x256_S256 : S1x256.ShapeCasts S256
  broadcasts_S1x256_S2048x256 : S1x256.Broadcasts S2048x256
  shapeCasts_S2048x256_S1x2048x256 : S2048x256.ShapeCasts S1x2048x256
  dot_S2048x256_S64x256_S2048x64_1_1_0_0_n_n_wf : DotDims.WF S2048x256 S64x256 S2048x64 [1] [1] [0] [0] [] []
  dot_S2048x64_S2048x64_S64x64_0_0_1_1_n_n_wf : DotDims.WF S2048x64 S2048x64 S64x64 [0] [0] [1] [1] [] []
  dot_S2048x64_S64x64_S2048x64_1_0_0_1_n_n_wf : DotDims.WF S2048x64 S64x64 S2048x64 [1] [0] [0] [1] [] []
  dot_S2048x64_S64x256_S2048x256_1_0_0_1_n_n_wf : DotDims.WF S2048x64 S64x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S4x8192x256.size a
  hwx0_0 : ∀ i : grid0.Coords, EltTy.bits .f32 = 32 ∨ (Rect.block (s := S4x8192x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64x256.size a ≤ S8x64x256.size a
  hwx0_1 : ∀ i : grid0.Coords, EltTy.bits .f32 = 32 ∨ (Rect.block (s := S8x64x256) S8x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64x256.size a ≤ S8x64x256.size a
  hwx0_2 : ∀ i : grid0.Coords, EltTy.bits .f32 = 32 ∨ (Rect.block (s := S8x64x256) S8x64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x64x64.size a ≤ S4x8x64x64.size a
  hwx0_3 : ∀ i : grid0.Coords, EltTy.bits .f32 = 32 ∨ (Rect.block (s := S4x8x64x64) S1x8x64x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S4x8192x256.size a
  hwx1_0 : ∀ i : grid1.Coords, EltTy.bits .f32 = 32 ∨ (Rect.block (s := S4x8192x256) S1x2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x64x256.size a ≤ S8x64x256.size a
  hwx1_1 : ∀ i : grid1.Coords, EltTy.bits .f32 = 32 ∨ (Rect.block (s := S8x64x256) S8x64x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x64x64.size a ≤ S4x8x64x64.size a
  hwx1_2 : ∀ i : grid1.Coords, EltTy.bits .f32 = 32 ∨ (Rect.block (s := S4x8x64x64) S1x8x64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x64x256.size a ≤ S8x64x256.size a
  hwx1_3 : ∀ i : grid1.Coords, EltTy.bits .f32 = 32 ∨ (Rect.block (s := S8x64x256) S8x64x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048x256.size a ≤ S4x8192x256.size a
  hwx1_5 : ∀ i : grid1.Coords, EltTy.bits .f32 = 32 ∨ (Rect.block (s := S4x8192x256) S1x2048x256.size (cc1_transform_5 i) (hinb1_5 i)).WholeWords (EltTy.packing .f32)

variable [Facts₀]

def dot_S2048x256_S64x256_S2048x64_1_1_0_0_n_n : DotDims S2048x256 S64x256 S2048x64 where
  lhsContracting := [1]
  rhsContracting := [1]
  lhsNonContracting := [0]
  rhsNonContracting := [0]
  lhsBatch := []
  rhsBatch := []
  wf := dot_S2048x256_S64x256_S2048x64_1_1_0_0_n_n_wf
def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x8x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8x64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x8x64x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S8x64x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x2048x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x8192x256 : Shape := ⟨3, ![4, 8192, 256]⟩
abbrev S4x8192x2 : Shape := ⟨3, ![4, 8192, 2]⟩
abbrev S512x256 : Shape := ⟨2, ![512, 256]⟩
abbrev S256x512 : Shape := ⟨2, ![256, 512]⟩
abbrev S256 : Shape := ⟨1, ![256]⟩
abbrev S4x8192x512 : Shape := ⟨3, ![4, 8192, 512]⟩
abbrev S4x8192x8x64 : Shape := ⟨4, ![4, 8192, 8, 64]⟩
abbrev S4x8x8192x64 : Shape := ⟨4, ![4, 8, 8192, 64]⟩
abbrev S_ : Shape := ⟨0, ![]⟩
abbrev S4x8x8192 : Shape := ⟨3, ![4, 8, 8192]⟩
abbrev S4x8x8192x1 : Shape := ⟨4, ![4, 8, 8192, 1]⟩
abbrev S4x8x64x64 : Shape := ⟨4, ![4, 8, 64, 64]⟩
abbrev S1x1x256 : Shape := ⟨3, ![1, 1, 256]⟩

abbrev nBuf : Space → Nat
  | .hbm => 73
  | .vmem => 0
  | .smem => 0
  | _ => 0

abbrev bufTy : (tb : Table) → Fin (tcTables nBuf tb) → BufTy
  | .hbm, ⟨0, _⟩ => ⟨S4x8192x256, .f32⟩
  | .hbm, ⟨1, _⟩ => ⟨S4x8192x2, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S256x512, .f32⟩
  | .hbm, ⟨6, _⟩ => ⟨S256, .f32⟩
  | .hbm, ⟨7, _⟩ => ⟨S4x8192x512, .f32⟩
  | .hbm, ⟨8, _⟩ => ⟨S4x8192x8x64, .f32⟩
  | .hbm, ⟨9, _⟩ => ⟨S4x8x8192x64, .f32⟩
  | .hbm, ⟨10, _⟩ => ⟨S4x8192x512, .f32⟩
  | .hbm, ⟨11, _⟩ => ⟨S4x8192x8x64, .f32⟩
  | .hbm, ⟨12, _⟩ => ⟨S4x8x8192x64, .f32⟩
  | .hbm, ⟨13, _⟩ => ⟨S_, .f32⟩
  | .hbm, ⟨14, _⟩ => ⟨S4x8x8192, .f32⟩
  | .hbm, ⟨15, _⟩ => ⟨S4x8x8192x1, .f32⟩
  | .hbm, ⟨16, _⟩ => ⟨S_, .f32⟩
  | .hbm, ⟨17, _⟩ => ⟨S4x8x8192x1, .f32⟩
  | .hbm, ⟨18, _⟩ => ⟨S4x8x8192x1, .f32⟩
  | .hbm, ⟨19, _⟩ => ⟨S4x8x8192x64, .f32⟩
  | .hbm, ⟨20, _⟩ => ⟨S4x8x8192x64, .f32⟩
  | .hbm, ⟨21, _⟩ => ⟨S4x8x8192x64, .f32⟩
  | .hbm, ⟨22, _⟩ => ⟨S_, .f32⟩
  | .hbm, ⟨23, _⟩ => ⟨S4x8x8192, .f32⟩
  | .hbm, ⟨24, _⟩ => ⟨S4x8x8192x1, .f32⟩
  | .hbm, ⟨25, _⟩ => ⟨S_, .f32⟩
  | .hbm, ⟨26, _⟩ => ⟨S4x8x8192x1, .f32⟩
  | .hbm, ⟨27, _⟩ => ⟨S4x8x8192x1, .f32⟩
  | .hbm, ⟨28, _⟩ => ⟨S4x8x8192x64, .f32⟩
  | .hbm, ⟨29, _⟩ => ⟨S4x8x8192x64, .f32⟩
  | .hbm, ⟨30, _⟩ => ⟨S_, .f32⟩
  | .hbm, ⟨31, _⟩ => ⟨S4x8x8192x1, .f32⟩
  | .hbm, ⟨32, _⟩ => ⟨S4x8x8192x1, .f32⟩
  | .hbm, ⟨33, _⟩ => ⟨S4x8x8192x1, .f32⟩
  | .hbm, ⟨34, _⟩ => ⟨S4x8x8192x64, .f32⟩
  | .hbm, ⟨35, _⟩ => ⟨S4x8x8192x64, .f32⟩
  | .hbm, ⟨36, _⟩ => ⟨S4x8192x512, .f32⟩
  | .hbm, ⟨37, _⟩ => ⟨S4x8192x8x64, .f32⟩
  | .hbm, ⟨38, _⟩ => ⟨S4x8x8192x64, .f32⟩
  | .hbm, ⟨39, _⟩ => ⟨S_, .f32⟩
  | .hbm, ⟨40, _⟩ => ⟨S4x8x8192, .f32⟩
  | .hbm, ⟨41, _⟩ => ⟨S4x8x8192x1, .f32⟩
  | .hbm, ⟨42, _⟩ => ⟨S_, .f32⟩
  | .hbm, ⟨43, _⟩ => ⟨S4x8x8192x1, .f32⟩
  | .hbm, ⟨44, _⟩ => ⟨S4x8x8192x1, .f32⟩
  | .hbm, ⟨45, _⟩ => ⟨S4x8x8192x64, .f32⟩
  | .hbm, ⟨46, _⟩ => ⟨S4x8x8192x64, .f32⟩
  | .hbm, ⟨47, _⟩ => ⟨S4x8x8192x64, .f32⟩
  | .hbm, ⟨48, _⟩ => ⟨S_, .f32⟩
  | .hbm, ⟨49, _⟩ => ⟨S4x8x8192, .f32⟩
  | .hbm, ⟨50, _⟩ => ⟨S4x8x8192x1, .f32⟩
  | .hbm, ⟨51, _⟩ => ⟨S_, .f32⟩
  | .hbm, ⟨52, _⟩ => ⟨S4x8x8192x1, .f32⟩
  | .hbm, ⟨53, _⟩ => ⟨S4x8x8192x1, .f32⟩
  | .hbm, ⟨54, _⟩ => ⟨S4x8x8192x64, .f32⟩
  | .hbm, ⟨55, _⟩ => ⟨S4x8x8192x64, .f32⟩
  | .hbm, ⟨56, _⟩ => ⟨S_, .f32⟩
  | .hbm, ⟨57, _⟩ => ⟨S4x8x8192x1, .f32⟩
  | .hbm, ⟨58, _⟩ => ⟨S4x8x8192x1, .f32⟩
  | .hbm, ⟨59, _⟩ => ⟨S4x8x8192x1, .f32⟩
  | .hbm, ⟨60, _⟩ => ⟨S4x8x8192x64, .f32⟩
  | .hbm, ⟨61, _⟩ => ⟨S4x8x8192x64, .f32⟩
  | .hbm, ⟨62, _⟩ => ⟨S4x8x64x64, .f32⟩
  | .hbm, ⟨63, _⟩ => ⟨S4x8x8192x64, .f32⟩
  | .hbm, ⟨64, _⟩ => ⟨S_, .f32⟩
  | .hbm, ⟨65, _⟩ => ⟨S4x8x8192x64, .f32⟩
  | .hbm, ⟨66, _⟩ => ⟨S4x8x8192x64, .f32⟩
  | .hbm, ⟨67, _⟩ => ⟨S4x8192x8x64, .f32⟩
  | .hbm, ⟨68, _⟩ => ⟨S4x8192x512, .f32⟩
  | .hbm, ⟨69, _⟩ => ⟨S4x8192x256, .f32⟩
  | .hbm, ⟨70, _⟩ => ⟨S1x1x256, .f32⟩
  | .hbm, ⟨71, _⟩ => ⟨S4x8192x256, .f32⟩
  | .hbm, ⟨72, _⟩ => ⟨S4x8192x256, .f32⟩
  | _, _ => ⟨S4x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]

class Facts₀ : Prop where
  shapeCasts_S4x8192x512_S4x8192x8x64 : S4x8192x512.ShapeCasts S4x8192x8x64
  transposes_S4x8192x8x64_S4x8x8192x64_0_2_1_3 : S4x8192x8x64.Transposes [0, 2, 1, 3] S4x8x8192x64
  reducesTo_S4x8x8192x64_S4x8x8192_d3 : S4x8x8192x64.ReducesTo [3] S4x8x8192
  h_S_ : 0 < S_.numel
  bcast_S4x8x8192_S4x8x8192x1_0_1_2 : S4x8x8192.BroadcastsInDim S4x8x8192x1 (![0, 1, 2] : Fin 3 → Fin S4x8x8192x1.rank)
  bcast_S_S4x8x8192x1 : S_.BroadcastsInDim S4x8x8192x1 (![] : Fin 0 → Fin S4x8x8192x1.rank)
  bcast_S4x8x8192x1_S4x8x8192x64_0_1_2_3 : S4x8x8192x1.BroadcastsInDim S4x8x8192x64 (![0, 1, 2, 3] : Fin 4 → Fin S4x8x8192x64.rank)
  bcast_S_S4x8x8192x64 : S_.BroadcastsInDim S4x8x8192x64 (![] : Fin 0 → Fin S4x8x8192x64.rank)
  transposes_S4x8x8192x64_S4x8192x8x64_0_2_1_3 : S4x8x8192x64.Transposes [0, 2, 1, 3] S4x8192x8x64
  shapeCasts_S4x8192x8x64_S4x8192x512 : S4x8192x8x64.ShapeCasts S4x8192x512
  bcast_S256_S1x1x256_2 : S256.BroadcastsInDim S1x1x256 (![2] : Fin 1 → Fin S1x1x256.rank)
  bcast_S1x1x256_S4x8192x256_0_1_2 : S1x1x256.BroadcastsInDim S4x8192x256 (![0, 1, 2] : Fin 3 → Fin S4x8192x256.rank)
  dot_S4x8192x256_S512x256_S4x8192x512_2_1_01_0_n_n_wf : DotDims.WF S4x8192x256 S512x256 S4x8192x512 [2] [1] [0, 1] [0] [] []
  dot_S4x8x8192x64_S4x8x8192x64_S4x8x64x64_2_2_3_3_01_01_wf : DotDims.WF S4x8x8192x64 S4x8x8192x64 S4x8x64x64 [2] [2] [3] [3] [0, 1] [0, 1]
  dot_S4x8x8192x64_S4x8x64x64_S4x8x8192x64_3_2_2_3_01_01_wf : DotDims.WF S4x8x8192x64 S4x8x64x64 S4x8x8192x64 [3] [2] [2] [3] [0, 1] [0, 1]
  dot_S4x8192x512_S256x512_S4x8192x256_2_1_01_0_n_n_wf : DotDims.WF S4x8192x512 S256x512 S4x8192x256 [2] [1] [0, 1] [0] [] []

variable [Facts₀]

def dot_S4x8192x256_S512x256_S4x8192x512_2_1_01_0_n_n : DotDims S4x8192x256 S512x256 S4x8192x512 where
  lhsContracting := [2]
  rhsContracting := [1]
  lhsNonContracting := [0, 1]
  rhsNonContracting := [0]
  lhsBatch := []
  rhsBatch := []
  wf := dot_S4x8192x256_S512x256_S4x8192x512_2_1_01_0_n_n_wf
def dot_S4x8x8192x64_S4x8x8192x64_S4x8x64x64_2_2_3_3_01_01 : DotDims S4x8x8192x64 S4x8x8192x64 S4x8x64x64 where
  lhsContracting := [2]
  rhsContracting := [2]
  lhsNonContracting := [3]
  rhsNonContracting := [3]
  lhsBatch := [0, 1]
  rhsBatch := [0, 1]
  wf := dot_S4x8x8192x64_S4x8x8192x64_S4x8x64x64_2_2_3_3_01_01_wf
def dot_S4x8x8192x64_S4x8x64x64_S4x8x8192x64_3_2_2_3_01_01 : DotDims S4x8x8192x64 S4x8x64x64 S4x8x8192x64 where
  lhsContracting := [3]
  rhsContracting := [2]
  lhsNonContracting := [2]
  rhsNonContracting := [3]
  lhsBatch := [0, 1]
  rhsBatch := [0, 1]
  wf := dot_S4x8x8192x64_S4x8x64x64_S4x8x8192x64_3_2_2_3_01_01_wf
def dot_S4x8192x512_S256x512_S4x8192x256_2_1_01_0_n_n : DotDims S4x8192x512 S256x512 S4x8192x256 where
  lhsContracting := [2]
  rhsContracting := [1]
  lhsNonContracting := [0, 1]
  rhsNonContracting := [0]
  lhsBatch := []
  rhsBatch := []
  wf := dot_S4x8192x512_S256x512_S4x8192x256_2_1_01_0_n_n_wf

class Facts : Prop extends Facts₀ where

variable [Facts]
-- ==== Proof.KernelRun.lean ====
/-
  The idealized kernel's run, with its result named.

  @main is three segments: the host operations that re-lay the weights, the first pallas_call (which builds
  `dots`), and the second (which builds the result). The buffer contents at the three boundaries are the fold `W1`,
  `W2`, `W3` of the generated frame module; every weakly fair execution terminates, nothing faulting, in a state
  whose unscoped TensorCore buffers hold `W3`. Read at the result's buffer this names the result array; read at the
  arguments' buffers it says they are unchanged.
-/
import proofs.«164319_j23467701305835_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the seven arguments as launched. -/
theorem run_W3 : θ_run defs (onTc (τ := τ) (main (F := F))) ⟨m, fun _ => 0, ρ⟩ (fun r => ∀ c : Dev nD,
      r.2.mem ((c.tc : Thread nD τ).loc main_v7) = W3 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v7 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Val

end
-- ==== Proof.DotsHead.lean ====
/-
  One head of the first pass, as one term.

  For a block of 2048 positions `x` (already narrowed to the matrix unit's input format), the key and value weights
  `wk`, `wv` of one head (64 lanes × 256 input channels) and the head's running 64 × 64 matrix `old`:
  project (`x · wkᵀ`, `x · wvᵀ`), normalise each projected row over its 64 lanes (subtract the mean, multiply by the
  reciprocal square root of the variance plus ε), contract the two normalised blocks over the 2048 positions
  (`Kᵀ V`), and add to `old`.

  The printed body unrolls its eight heads and cuts the text into fragments at fixed intervals, so each head's
  arithmetic arrives as a different composition of fragments; the equations below say that every one of them is this
  one update applied to that head's slices.
-/
import proofs.«164319_j23467701305835_1_alg».proof.Proof.Gen.KernelIdeal.Skeleton

noncomputable section

namespace Cert.KernelIdeal.Dots

open Cert.KernelIdeal Cert.KernelIdeal.Gen
open Idealize.ShloMosaic Idealize.ShloMosaic.TcCoe

variable {F : FTy → Type} [FloatOps F]

/-- The input block as the matrix unit takes it: its leading unit axis dropped, narrowed. -/
def xcast (x0 : Vec F S1x2048x256 .f32) : FVec F S2048x256 .bf16 :=
  truncf .bf16 (shapeCast S2048x256 x0 shapeCasts_S1x2048x256_S2048x256) bitsLt_bf16_f32

/-- One head's projection of the block: `x · wᵀ`, 2048 × 64. -/
def projv (x : FVec F S2048x256 .bf16) (w : Vec F S1x64x256 .f32) : FVec F S2048x64 .f32 :=
  matmul dot_S2048x256_S64x256_S2048x64_1_1_0_0_n_n none x
    (truncf .bf16 (shapeCast S64x256 w shapeCasts_S1x64x256_S64x256) bitsLt_bf16_f32)
    (constant S2048x64 .f32 0x00000000#32)

/-- The lane mean of each row, as a column. -/
def rowMean (v : FVec F S2048x64 .f32) : FVec F S2048x1 .f32 :=
  divf (shapeCast S2048x1 (multiReduction .add [1] S2048 v 0x00000000#32 reduces_S2048x64_S2048 (.inl rfl) rfl) shapeCasts_S2048_S2048x1)
    (broadcast S2048x1 (Scalar.ofBits .f32 0x42800000#32))

/-- Each row centred on its mean. -/
def centred (v : FVec F S2048x64 .f32) : FVec F S2048x64 .f32 :=
  subf v (broadcastTo S2048x64 (rowMean v) broadcasts_S2048x1_S2048x64)

/-- Each row normalised over its lanes, narrowed for the next product. -/
def inorm (v : FVec F S2048x64 .f32) : FVec F S2048x64 .bf16 :=
  truncf .bf16
    (mulf (centred v)
      (broadcastTo S2048x64
        (rsqrt (addf
          (divf (shapeCast S2048x1 (multiReduction .add [1] S2048 (mulf (centred v) (centred v)) 0x00000000#32 reduces_S2048x64_S2048 (.inl rfl) rfl) shapeCasts_S2048_S2048x1)
            (broadcast S2048x1 (Scalar.ofBits .f32 0x42800000#32)))
          (broadcast S2048x1 (Scalar.ofBits .f32 0x3727C5AC#32))))
        broadcasts_S2048x1_S2048x64))
    bitsLt_bf16_f32

/-- `Kᵀ V` of the block for one head: 64 × 64. -/
def partialDots (x : FVec F S2048x256 .bf16) (wk wv : Vec F S1x64x256 .f32) : FVec F S64x64 .f32 :=
  matmul dot_S2048x64_S2048x64_S64x64_0_0_1_1_n_n none (inorm (projv x wk)) (inorm (projv x wv)) (constant S64x64 .f32 0x00000000#32)

/-- The head's running matrix after this block. -/
def headStep (x : FVec F S2048x256 .bf16) (wk wv : Vec F S1x64x256 .f32) (old : Vec F S1x1x64x64 .f32) : FVec F S1x1x64x64 .f32 :=
  shapeCast S1x1x64x64 (addf (shapeCast S64x64 old shapeCasts_S1x1x64x64_S64x64) (partialDots x wk wv)) shapeCasts_S64x64_S1x1x64x64

variable (x0 : Vec F S1x2048x256 .f32) (wk wv : Vec F S1x64x256 .f32) (old : Vec F S1x1x64x64 .f32)

theorem head0 : k0_pay7 (k0_pay4 x0 wv) (k0_pay5 x0 wk) (k0_pay6 x0 wv) old = headStep (xcast x0) wk wv old := rfl
theorem head1 : k0_pay12 (k0_pay8 (k0_pay3 x0) wk) (k0_pay9 (k0_pay3 x0) wv) (k0_pay10 (k0_pay3 x0) wk) (k0_pay11 (k0_pay3 x0) wk) old
    = headStep (xcast x0) wk wv old := rfl
theorem head2 : k0_pay15 (k0_pay13 (k0_pay3 x0) wk) (k0_pay14 (k0_pay3 x0) wv) old = headStep (xcast x0) wk wv old := rfl
theorem head3 : k0_pay19 (k0_pay16 (k0_pay3 x0) wv) (k0_pay17 (k0_pay3 x0) wk) (k0_pay18 (k0_pay3 x0) wv) old
    = headStep (xcast x0) wk wv old := rfl
theorem head4 : k0_pay23 (k0_pay20 (k0_pay3 x0) wk) (k0_pay21 (k0_pay3 x0) wv) (k0_pay22 (k0_pay3 x0) wk) old
    = headStep (xcast x0) wk wv old := rfl
theorem head5 : k0_pay29 (k0_pay25 (k0_pay3 x0) wk) (k0_pay27 (k0_pay3 x0) wv) (k0_pay28 (k0_pay3 x0) wv) old
    = headStep (xcast x0) wk wv old := rfl
theorem head6 : k0_pay32 (k0_pay30 (k0_pay3 x0) wv) (k0_pay31 (k0_pay3 x0) wk) old = headStep (xcast x0) wk wv old := rfl
theorem head7 : k0_pay1 (k0_pay36 (k0_pay33 (k0_pay3 x0) wk) (k0_pay34 (k0_pay3 x0) wv) (k0_pay35 (k0_pay3 x0) wk) old)
    = headStep (xcast x0) wk wv old := rfl

end Cert.KernelIdeal.Dots

end
-- ==== Proof.LibRsqrtBlocks.lean ====
/-
  Two general facts about the extended reals, with no program in sight.

  * `Cert.Lib.mul_rsqrt_eq_div_sqrt`: at the ideal instance, a value times the reciprocal square root of `v` is the value
    divided by the square root of `v`, for EVERY extended real value and every `0 < v ≤ +∞` (at `v = +∞` both sides are
    `0`). With `Cert.Lib.mul_self_nonneg` (a square is nonnegative, infinite values included) this joins a normaliser
    written `(x − mean) · rsqrt (var + ε)` to one written `(x − mean) / sqrt (var + ε)` without any finiteness: a variance
    is a sum of squares over a positive real, so `var + ε > 0` for `ε > 0`.
  * `Cert.Lib.sum_blocks` / `Cert.Lib.sum_div_mod`: a sum over `N = a · b` consecutive indices is the double sum over `a`
    blocks of `b` (`Cert.Lib.blockEquiv a b : Fin a × Fin b ≃ Fin N`, `(i, j) ↦ i · b + j`, inverse `k ↦ (k / b, k % b)`):
    a contraction accumulated block by block over a grid axis against one whole contraction, or heads laid side by
    side against the concatenated lanes. Stated for sums in the extended reals; only commutativity and associativity
    of `+` are used.

  Imports only the ideal instance's operations.
-/
import Idealize.ShloMosaic.PureOps.Ideal

noncomputable section

open scoped BigOperators

namespace Cert.Lib

open Idealize.ShloMosaic

/-- A square is nonnegative on the extended reals: `(±∞)·(±∞) = +∞`. -/
theorem mul_self_nonneg (y : EReal) : 0 ≤ y * y := by
  induction y using EReal.rec with
  | bot => simp [EReal.bot_mul_bot]
  | top => simp [EReal.top_mul_top]
  | coe r => rw [← EReal.coe_mul]; exact_mod_cast _root_.mul_self_nonneg r

/-- Times the reciprocal square root is over the square root, for every `x` and every `0 < v ≤ +∞`. -/
theorem mul_rsqrt_eq_div_sqrt (x v : EReal) (hv : 0 < v) : x * Ideal.rsqrt v = Ideal.div x (Ideal.sqrt v) := by
  induction v using EReal.rec with
  | bot => exact absurd hv (by simp)
  | top =>
    show x * (0 : EReal) = Ideal.div x ⊤
    rw [mul_zero, Ideal.div, if_neg EReal.top_ne_zero, EReal.inv_top, mul_zero]
  | coe r =>
    have hr : 0 < r := by exact_mod_cast hv
    have hs : Real.sqrt r ≠ 0 := (Real.sqrt_pos.mpr hr).ne'
    have hs' : ((Real.sqrt r : ℝ) : EReal) ≠ 0 := by exact_mod_cast hs
    show x * (if r < 0 then ⊥ else if r = 0 then ⊤ else (((Real.sqrt r)⁻¹ : ℝ) : EReal))
      = Ideal.div x (if r < 0 then ⊥ else ((Real.sqrt r : ℝ) : EReal))
    rw [if_neg (not_lt.mpr hr.le), if_neg hr.ne', if_neg (not_lt.mpr hr.le), Ideal.div, if_neg hs', EReal.coe_inv]

/-! ## A long sum as blocks -/

/-- `a` blocks of `b` consecutive indices. -/
def blockEquiv {N : ℕ} (a b : ℕ) (hb : 0 < b) (hN : N = a * b) : Fin a × Fin b ≃ Fin N where
  toFun p := ⟨p.1.val * b + p.2.val, by
    subst hN
    calc p.1.val * b + p.2.val < p.1.val * b + b := Nat.add_lt_add_left p.2.isLt _
      _ = (p.1.val + 1) * b := (Nat.succ_mul _ _).symm
      _ ≤ a * b := Nat.mul_le_mul_right _ p.1.isLt⟩
  invFun k := (⟨k.val / b, (Nat.div_lt_iff_lt_mul hb).mpr (hN ▸ k.isLt)⟩, ⟨k.val % b, Nat.mod_lt _ hb⟩)
  left_inv p := by
    refine Prod.ext (Fin.ext ?_) (Fin.ext ?_)
    · show (p.1.val * b + p.2.val) / b = p.1.val
      rw [Nat.add_comm, Nat.add_mul_div_right _ _ hb, Nat.div_eq_of_lt p.2.isLt, Nat.zero_add]
    · show (p.1.val * b + p.2.val) % b = p.2.val
      rw [Nat.add_comm, Nat.add_mul_mod_self_right, Nat.mod_eq_of_lt p.2.isLt]
  right_inv k := Fin.ext (Nat.div_add_mod' k.val b)

/-- A sum over `a · b` consecutive indices, block by block. -/
theorem sum_blocks {N : ℕ} (a b : ℕ) (hb : 0 < b) (hN : N = a * b) (f : Fin N → EReal) :
    ∑ k, f k = ∑ i : Fin a, ∑ j : Fin b, f (blockEquiv a b hb hN (i, j)) := by
  rw [← (blockEquiv a b hb hN).sum_comp, Fintype.sum_prod_type]

/-- The same with the summand written over (block, position): `k` is in block `k / b` at position `k % b`. -/
theorem sum_div_mod {N : ℕ} (a b : ℕ) (hb : 0 < b) (hN : N = a * b) (g : Fin a → Fin b → EReal) :
    ∑ k : Fin N, g ((blockEquiv a b hb hN).symm k).1 ((blockEquiv a b hb hN).symm k).2 = ∑ i : Fin a, ∑ j : Fin b, g i j := by
  rw [sum_blocks a b hb hN]
  refine Finset.sum_congr rfl fun i _ => Finset.sum_congr rfl fun j _ => ?_
  rw [Equiv.symm_apply_apply]

end Cert.Lib

end
-- ==== Proof.Spec.lean ====
/-
  The mathematics both programs compute, stated once over the extended reals, with no program in sight.

  For a batch `b`, a position `n`, a head `h` and a lane `d`: the three projections of the input row `X[b, n, ·]` by
  the rows `h·64 + d` of `Wq`, `Wk`, `Wv`; the key and value rows are normalised over their 64 lanes (subtract the
  mean, divide by the square root of the variance plus `ε`); `dots[b, h]` is the 64 × 64 matrix `Kᵀ V` summed over all
  8192 positions; the output row is `(Q · dots) / 8192`, the heads laid side by side, times `Woᵀ`, plus the bias.

  Two facts join the two programs' arrangements of this formula:
  * `normK_eq_normR`: multiplying by the reciprocal square root of `v` is dividing by the square root of `v` whenever
    `0 < v` — at `v = +∞` both sides are `0` — and `v` here is a variance plus a positive constant: a sum of squares
    `y · y ≥ 0` (true of every extended real, infinite ones included) over 64, plus `ε > 0`. No finiteness is used.
  * a sum over `a · b` consecutive indices is the double sum over `a` blocks of `b` (`sum_blocks`): the positions
    8192 = 4 · 2048 and the concatenated head lanes 512 = 8 · 64.
-/
import proofs.«164319_j23467701305835_1_alg».proof.Proof.LibRsqrtBlocks
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

export Cert.Lib (mul_self_nonneg mul_rsqrt_eq_div_sqrt blockEquiv sum_blocks sum_div_mod)

/-! ## The three float constants -/

/-- The lane count `64.0`. -/
def c64 : EReal := Ideal.ofBits .f32 0x42800000#32
/-- The variance offset `ε` (the float nearest `1e-5`). -/
def eps : EReal := Ideal.ofBits .f32 0x3727C5AC#32
/-- The position count `8192.0`. -/
def cN : EReal := Ideal.ofBits .f32 0x46000000#32

theorem c64_eq : c64 = ((64 : ℝ) : EReal) := by
  unfold c64; simp [Ideal.ofBits, Ideal.ieee, -EReal.coe_mul]; norm_num

theorem eps_pos : (0 : EReal) < eps := by
  unfold eps
  simp [Ideal.ofBits, Ideal.ieee, -EReal.coe_mul]

/-! ## Normalising a row of 64 lanes -/

def mean (r : Fin 64 → EReal) : EReal := Ideal.div (∑ d, r d) c64
def cen (r : Fin 64 → EReal) (d : Fin 64) : EReal := r d - mean r
def var (r : Fin 64 → EReal) : EReal := Ideal.div (∑ d, cen r d * cen r d) c64
/-- The reference's normaliser: the centred lane over the square root. -/
def normR (r : Fin 64 → EReal) (d : Fin 64) : EReal := Ideal.div (cen r d) (Ideal.sqrt (var r + eps))
/-- The kernel's normaliser: the centred lane times the reciprocal square root. -/
def normK (r : Fin 64 → EReal) (d : Fin 64) : EReal := cen r d * Ideal.rsqrt (var r + eps)

theorem var_nonneg (r : Fin 64 → EReal) : 0 ≤ var r := by
  unfold var
  rw [c64_eq, Ideal.div_coe (by norm_num : (64 : ℝ) ≠ 0)]
  refine mul_nonneg (Finset.sum_nonneg fun d _ => mul_self_nonneg _) ?_
  exact_mod_cast (by norm_num : (0 : ℝ) ≤ 1 / 64)

theorem var_eps_pos (r : Fin 64 → EReal) : 0 < var r + eps :=
  lt_of_lt_of_le eps_pos (le_add_of_nonneg_left (var_nonneg r))

theorem normK_eq_normR (r : Fin 64 → EReal) (d : Fin 64) : normK r d = normR r d :=
  mul_rsqrt_eq_div_sqrt _ _ (var_eps_pos r)

/-! ## The attention formula -/

abbrev TX := (⟨3, ![4, 8192, 256]⟩ : Shape).Idx → EReal
abbrev TW := (⟨2, ![512, 256]⟩ : Shape).Idx → EReal
abbrev TWo := (⟨2, ![256, 512]⟩ : Shape).Idx → EReal
abbrev TB := (⟨1, ![256]⟩ : Shape).Idx → EReal

/-- Row `h·64 + d` of a projection weight: head `h`, lane `d`. -/
def he (h : Fin 8) (d : Fin 64) : Fin 512 := ⟨h.val * 64 + d.val, by have := h.isLt; have := d.isLt; omega⟩

/-- One projected entry: the input row against weight row `e`. -/
def proj (X : TX) (W : TW) (b : Fin 4) (n : Fin 8192) (e : Fin 512) : EReal :=
  ∑ c : Fin 256, X (ix3 b n c) * W (ix2 e c)

/-- The normalised key (or value) entry of head `h` at position `n`, lane `d`. -/
def kv (X : TX) (W : TW) (b : Fin 4) (h : Fin 8) (n : Fin 8192) (d : Fin 64) : EReal :=
  normR (fun d' => proj X W b n (he h d')) d

/-- `dots[b, h, d, e] = ∑ₙ K[b,h,n,d] · V[b,h,n,e]`. -/
def dots (X : TX) (Wk Wv : TW) (b : Fin 4) (h : Fin 8) (d e : Fin 64) : EReal :=
  ∑ n : Fin 8192, kv X Wk b h n d * kv X Wv b h n e

/-- `u[b, h, n, e] = (∑_d Q[b,h,n,d] · dots[b,h,d,e]) / 8192`. -/
def u (X : TX) (Wq Wk Wv : TW) (b : Fin 4) (h : Fin 8) (n : Fin 8192) (e : Fin 64) : EReal :=
  Ideal.div (∑ d : Fin 64, proj X Wq b n (he h d) * dots X Wk Wv b h d e) cN

/-- The result at `(b, n, o)`: the heads' lanes side by side (lane `k` is head `k / 64`, lane `k % 64`) against row `o` of `Wo`, plus the bias. -/
def out (X : TX) (Wq Wk Wv : TW) (Wo : TWo) (bo : TB) (b : Fin 4) (n : Fin 8192) (o : Fin 256) : EReal :=
  (∑ k : Fin 512, u X Wq Wk Wv b ⟨k.val / 64, by have := k.isLt; omega⟩ n ⟨k.val % 64, by omega⟩ * Wo (ix2 o k)) + bo (ix1 o)

/-! ## The same formula in the layouts the kernel's two passes use

The kernel keeps each projection weight as `[8, 64, 256]` (head, lane, input channel), the output weight as
`[8, 64, 256]` (head, lane, output channel), the bias as `[1, 256]`, and hands `dots` from its first pass to its second as a
`[4, 8, 64, 64]` array. -/

abbrev TW3 := (⟨3, ![8, 64, 256]⟩ : Shape).Idx → EReal
abbrev TD := (⟨4, ![4, 8, 64, 64]⟩ : Shape).Idx → EReal
abbrev TB2 := (⟨2, ![1, 256]⟩ : Shape).Idx → EReal

/-- Position `r` of block `j` of the 8192 positions, four blocks of 2048. -/
def pos (j : Fin 4) (r : Fin 2048) : Fin 8192 := ⟨j.val * 2048 + r.val, by have := j.isLt; have := r.isLt; omega⟩

/-- One projected entry against a per-head weight. -/
def projK (X : TX) (W3 : TW3) (b : Fin 4) (n : Fin 8192) (h : Fin 8) (d : Fin 64) : EReal :=
  ∑ c : Fin 256, X (ix3 b n c) * W3 (ix3 h d c)

/-- The first pass's normalised key (or value) entry: the kernel's normaliser. -/
def kvK (X : TX) (W3 : TW3) (b : Fin 4) (h : Fin 8) (n : Fin 8192) (d : Fin 64) : EReal :=
  normK (fun d' => projK X W3 b n h d') d

/-- What the first pass leaves: `Kᵀ V` summed block of positions by block. -/
def dotsK (X : TX) (Wk3 Wv3 : TW3) (b : Fin 4) (h : Fin 8) (d e : Fin 64) : EReal :=
  ∑ j : Fin 4, ∑ r : Fin 2048, kvK X Wk3 b h (pos j r) d * kvK X Wv3 b h (pos j r) e

/-- What the second pass leaves at `(b, n, o)`, from the array `D` the first pass handed it: head by head, lane by lane. -/
def outK (X : TX) (Wq3 : TW3) (D : TD) (Wo3 : TW3) (bo2 : TB2) (b : Fin 4) (n : Fin 8192) (o : Fin 256) : EReal :=
  (∑ h : Fin 8, ∑ e : Fin 64, Ideal.div (∑ d : Fin 64, projK X Wq3 b n h d * D (ix4 b h d e)) cN * Wo3 (ix3 h e o))
    + bo2 (ix2 (0 : Fin 1) o)

end Cert.Spec

end
-- ==== Proof.DotsHeadValue.lean ====
/-
  One head of the first pass, read at an index over the extended reals.

  A projected entry is the sum over the 256 input channels; a normalised entry is `Cert.Spec.normK` of the projected
  row's 64 lanes; the block's contribution to the head's 64 × 64 matrix at `(d, e)` is the sum over the block's 2048
  positions of the normalised key lane `d` times the normalised value lane `e`.
-/
import proofs.«164319_j23467701305835_1_alg».proof.Proof.DotsHead
import proofs.«164319_j23467701305835_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Dots

open Cert.KernelIdeal Cert.KernelIdeal.Gen
open Idealize.ShloMosaic Idealize.ShloMosaic.TcCoe Idealize.ShloMosaic.ValueIdx

/-- The projection's dimension numbers: contract axis 1 of both operands. -/
abbrev Dproj := dot_S2048x256_S64x256_S2048x64_1_1_0_0_n_n
/-- `Kᵀ V`'s dimension numbers: contract axis 0 (the positions) of both operands. -/
abbrev Dkv := dot_S2048x64_S2048x64_S64x64_0_0_1_1_n_n

theorem Dproj_lhs0 (j : S2048x64.Idx) (q : Dproj.contr.Idx) : (Dproj.lhsIdx j q 0).val = (j 0).val := by
  unfold DotDims.lhsIdx
  rw [dif_neg (show ¬(0 : Fin S2048x256.rank) ∈ Dproj.lhsBatch by decide), dif_pos (show (0 : Fin S2048x256.rank) ∈ Dproj.lhsNonContracting by decide)]
  rfl
theorem Dproj_rhs0 (j : S2048x64.Idx) (q : Dproj.contr.Idx) : (Dproj.rhsIdx j q 0).val = (j 1).val := by
  unfold DotDims.rhsIdx
  rw [dif_neg (show ¬(0 : Fin S64x256.rank) ∈ Dproj.rhsBatch by decide), dif_pos (show (0 : Fin S64x256.rank) ∈ Dproj.rhsNonContracting by decide)]
  rfl

/-- A projected entry: row `r` of the block against lane `d` of the head's weight. -/
theorem projv_apply (x : FVec Ideal S2048x256 .bf16) (w : Vec Ideal S1x64x256 .f32) (r : Fin 2048) (d : Fin 64) :
    projv x w (ix2 r d) = ∑ c : Fin 256, x (ix2 r c) * w (ix3 (0 : Fin 1) d c) := by
  unfold projv
  refine (Ideal.matmul_constant_zero_apply Dproj none x _ (ix2 r d)).trans ?_
  rw [← Equiv.sum_comp (contrEquiv1 Dproj 256 rfl rfl).symm]
  refine Finset.sum_congr rfl fun k _ => ?_
  have hk := contrEquiv1_symm_val Dproj 256 rfl rfl k
  have el : Dproj.lhsIdx (ix2 r d) ((contrEquiv1 Dproj 256 rfl rfl).symm k) = ix2 r k := funext fun a => Fin.ext (by
    match a with
    | ⟨0, _⟩ => exact Dproj_lhs0 _ _
    | ⟨1, _⟩ => exact (Dproj.lhsIdx_val_of_single rfl _ _).trans hk)
  have er : Dproj.rhsIdx (ix2 r d) ((contrEquiv1 Dproj 256 rfl rfl).symm k) = ix2 d k := funext fun a => Fin.ext (by
    match a with
    | ⟨0, _⟩ => exact Dproj_rhs0 _ _
    | ⟨1, _⟩ => exact (Dproj.rhsIdx_val_of_single rfl _ _).trans hk)
  rw [el, er, truncf_apply]
  exact congrArg (x (ix2 r k) * ·) (shapeCast_1ab_ab_apply w _ d k)

/-- A column `[a]` re-laid as `[a, 1]` reads the same entry. -/
theorem col_cast_apply {a : ℕ} (v : (⟨1, ![a]⟩ : Shape).Idx → EReal) (h : (⟨1, ![a]⟩ : Shape).ShapeCasts ⟨2, ![a, 1]⟩) (r : Fin a) :
    shapeCast (⟨2, ![a, 1]⟩ : Shape) v h (ix2 r (0 : Fin 1)) = v (ix1 r) := by
  refine shapeCast_apply v h _ _ ?_
  rw [Shape.rowMajor_val_one, Shape.rowMajor_val_two]
  show r.val = r.val * 1 + 0
  omega

/-- The sum of a row's 64 lanes. -/
theorem laneSum_apply (v : FVec Ideal S2048x64 .f32) (r : Fin 2048) :
    multiReduction .add [1] S2048 v 0x00000000#32 reduces_S2048x64_S2048 (.inl rfl) rfl (ix1 r) = ∑ d : Fin 64, v (ix2 r d) := by
  refine (Ideal.multiReduction_add_single v 0x00000000#32 reduces_S2048x64_S2048 (.inl rfl) rfl (ix1 r)).trans ?_
  refine Finset.sum_congr rfl fun k _ => congrArg v (funext fun a => Fin.ext ?_)
  match a with
  | ⟨0, _⟩ => rfl
  | ⟨1, _⟩ => rfl

/-- A column `[2048, 1]` spread over the 64 lanes reads the row's entry. -/
theorem col_bcast_apply (u : FVec Ideal S2048x1 .f32) (r : Fin 2048) (d : Fin 64) :
    broadcastTo S2048x64 u broadcasts_S2048x1_S2048x64 (ix2 r d) = u (ix2 r (0 : Fin 1)) :=
  broadcastTo_apply u broadcasts_S2048x1_S2048x64 (ix2 r d) (ix2 r (0 : Fin 1)) (fun a => by
    match a with
    | ⟨0, _⟩ => rfl
    | ⟨1, _⟩ => rfl)

theorem rowMean_apply (v : FVec Ideal S2048x64 .f32) (r : Fin 2048) :
    rowMean v (ix2 r (0 : Fin 1)) = Cert.Spec.mean (fun d => v (ix2 r d)) := by
  unfold rowMean Cert.Spec.mean
  rw [divf_apply, broadcast_apply, col_cast_apply]
  exact congrArg (fun s => Ideal.div s Cert.Spec.c64) (laneSum_apply v r)

theorem centred_apply (v : FVec Ideal S2048x64 .f32) (r : Fin 2048) (d : Fin 64) :
    centred v (ix2 r d) = Cert.Spec.cen (fun d' => v (ix2 r d')) d := by
  unfold centred Cert.Spec.cen
  rw [subf_apply, col_bcast_apply, rowMean_apply]

theorem rsqrt_apply {s : Shape} {φ : FTy} (a : FVec Ideal s φ) (i : s.Idx) : rsqrt a i = Ideal.rsqrt (a i) := rfl

/-- A normalised entry is the specification's normaliser of the row's lanes. -/
theorem inorm_apply (v : FVec Ideal S2048x64 .f32) (r : Fin 2048) (d : Fin 64) :
    inorm v (ix2 r d) = Cert.Spec.normK (fun d' => v (ix2 r d')) d := by
  unfold inorm Cert.Spec.normK Cert.Spec.var
  rw [truncf_apply, mulf_apply, centred_apply, col_bcast_apply, rsqrt_apply, addf_apply, divf_apply, broadcast_apply, broadcast_apply,
    col_cast_apply]
  refine congrArg (fun s => Cert.Spec.cen (fun d' => v (ix2 r d')) d * Ideal.rsqrt (Ideal.div s Cert.Spec.c64 + Cert.Spec.eps))
    ((laneSum_apply _ r).trans ?_)
  refine Finset.sum_congr rfl fun d' _ => ?_
  rw [mulf_apply, centred_apply]

/-- The normalised entry of one head's key (or value) projection at row `r`, lane `d`. -/
def kn (x : FVec Ideal S2048x256 .bf16) (w : Vec Ideal S1x64x256 .f32) (r : Fin 2048) (d : Fin 64) : EReal :=
  Cert.Spec.normK (fun d' => ∑ c : Fin 256, x (ix2 r c) * w (ix3 (0 : Fin 1) d' c)) d

theorem inorm_projv_apply (x : FVec Ideal S2048x256 .bf16) (w : Vec Ideal S1x64x256 .f32) (r : Fin 2048) (d : Fin 64) :
    inorm (projv x w) (ix2 r d) = kn x w r d := by
  rw [inorm_apply]
  unfold kn
  exact congrArg (fun f => Cert.Spec.normK f d) (funext fun d' => projv_apply x w r d')

theorem Dkv_lhs1 (j : S64x64.Idx) (q : Dkv.contr.Idx) : (Dkv.lhsIdx j q 1).val = (j 0).val := by
  unfold DotDims.lhsIdx
  rw [dif_neg (show ¬(1 : Fin S2048x64.rank) ∈ Dkv.lhsBatch by decide), dif_pos (show (1 : Fin S2048x64.rank) ∈ Dkv.lhsNonContracting by decide)]
  rfl
theorem Dkv_rhs1 (j : S64x64.Idx) (q : Dkv.contr.Idx) : (Dkv.rhsIdx j q 1).val = (j 1).val := by
  unfold DotDims.rhsIdx
  rw [dif_neg (show ¬(1 : Fin S2048x64.rank) ∈ Dkv.rhsBatch by decide), dif_pos (show (1 : Fin S2048x64.rank) ∈ Dkv.rhsNonContracting by decide)]
  rfl

/-- The block's `Kᵀ V` at `(d, e)`: the sum over its 2048 positions. -/
theorem partialDots_apply (x : FVec Ideal S2048x256 .bf16) (wk wv : Vec Ideal S1x64x256 .f32) (d e : Fin 64) :
    partialDots x wk wv (ix2 d e) = ∑ r : Fin 2048, kn x wk r d * kn x wv r e := by
  unfold partialDots
  refine (Ideal.matmul_constant_zero_apply Dkv none _ _ (ix2 d e)).trans ?_
  rw [← Equiv.sum_comp (contrEquiv1 Dkv 2048 rfl rfl).symm]
  refine Finset.sum_congr rfl fun k _ => ?_
  have hk := contrEquiv1_symm_val Dkv 2048 rfl rfl k
  have el : Dkv.lhsIdx (ix2 d e) ((contrEquiv1 Dkv 2048 rfl rfl).symm k) = ix2 k d := funext fun a => Fin.ext (by
    match a with
    | ⟨0, _⟩ => exact (Dkv.lhsIdx_val_of_single rfl _ _).trans hk
    | ⟨1, _⟩ => exact Dkv_lhs1 _ _)
  have er : Dkv.rhsIdx (ix2 d e) ((contrEquiv1 Dkv 2048 rfl rfl).symm k) = ix2 k e := funext fun a => Fin.ext (by
    match a with
    | ⟨0, _⟩ => exact (Dkv.rhsIdx_val_of_single rfl _ _).trans hk
    | ⟨1, _⟩ => exact Dkv_rhs1 _ _)
  rw [el, er, inorm_projv_apply, inorm_projv_apply]

/-- A `[1, 1, a, b]` array re-laid as `[a, b]`, and back, read the same entry. -/
theorem cast_11ab_ab_apply {a b : ℕ} (x : (⟨4, ![1, 1, a, b]⟩ : Shape).Idx → EReal)
    (h : (⟨4, ![1, 1, a, b]⟩ : Shape).ShapeCasts ⟨2, ![a, b]⟩) (i : Fin a) (j : Fin b) :
    shapeCast (⟨2, ![a, b]⟩ : Shape) x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])
theorem cast_ab_11ab_apply {a b : ℕ} (x : (⟨2, ![a, b]⟩ : Shape).Idx → EReal)
    (h : (⟨2, ![a, b]⟩ : Shape).ShapeCasts ⟨4, ![1, 1, a, b]⟩) (i : Fin a) (j : Fin b) :
    shapeCast (⟨4, ![1, 1, a, b]⟩ : Shape) x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    simp only [Nat.zero_mul, Nat.zero_add])

/-- The head's running matrix after the block, at `(d, e)`: what it held plus the block's `Kᵀ V`. -/
theorem headStep_apply (x : FVec Ideal S2048x256 .bf16) (wk wv : Vec Ideal S1x64x256 .f32) (old : Vec Ideal S1x1x64x64 .f32) (d e : Fin 64) :
    headStep x wk wv old (ix4 (0 : Fin 1) (0 : Fin 1) d e)
      = old (ix4 (0 : Fin 1) (0 : Fin 1) d e) + ∑ r : Fin 2048, kn x wk r d * kn x wv r e := by
  unfold headStep
  rw [cast_ab_11ab_apply, addf_apply, cast_11ab_ab_apply, partialDots_apply]

end Cert.KernelIdeal.Dots

end
-- ==== Proof.DotsPoint.lean ====
/-
  What the first pass leaves in its output block after one grid point.

  The output block is `[1, 8, 64, 64]`: one 64 × 64 matrix per head. At a grid point the body reads a block of 2048
  positions of the input and, head by head, adds that block's `Kᵀ V` to the head's matrix. So after the point the
  block holds, at `(0, h, d, e)`, what it held before plus `blockPart … h d e`, the sum over the block's 2048 positions of the
  normalised key lane `d` times the normalised value lane `e` of head `h`. At the first point of each batch the body
  first clears the block, so "what it held before" is zero there.
-/
import proofs.«164319_j23467701305835_1_alg».proof.Proof.Gen.KernelIdeal.Frame
import proofs.«164319_j23467701305835_1_alg».proof.Proof.DotsHeadValue
import Idealize.ShloMosaic.Lib.Tactic

set_option maxRecDepth 16384

noncomputable section

open scoped BigOperators

namespace Cert.KernelIdeal.Dots

open Cert.KernelIdeal Cert.KernelIdeal.Gen
open Idealize.ShloMosaic Idealize.ShloMosaic.TcCoe Idealize.ShloMosaic.ValueIdx Idealize.ShloMosaic.Tactic Idealize.SL.Sem

/-! ## Slices of the staged blocks, read at an index -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The narrowed input block reads the staged block. -/
theorem xcast_apply (x0 : Vec Ideal S1x2048x256 .f32) (r : Fin 2048) (c : Fin 256) :
    xcast x0 (ix2 r c) = x0 (ix3 (0 : Fin 1) r c) := by
  unfold xcast
  rw [truncf_apply]
  exact shapeCast_1ab_ab_apply x0 _ r c

/-- Head `k`'s slice of a `[8, 64, 256]` weight. -/
theorem ld_head (w : Vec Ideal S8x64x256 .f32) (k : ℕ) (hk : k < 8) (inb) (d : Fin 64) (c : Fin 256) :
    View.ld w (Rect.unit (s := S8x64x256) ![k, 0, 0] S1x64x256.size inb) (ix3 (0 : Fin 1) d c) = w (ix3 (⟨k, hk⟩ : Fin 8) d c) :=
  congrArg w (funext fun a => Fin.ext (by
    match a with
    | ⟨0, _⟩ => show k + 1 * 0 = k; omega
    | ⟨1, _⟩ => show 0 + 1 * d.val = d.val; omega
    | ⟨2, _⟩ => show 0 + 1 * c.val = c.val; omega))

/-- Head `k`'s matrix of the output block, as an index of the block. -/
theorem emb_head (k : ℕ) (hk : k < 8) (inb) (d e : Fin 64) :
    (Rect.unit (s := S1x8x64x64) ![0, k, 0, 0] S1x1x64x64.size inb).emb (ix4 (0 : Fin 1) (0 : Fin 1) d e)
      = ix4 (0 : Fin 1) (⟨k, hk⟩ : Fin 8) d e :=
  funext fun a => Fin.ext (by
    match a with
    | ⟨0, _⟩ => show 0 + 1 * 0 = 0; omega
    | ⟨1, _⟩ => show k + 1 * 0 = k; omega
    | ⟨2, _⟩ => show 0 + 1 * d.val = d.val; omega
    | ⟨3, _⟩ => show 0 + 1 * e.val = e.val; omega)

theorem ld_old (xo : Vec Ideal S1x8x64x64 .f32) (k : ℕ) (hk : k < 8) (inb) (d e : Fin 64) :
    View.ld xo (Rect.unit (s := S1x8x64x64) ![0, k, 0, 0] S1x1x64x64.size inb) (ix4 (0 : Fin 1) (0 : Fin 1) d e)
      = xo (ix4 (0 : Fin 1) (⟨k, hk⟩ : Fin 8) d e) :=
  congrArg xo (emb_head k hk inb d e)

/-- Every index of a `[1, 1, 64, 64]` block is `(0, 0, d, e)`. -/
theorem exists_ix4_00 (x : (⟨4, ![1, 1, 64, 64]⟩ : Shape).Idx) : ∃ d e : Fin 64, x = ix4 (0 : Fin 1) (0 : Fin 1) d e :=
  ⟨x 2, x 3, funext fun a => by
    match a with
    | ⟨0, _⟩ => exact Fin.ext (show (x 0).val = 0 from Nat.lt_one_iff.mp (x 0).isLt)
    | ⟨1, _⟩ => exact Fin.ext (show (x 1).val = 0 from Nat.lt_one_iff.mp (x 1).isLt)
    | ⟨2, _⟩ => rfl
    | ⟨3, _⟩ => rfl⟩

/-! ## One head's contribution -/

/-- The normalised key (or value) entry of head `h` at row `r` of the staged block, lane `d`. -/
def knA (x0 : Vec Ideal S1x2048x256 .f32) (w : Vec Ideal S8x64x256 .f32) (h : Fin 8) (r : Fin 2048) (d : Fin 64) : EReal :=
  Cert.Spec.normK (fun d' => ∑ c : Fin 256, x0 (ix3 (0 : Fin 1) r c) * w (ix3 h d' c)) d

/-- The staged block's `Kᵀ V` for head `h` at `(d, e)`. -/
def blockPart (x0 : Vec Ideal S1x2048x256 .f32) (x1 x2 : Vec Ideal S8x64x256 .f32) (h : Fin 8) (d e : Fin 64) : EReal :=
  ∑ r : Fin 2048, knA x0 x1 h r d * knA x0 x2 h r e

theorem kn_head (x0 : Vec Ideal S1x2048x256 .f32) (w : Vec Ideal S8x64x256 .f32) (k : ℕ) (hk : k < 8) (inb0 inb) (r : Fin 2048) (d : Fin 64) :
    kn (xcast (View.ld x0 (Rect.unit (s := S1x2048x256) ![0, 0, 0] S1x2048x256.size inb0)))
        (View.ld w (Rect.unit (s := S8x64x256) ![k, 0, 0] S1x64x256.size inb)) r d
      = knA x0 w ⟨k, hk⟩ r d := by
  unfold kn knA
  rw [View.ld_unit_zero hz3]
  refine congrArg (fun f => Cert.Spec.normK f d) (funext fun d' => Finset.sum_congr rfl fun c _ => ?_)
  rw [xcast_apply, ld_head w k hk]

/-- One head's update of its matrix by the staged block, at `(d, e)`. -/
theorem piece_apply (x0 : Vec Ideal S1x2048x256 .f32) (x1 x2 : Vec Ideal S8x64x256 .f32) (old : Vec Ideal S1x1x64x64 .f32)
    (k : ℕ) (hk : k < 8) (inb0 inb1 inb2) (d e : Fin 64) :
    headStep (xcast (View.ld x0 (Rect.unit (s := S1x2048x256) ![0, 0, 0] S1x2048x256.size inb0)))
        (View.ld x1 (Rect.unit (s := S8x64x256) ![k, 0, 0] S1x64x256.size inb1))
        (View.ld x2 (Rect.unit (s := S8x64x256) ![k, 0, 0] S1x64x256.size inb2)) old (ix4 (0 : Fin 1) (0 : Fin 1) d e)
      = old (ix4 (0 : Fin 1) (0 : Fin 1) d e) + blockPart x0 x1 x2 ⟨k, hk⟩ d e := by
  rw [headStep_apply]
  unfold blockPart
  refine congrArg (old (ix4 (0 : Fin 1) (0 : Fin 1) d e) + ·) (Finset.sum_congr rfl fun r _ => ?_)
  rw [kn_head x0 x1 k hk, kn_head x0 x2 k hk]

/-! ## A point that adds to what the block held -/

/-- The block after a point that found `xo` in it. -/
def stepOver (x0 : Vec Ideal S1x2048x256 .f32) (x1 x2 : Vec Ideal S8x64x256 .f32) (xo : Vec Ideal S1x8x64x64 .f32) :
    S1x8x64x64.Idx → EReal :=
  fun y => xo y + blockPart x0 x1 x2 (y 1) (y 2) (y 3)

/-- A head's piece is the block of `stepOver` its rectangle names. -/
theorem piece_stepOver (x0 : Vec Ideal S1x2048x256 .f32) (x1 x2 : Vec Ideal S8x64x256 .f32) (xo : Vec Ideal S1x8x64x64 .f32)
    (k : ℕ) (hk : k < 8) (inb0 inb1 inb2 inbo inb)
    (x : (Rect.unit (s := S1x8x64x64) ![0, k, 0, 0] ![1, 1, 64, 64] inb).shape.Idx) :
    headStep (xcast (View.ld x0 (Rect.unit (s := S1x2048x256) ![0, 0, 0] S1x2048x256.size inb0)))
        (View.ld x1 (Rect.unit (s := S8x64x256) ![k, 0, 0] S1x64x256.size inb1))
        (View.ld x2 (Rect.unit (s := S8x64x256) ![k, 0, 0] S1x64x256.size inb2))
        (View.ld xo (Rect.unit (s := S1x8x64x64) ![0, k, 0, 0] S1x1x64x64.size inbo)) x
      = stepOver x0 x1 x2 xo ((Rect.unit (s := S1x8x64x64) ![0, k, 0, 0] ![1, 1, 64, 64] inb).emb x) := by
  obtain ⟨d, e, rfl⟩ := exists_ix4_00 x
  rw [piece_apply x0 x1 x2 _ k hk, ld_old xo k hk, emb_head k hk]
  rfl

theorem out_B_apply (c : Dev nD) (i : grid0.Coords) (a2 : Memref sig .tc .vmem S1x2048x256 .f32) (h2 : a2.IsWhole)
    (a3 : Memref sig .tc .vmem S8x64x256 .f32) (h3 : a3.IsWhole) (a4 : Memref sig .tc .vmem S8x64x256 .f32) (h4 : a4.IsWhole)
    (a5 : Memref sig .tc .vmem S1x8x64x64 .f32) (h5 : a5.IsWhole) (hc : ¬cond0_0 i)
    (x0 : Vec Ideal S1x2048x256 .f32) (x1 x2 : Vec Ideal S8x64x256 .f32) (xo : Vec Ideal S1x8x64x64 .f32) :
    out0_B_3 (F := Ideal) c i a2 h2 a3 h3 a4 h4 a5 h5 hc x0 x1 x2 xo = stepOver x0 x1 x2 xo := by
  funext y
  unfold out0_B_3
  rw [View.read_writes_eq_canon _ _ _ (cover0_B_3 c i a2 h2 a3 h3 a4 h4 a5 h5 hc x0 x1 x2 xo)]
  refine View.canon_apply_of_pieces (stepOver x0 x1 x2 xo) _ ?_ y (cover0_B_3 c i a2 h2 a3 h3 a4 h4 a5 h5 hc x0 x1 x2 xo y)
  unfold kernelRun0_B
  dsimp only
  sl_unfold_words
  simp only [View.readAt_eq_ld, h2.read_unread, h3.read_unread, h4.read_unread, h5.read_unread, head0, head1, head2, head3, head4,
    head5, head6, head7]
  intro p hp x
  simp only [List.mem_cons, List.not_mem_nil, or_false] at hp
  rcases hp with rfl | rfl | rfl | rfl | rfl | rfl | rfl | rfl
  · exact piece_stepOver x0 x1 x2 xo 7 (by omega) inb_S1x2048x256_S1x2048x256_0_0_0 inb_S8x64x256_S1x64x256_7_0_0 inb_S8x64x256_S1x64x256_7_0_0
      inb_S1x8x64x64_S1x1x64x64_0_7_0_0 inb_S1x8x64x64_S1x1x64x64_0_7_0_0 x
  · exact piece_stepOver x0 x1 x2 xo 6 (by omega) inb_S1x2048x256_S1x2048x256_0_0_0 inb_S8x64x256_S1x64x256_6_0_0 inb_S8x64x256_S1x64x256_6_0_0
      inb_S1x8x64x64_S1x1x64x64_0_6_0_0 inb_S1x8x64x64_S1x1x64x64_0_6_0_0 x
  · exact piece_stepOver x0 x1 x2 xo 5 (by omega) inb_S1x2048x256_S1x2048x256_0_0_0 inb_S8x64x256_S1x64x256_5_0_0 inb_S8x64x256_S1x64x256_5_0_0
      inb_S1x8x64x64_S1x1x64x64_0_5_0_0 inb_S1x8x64x64_S1x1x64x64_0_5_0_0 x
  · exact piece_stepOver x0 x1 x2 xo 4 (by omega) inb_S1x2048x256_S1x2048x256_0_0_0 inb_S8x64x256_S1x64x256_4_0_0 inb_S8x64x256_S1x64x256_4_0_0
      inb_S1x8x64x64_S1x1x64x64_0_4_0_0 inb_S1x8x64x64_S1x1x64x64_0_4_0_0 x
  · exact piece_stepOver x0 x1 x2 xo 3 (by omega) inb_S1x2048x256_S1x2048x256_0_0_0 inb_S8x64x256_S1x64x256_3_0_0 inb_S8x64x256_S1x64x256_3_0_0
      inb_S1x8x64x64_S1x1x64x64_0_3_0_0 inb_S1x8x64x64_S1x1x64x64_0_3_0_0 x
  · exact piece_stepOver x0 x1 x2 xo 2 (by omega) inb_S1x2048x256_S1x2048x256_0_0_0 inb_S8x64x256_S1x64x256_2_0_0 inb_S8x64x256_S1x64x256_2_0_0
      inb_S1x8x64x64_S1x1x64x64_0_2_0_0 inb_S1x8x64x64_S1x1x64x64_0_2_0_0 x
  · exact piece_stepOver x0 x1 x2 xo 1 (by omega) inb_S1x2048x256_S1x2048x256_0_0_0 inb_S8x64x256_S1x64x256_1_0_0 inb_S8x64x256_S1x64x256_1_0_0
      inb_S1x8x64x64_S1x1x64x64_0_1_0_0 inb_S1x8x64x64_S1x1x64x64_0_1_0_0 x
  · exact piece_stepOver x0 x1 x2 xo 0 (by omega) inb_S1x2048x256_S1x2048x256_0_0_0 inb_S8x64x256_S1x64x256_0_0_0 inb_S8x64x256_S1x64x256_0_0_0
      inb_S1x8x64x64_S1x1x64x64_0_0_0_0 inb_S1x8x64x64_S1x1x64x64_0_0_0_0 x

/-! ## The first point of a batch: the block is cleared, then each head adds to its cleared matrix -/

/-- A list of stores read back at an index that some store of a PREFIX covers, when every store of the prefix is a
    block of one function `G`: the stores after the prefix (made earlier) are never consulted. -/
theorem canon_prefix {S : Shape} {e : EltTy} {Val : EltTy → Type} [∀ e, Nonempty (Val e)] (G : S.Idx → Val e) :
    ∀ (L L' : List (View.Piece Val S e)) (_ : ∀ p ∈ L, ∀ x : p.1.shape.Idx, p.2 x = G (p.1.emb x)) (y : S.Idx)
      (_ : ∃ p ∈ L, y ∈ p.1.set), View.canon (L ++ L') y = G y
  | [], _, _, _, hy => by obtain ⟨p, hp, _⟩ := hy; simp at hp
  | p :: L, L', hL, y, hy => by
    by_cases hm : y ∈ p.1.set
    · obtain ⟨x, rfl⟩ := p.1.exists_idx_of_mem hm
      rw [List.cons_append, show p.1.idx x = p.1.emb x from rfl, View.canon_cons_emb]
      exact hL p (by simp) x
    · rw [List.cons_append, View.canon_cons_of_not_mem _ _ hm]
      refine canon_prefix G L L' (fun q hq => hL q (by simp [hq])) y ?_
      obtain ⟨q, hq, hyq⟩ := hy
      rcases List.mem_cons.mp hq with rfl | hq'
      · exact absurd hyq hm
      · exact ⟨q, hq', hyq⟩

/-- An index of head `h`'s matrix is not in head `k`'s, `k ≠ h`. -/
theorem not_mem_head (k : ℕ) (inb) (y : S1x8x64x64.Idx) (h : (y 1).val ≠ k) :
    y ∉ (Rect.unit (s := S1x8x64x64) ![0, k, 0, 0] S1x1x64x64.size inb).set := by
  rw [Rect.mem_set_unit]
  intro hm
  have h1 : k ≤ (y 1).val ∧ (y 1).val < k + 1 := hm 1
  omega

theorem not_mem_head' (k : ℕ) (inb) (h : Fin 8) (d e : Fin 64) (hne : h.val ≠ k) :
    ix4 (0 : Fin 1) h d e ∉ (Rect.unit (s := S1x8x64x64) ![0, k, 0, 0] S1x1x64x64.size inb).set :=
  not_mem_head k inb _ hne

/-- Step over one earlier head's store: the index is in another head's matrix. -/
macro "skip_head" : tactic =>
  `(tactic| (rw [View.canon_cons_of_not_mem]; on_goal 2 => (dsimp only; exact not_mem_head' _ _ _ _ _ (by decide))))

/-- The cleared block reads zero. -/
theorem cleared_apply (y : S1x8x64x64.Idx) : k0_pay2 (F := Ideal) y = 0 := Ideal.ofBits_zero_f32

section Cleared

variable (c : Dev nD) (a2 : Memref sig .tc .vmem S1x2048x256 .f32) (h2 : a2.IsWhole)
  (a3 : Memref sig .tc .vmem S8x64x256 .f32) (h3 : a3.IsWhole) (a4 : Memref sig .tc .vmem S8x64x256 .f32) (h4 : a4.IsWhole)
  (a5 : Memref sig .tc .vmem S1x8x64x64 .f32)
  (x0 : Vec Ideal S1x2048x256 .f32) (x1 x2 : Vec Ideal S8x64x256 .f32) (d e : Fin 64)

/-! Each head's load of its old matrix, at the first point of a batch, comes after the clearing store and the earlier
    heads' stores; those touch other heads' matrices, so it reads the cleared block: zero. -/

theorem old0 : kernelRun0_A.sl.v53 (F := Ideal) c a5 (ix4 (0 : Fin 1) (0 : Fin 1) d e) = 0 := by
  unfold kernelRun0_A.sl.v53
  rw [View.readCov_eq_canon']
  simp only [kernelRun0_A.sl.H3_1]
  rw [View.canon_unit_zero hz4]
  exact cleared_apply _

theorem old1 : kernelRun0_A.sl.v106 (F := Ideal) c a2 h2 a3 h3 a4 h4 a5 x0 x1 x2 (ix4 (0 : Fin 1) (0 : Fin 1) d e) = 0 := by
  unfold kernelRun0_A.sl.v106
  rw [View.readCov_eq_canon']
  simp only [kernelRun0_A.sl.H3_2, kernelRun0_A.sl.H3_1]
  show View.canon _ ((Rect.unit (s := S1x8x64x64) ![0, 1, 0, 0] S1x1x64x64.size inb_S1x8x64x64_S1x1x64x64_0_1_0_0).emb (ix4 (0 : Fin 1) (0 : Fin 1) d e)) = 0
  rw [emb_head 1 (by omega)]
  repeat skip_head
  rw [View.canon_unit_zero hz4]
  exact cleared_apply _

theorem old2 : kernelRun0_A.sl.v159 (F := Ideal) c a2 h2 a3 h3 a4 h4 a5 x0 x1 x2 (ix4 (0 : Fin 1) (0 : Fin 1) d e) = 0 := by
  unfold kernelRun0_A.sl.v159
  rw [View.readCov_eq_canon']
  simp only [kernelRun0_A.sl.H3_3, kernelRun0_A.sl.H3_2, kernelRun0_A.sl.H3_1]
  show View.canon _ ((Rect.unit (s := S1x8x64x64) ![0, 2, 0, 0] S1x1x64x64.size inb_S1x8x64x64_S1x1x64x64_0_2_0_0).emb (ix4 (0 : Fin 1) (0 : Fin 1) d e)) = 0
  rw [emb_head 2 (by omega)]
  repeat skip_head
  rw [View.canon_unit_zero hz4]
  exact cleared_apply _

theorem old3 : kernelRun0_A.sl.v212 (F := Ideal) c a2 h2 a3 h3 a4 h4 a5 x0 x1 x2 (ix4 (0 : Fin 1) (0 : Fin 1) d e) = 0 := by
  unfold kernelRun0_A.sl.v212
  rw [View.readCov_eq_canon']
  simp only [kernelRun0_A.sl.H3_4, kernelRun0_A.sl.H3_3, kernelRun0_A.sl.H3_2, kernelRun0_A.sl.H3_1]
  show View.canon _ ((Rect.unit (s := S1x8x64x64) ![0, 3, 0, 0] S1x1x64x64.size inb_S1x8x64x64_S1x1x64x64_0_3_0_0).emb (ix4 (0 : Fin 1) (0 : Fin 1) d e)) = 0
  rw [emb_head 3 (by omega)]
  repeat skip_head
  rw [View.canon_unit_zero hz4]
  exact cleared_apply _

theorem old4 : kernelRun0_A.sl.v265 (F := Ideal) c a2 h2 a3 h3 a4 h4 a5 x0 x1 x2 (ix4 (0 : Fin 1) (0 : Fin 1) d e) = 0 := by
  unfold kernelRun0_A.sl.v265
  rw [View.readCov_eq_canon']
  simp only [kernelRun0_A.sl.H3_5, kernelRun0_A.sl.H3_4, kernelRun0_A.sl.H3_3, kernelRun0_A.sl.H3_2, kernelRun0_A.sl.H3_1]
  show View.canon _ ((Rect.unit (s := S1x8x64x64) ![0, 4, 0, 0] S1x1x64x64.size inb_S1x8x64x64_S1x1x64x64_0_4_0_0).emb (ix4 (0 : Fin 1) (0 : Fin 1) d e)) = 0
  rw [emb_head 4 (by omega)]
  repeat skip_head
  rw [View.canon_unit_zero hz4]
  exact cleared_apply _

theorem old5 : kernelRun0_A.sl.v318 (F := Ideal) c a2 h2 a3 h3 a4 h4 a5 x0 x1 x2 (ix4 (0 : Fin 1) (0 : Fin 1) d e) = 0 := by
  unfold kernelRun0_A.sl.v318
  rw [View.readCov_eq_canon']
  simp only [kernelRun0_A.sl.H3_6, kernelRun0_A.sl.H3_5, kernelRun0_A.sl.H3_4, kernelRun0_A.sl.H3_3, kernelRun0_A.sl.H3_2, kernelRun0_A.sl.H3_1]
  show View.canon _ ((Rect.unit (s := S1x8x64x64) ![0, 5, 0, 0] S1x1x64x64.size inb_S1x8x64x64_S1x1x64x64_0_5_0_0).emb (ix4 (0 : Fin 1) (0 : Fin 1) d e)) = 0
  rw [emb_head 5 (by omega)]
  repeat skip_head
  rw [View.canon_unit_zero hz4]
  exact cleared_apply _

theorem old6 : kernelRun0_A.sl.v371 (F := Ideal) c a2 h2 a3 h3 a4 h4 a5 x0 x1 x2 (ix4 (0 : Fin 1) (0 : Fin 1) d e) = 0 := by
  unfold kernelRun0_A.sl.v371
  rw [View.readCov_eq_canon']
  simp only [kernelRun0_A.sl.H3_7, kernelRun0_A.sl.H3_6, kernelRun0_A.sl.H3_5, kernelRun0_A.sl.H3_4, kernelRun0_A.sl.H3_3, kernelRun0_A.sl.H3_2,
    kernelRun0_A.sl.H3_1]
  show View.canon _ ((Rect.unit (s := S1x8x64x64) ![0, 6, 0, 0] S1x1x64x64.size inb_S1x8x64x64_S1x1x64x64_0_6_0_0).emb (ix4 (0 : Fin 1) (0 : Fin 1) d e)) = 0
  rw [emb_head 6 (by omega)]
  repeat skip_head
  rw [View.canon_unit_zero hz4]
  exact cleared_apply _

theorem old7 : kernelRun0_A.sl.v424 (F := Ideal) c a2 h2 a3 h3 a4 h4 a5 x0 x1 x2 (ix4 (0 : Fin 1) (0 : Fin 1) d e) = 0 := by
  unfold kernelRun0_A.sl.v424
  rw [View.readCov_eq_canon']
  simp only [kernelRun0_A.sl.H3_8, kernelRun0_A.sl.H3_7, kernelRun0_A.sl.H3_6, kernelRun0_A.sl.H3_5, kernelRun0_A.sl.H3_4, kernelRun0_A.sl.H3_3,
    kernelRun0_A.sl.H3_2, kernelRun0_A.sl.H3_1]
  show View.canon _ ((Rect.unit (s := S1x8x64x64) ![0, 7, 0, 0] S1x1x64x64.size inb_S1x8x64x64_S1x1x64x64_0_7_0_0).emb (ix4 (0 : Fin 1) (0 : Fin 1) d e)) = 0
  rw [emb_head 7 (by omega)]
  repeat skip_head
  rw [View.canon_unit_zero hz4]
  exact cleared_apply _

end Cleared

/-- The block after the first point of a batch: each head's matrix is the staged block's `Kᵀ V`. -/
def stepFirst (x0 : Vec Ideal S1x2048x256 .f32) (x1 x2 : Vec Ideal S8x64x256 .f32) : S1x8x64x64.Idx → EReal :=
  fun y => blockPart x0 x1 x2 (y 1) (y 2) (y 3)

/-- A head's piece, its old matrix reading zero, is the block of `stepFirst` its rectangle names. -/
theorem piece_stepFirst (x0 : Vec Ideal S1x2048x256 .f32) (x1 x2 : Vec Ideal S8x64x256 .f32) (old : Vec Ideal S1x1x64x64 .f32)
    (hold : ∀ d e : Fin 64, old (ix4 (0 : Fin 1) (0 : Fin 1) d e) = 0)
    (k : ℕ) (hk : k < 8) (inb0 inb1 inb2 inb)
    (x : (Rect.unit (s := S1x8x64x64) ![0, k, 0, 0] ![1, 1, 64, 64] inb).shape.Idx) :
    headStep (xcast (View.ld x0 (Rect.unit (s := S1x2048x256) ![0, 0, 0] S1x2048x256.size inb0)))
        (View.ld x1 (Rect.unit (s := S8x64x256) ![k, 0, 0] S1x64x256.size inb1))
        (View.ld x2 (Rect.unit (s := S8x64x256) ![k, 0, 0] S1x64x256.size inb2)) old x
      = stepFirst x0 x1 x2 ((Rect.unit (s := S1x8x64x64) ![0, k, 0, 0] ![1, 1, 64, 64] inb).emb x) := by
  obtain ⟨d, e, rfl⟩ := exists_ix4_00 x
  rw [piece_apply x0 x1 x2 _ k hk, hold, zero_add, emb_head k hk]
  rfl

/-- Nine stores, the last of them first: the eight heads' and, before them, the clearing one. -/
theorem nine_split {α : Type} (p7 p6 p5 p4 p3 p2 p1 p0 z : α) :
    [p7, p6, p5, p4, p3, p2, p1, p0, z] = [p7, p6, p5, p4, p3, p2, p1, p0] ++ [z] := rfl

theorem out_A_apply (c : Dev nD) (i : grid0.Coords) (a2 : Memref sig .tc .vmem S1x2048x256 .f32) (h2 : a2.IsWhole)
    (a3 : Memref sig .tc .vmem S8x64x256 .f32) (h3 : a3.IsWhole) (a4 : Memref sig .tc .vmem S8x64x256 .f32) (h4 : a4.IsWhole)
    (a5 : Memref sig .tc .vmem S1x8x64x64 .f32) (h5 : a5.IsWhole) (hc : cond0_0 i)
    (x0 : Vec Ideal S1x2048x256 .f32) (x1 x2 : Vec Ideal S8x64x256 .f32) :
    out0_A_3 (F := Ideal) c i a2 h2 a3 h3 a4 h4 a5 h5 hc x0 x1 x2 = stepFirst x0 x1 x2 := by
  funext y
  unfold out0_A_3
  rw [View.read_writes_eq_canon _ _ _ (cover0_A_3 c i a2 h2 a3 h3 a4 h4 a5 h5 hc x0 x1 x2)]
  unfold kernelRun0_A
  dsimp only
  simp only [kernelRun0_A.sl.H3_8, kernelRun0_A.sl.H3_7, kernelRun0_A.sl.H3_6, kernelRun0_A.sl.H3_5, kernelRun0_A.sl.H3_4,
    kernelRun0_A.sl.H3_3, kernelRun0_A.sl.H3_2, kernelRun0_A.sl.H3_1, kernelRun0_A.sl.r, kernelRun0_A.sl.r_1, kernelRun0_A.sl.r_2,
    kernelRun0_A.sl.r_3, kernelRun0_A.sl.r_4, kernelRun0_A.sl.r_5, kernelRun0_A.sl.r_6, kernelRun0_A.sl.r_7, kernelRun0_A.sl.r_8,
    kernelRun0_A.sl.r_9, kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19, kernelRun0_A.sl.r_20,
    kernelRun0_A.sl.r_21, kernelRun0_A.sl.r_22, kernelRun0_A.sl.r_23, kernelRun0_A.sl.r_24, kernelRun0_A.sl.r_25]
  simp only [View.readAt_eq_ld, h2.read_unread, h3.read_unread, h4.read_unread, head0, head1, head2, head3, head4, head5, head6, head7]
  rw [nine_split]
  refine canon_prefix (S := S1x8x64x64) (e := EltTy.f32) (Val := Elt Ideal) (stepFirst x0 x1 x2) _ _ ?_ y ?_
  · intro p hp x
    simp only [List.mem_cons, List.not_mem_nil, or_false] at hp
    rcases hp with rfl | rfl | rfl | rfl | rfl | rfl | rfl | rfl
    · exact piece_stepFirst x0 x1 x2 _ (old7 c a2 h2 a3 h3 a4 h4 a5 x0 x1 x2) 7 (by omega) inb_S1x2048x256_S1x2048x256_0_0_0
        inb_S8x64x256_S1x64x256_7_0_0 inb_S8x64x256_S1x64x256_7_0_0 inb_S1x8x64x64_S1x1x64x64_0_7_0_0 x
    · exact piece_stepFirst x0 x1 x2 _ (old6 c a2 h2 a3 h3 a4 h4 a5 x0 x1 x2) 6 (by omega) inb_S1x2048x256_S1x2048x256_0_0_0
        inb_S8x64x256_S1x64x256_6_0_0 inb_S8x64x256_S1x64x256_6_0_0 inb_S1x8x64x64_S1x1x64x64_0_6_0_0 x
    · exact piece_stepFirst x0 x1 x2 _ (old5 c a2 h2 a3 h3 a4 h4 a5 x0 x1 x2) 5 (by omega) inb_S1x2048x256_S1x2048x256_0_0_0
        inb_S8x64x256_S1x64x256_5_0_0 inb_S8x64x256_S1x64x256_5_0_0 inb_S1x8x64x64_S1x1x64x64_0_5_0_0 x
    · exact piece_stepFirst x0 x1 x2 _ (old4 c a2 h2 a3 h3 a4 h4 a5 x0 x1 x2) 4 (by omega) inb_S1x2048x256_S1x2048x256_0_0_0
        inb_S8x64x256_S1x64x256_4_0_0 inb_S8x64x256_S1x64x256_4_0_0 inb_S1x8x64x64_S1x1x64x64_0_4_0_0 x
    · exact piece_stepFirst x0 x1 x2 _ (old3 c a2 h2 a3 h3 a4 h4 a5 x0 x1 x2) 3 (by omega) inb_S1x2048x256_S1x2048x256_0_0_0
        inb_S8x64x256_S1x64x256_3_0_0 inb_S8x64x256_S1x64x256_3_0_0 inb_S1x8x64x64_S1x1x64x64_0_3_0_0 x
    · exact piece_stepFirst x0 x1 x2 _ (old2 c a2 h2 a3 h3 a4 h4 a5 x0 x1 x2) 2 (by omega) inb_S1x2048x256_S1x2048x256_0_0_0
        inb_S8x64x256_S1x64x256_2_0_0 inb_S8x64x256_S1x64x256_2_0_0 inb_S1x8x64x64_S1x1x64x64_0_2_0_0 x
    · exact piece_stepFirst x0 x1 x2 _ (old1 c a2 h2 a3 h3 a4 h4 a5 x0 x1 x2) 1 (by omega) inb_S1x2048x256_S1x2048x256_0_0_0
        inb_S8x64x256_S1x64x256_1_0_0 inb_S8x64x256_S1x64x256_1_0_0 inb_S1x8x64x64_S1x1x64x64_0_1_0_0 x
    · exact piece_stepFirst x0 x1 x2 _ (old0 c a5) 0 (by omega) inb_S1x2048x256_S1x2048x256_0_0_0
        inb_S8x64x256_S1x64x256_0_0_0 inb_S8x64x256_S1x64x256_0_0_0 inb_S1x8x64x64_S1x1x64x64_0_0_0_0 x
  · exact View.cover_of_tiledL (s := S1x8x64x64) _ S1x1x64x64.size (by sl_kernel_rfl) y

end Cert.KernelIdeal.Dots

end
-- ==== Proof.DotsRegion.lean ====
/-
  What the first pass leaves in its result array.

  The grid is 4 batches × 4 blocks of 2048 positions; point `t` is batch `t / 4`, block `t % 4`. The output block of a
  batch stays staged through the batch's four points and is written back after the fourth. At the first point the block
  is cleared and receives that block of positions' `Kᵀ V`; each later point adds its own. So what is written back for
  batch `b` is, head by head, the sum over the four blocks of positions of the sum over each block's 2048 positions —
  `Cert.Spec.dotsK` — and the four write-backs tile the `[4, 8, 64, 64]` array.
-/
import proofs.«164319_j23467701305835_1_alg».proof.Proof.DotsPoint

set_option maxRecDepth 16384

noncomputable section

open scoped BigOperators

namespace Cert.KernelIdeal.Dots

open Cert.KernelIdeal Cert.KernelIdeal.Gen
open Idealize.ShloMosaic Idealize.ShloMosaic.TcCoe Idealize.ShloMosaic.ValueIdx Idealize.SL.Sem

/-! ## The windows' blocks -/

theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 4) = t.val / 4 ∧ win0_3.index t (1 : Fin 4) = 0 ∧ win0_3.index t (2 : Fin 4) = 0 ∧ win0_3.index t (3 : Fin 4) = 0 :=
  (by decide +kernel : ∀ t : Fin grid0.N, _)

section Blocks
variable (V : (c : Dev nD) → (b : Ref sig .tc) → Buf (Elt Ideal) ((c : Thread nD τ).loc b)) (c : Dev nD) (t : Fin cfg0.N)

/-- The block of input rows: row `r` of the block is position `(t % 4) · 2048 + r` of batch `t / 4`. -/
theorem rows_apply (u : Fin 1) (r : Fin 2048) (k : Fin 256) (b : Fin 4) (n : Fin 8192)
    (hb : b.val = t.val / 4) (hn : n.val = t.val % 4 * 2048 + r.val) :
    (iblk0 V c 0 t : Vec Ideal S1x2048x256 .f32) (ix3 u r k) = (V c main_arg0 : S4x8192x256.Idx → EReal) (ix3 b n k) := by
  obtain ⟨e0, e1, e2, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 3) * 1 + 1 * u.val = b.val; have := u.isLt; omega
  | ⟨1, _⟩ => show win0_0.index t (1 : Fin 3) * 2048 + 1 * r.val = n.val; omega
  | ⟨2, _⟩ => show win0_0.index t (2 : Fin 3) * 256 + 1 * k.val = k.val; omega

/-- The key weight is staged whole. -/
theorem keyWeight_apply (h : Fin 8) (d : Fin 64) (k : Fin 256) :
    (iblk0 V c 1 t : Vec Ideal S8x64x256 .f32) (ix3 h d k) = (V c main_v1 : S8x64x256.Idx → EReal) (ix3 h d k) := by
  obtain ⟨-, -, -, e0, e1, e2, -⟩ := idx_facts0 t
  unfold iblk0
  rw [View.read_apply]
  show V c main_v1 _ = V c main_v1 _
  refine congrArg (V c main_v1) (funext fun a => Fin.ext ?_)
  match a with
  | ⟨0, _⟩ => show win0_1.index t (0 : Fin 3) * 8 + 1 * h.val = h.val; omega
  | ⟨1, _⟩ => show win0_1.index t (1 : Fin 3) * 64 + 1 * d.val = d.val; omega
  | ⟨2, _⟩ => show win0_1.index t (2 : Fin 3) * 256 + 1 * k.val = k.val; omega

/-- The value weight is staged whole. -/
theorem valWeight_apply (h : Fin 8) (d : Fin 64) (k : Fin 256) :
    (iblk0 V c 2 t : Vec Ideal S8x64x256 .f32) (ix3 h d k) = (V c main_v2 : S8x64x256.Idx → EReal) (ix3 h d k) := by
  obtain ⟨-, -, -, -, -, -, e0, e1, e2, -⟩ := idx_facts0 t
  unfold iblk0
  rw [View.read_apply]
  show V c main_v2 _ = V c main_v2 _
  refine congrArg (V c main_v2) (funext fun a => Fin.ext ?_)
  match a with
  | ⟨0, _⟩ => show win0_2.index t (0 : Fin 3) * 8 + 1 * h.val = h.val; omega
  | ⟨1, _⟩ => show win0_2.index t (1 : Fin 3) * 64 + 1 * d.val = d.val; omega
  | ⟨2, _⟩ => show win0_2.index t (2 : Fin 3) * 256 + 1 * k.val = k.val; omega

/-- A normalised entry of the point's blocks is the specification's, at batch `t / 4`, position `(t % 4) · 2048 + r`. -/
theorem knA_key (h : Fin 8) (r : Fin 2048) (d : Fin 64) (b : Fin 4) (j : Fin 4) (hb : b.val = t.val / 4) (hj : j.val = t.val % 4) :
    knA (iblk0 V c 0 t) (iblk0 V c 1 t) h r d = Cert.Spec.kvK (V c main_arg0) (V c main_v1) b h (Cert.Spec.pos j r) d := by
  unfold knA Cert.Spec.kvK Cert.Spec.projK
  refine congrArg (fun f => Cert.Spec.normK f d) (funext fun d' => Finset.sum_congr rfl fun k _ => ?_)
  exact congrArg₂ (· * ·) (rows_apply V c t 0 r k b (Cert.Spec.pos j r) hb (by show j.val * 2048 + r.val = _; omega))
    (keyWeight_apply V c t h d' k)

theorem knA_val (h : Fin 8) (r : Fin 2048) (d : Fin 64) (b : Fin 4) (j : Fin 4) (hb : b.val = t.val / 4) (hj : j.val = t.val % 4) :
    knA (iblk0 V c 0 t) (iblk0 V c 2 t) h r d = Cert.Spec.kvK (V c main_arg0) (V c main_v2) b h (Cert.Spec.pos j r) d := by
  unfold knA Cert.Spec.kvK Cert.Spec.projK
  refine congrArg (fun f => Cert.Spec.normK f d) (funext fun d' => Finset.sum_congr rfl fun k _ => ?_)
  exact congrArg₂ (· * ·) (rows_apply V c t 0 r k b (Cert.Spec.pos j r) hb (by show j.val * 2048 + r.val = _; omega))
    (valWeight_apply V c t h d' k)

/-- The point's contribution to head `h`'s matrix at `(d, e)`: block `t % 4` of the specification's sum. -/
theorem blockPart_blocks (h : Fin 8) (d e : Fin 64) (b : Fin 4) (j : Fin 4) (hb : b.val = t.val / 4) (hj : j.val = t.val % 4) :
    blockPart (iblk0 V c 0 t) (iblk0 V c 1 t) (iblk0 V c 2 t) h d e
      = ∑ r : Fin 2048, Cert.Spec.kvK (V c main_arg0) (V c main_v1) b h (Cert.Spec.pos j r) d
          * Cert.Spec.kvK (V c main_arg0) (V c main_v2) b h (Cert.Spec.pos j r) e := by
  unfold blockPart
  refine Finset.sum_congr rfl fun r _ => ?_
  rw [knA_key V c t h r d b j hb hj, knA_val V c t h r e b j hb hj]

end Blocks

/-! ## The block through a batch's four points -/

section Chain
variable (V : (c : Dev nD) → (b : Ref sig .tc) → Buf (Elt Ideal) ((c : Thread nD τ).loc b)) (c : Dev nD)

/-- Point `n`'s contribution to the staged block. -/
def contrib (n : ℕ) (hn : n < cfg0.N) (y : S1x8x64x64.Idx) : EReal :=
  blockPart (iblk0 V c 0 ⟨n, hn⟩) (iblk0 V c 1 ⟨n, hn⟩) (iblk0 V c 2 ⟨n, hn⟩) (y 1) (y 2) (y 3)

/-- After the first point of a batch the block holds that point's contribution. -/
theorem outsAt_first (n : ℕ) (hn : n < cfg0.N) (hA : n % 4 = 0) (y : S1x8x64x64.Idx) :
    outsAt0 (F := Ideal) V c n hn y = contrib V c n hn y :=
  congrFun ((outsAt0_A V c ⟨n, hn⟩ hA).trans (out_A_apply c _ _ _ _ _ _ _ _ _ _ _ _ _)) y

/-- After a later point it holds what it held plus that point's contribution. -/
theorem outsAt_succ (n : ℕ) (hn : n + 1 < cfg0.N) (hB : ¬(n + 1) % 4 = 0) (y : S1x8x64x64.Idx) :
    outsAt0 (F := Ideal) V c (n + 1) hn y = outsAt0 (F := Ideal) V c n (Nat.lt_of_succ_lt hn) y + contrib V c (n + 1) hn y :=
  congrFun ((outsAt0_B V c ⟨n + 1, hn⟩ hB).trans (out_B_apply c _ _ _ _ _ _ _ _ _ _ _ _ _ _)) y

/-- After a batch's fourth point: the four contributions, in point order. -/
theorem outsAt_fourth (m : ℕ) (hm : m + 1 + 1 + 1 < cfg0.N) (h0 : m % 4 = 0) (y : S1x8x64x64.Idx) :
    outsAt0 (F := Ideal) V c (m + 1 + 1 + 1) hm y
      = contrib V c m (by omega) y + contrib V c (m + 1) (by omega) y + contrib V c (m + 1 + 1) (by omega) y
          + contrib V c (m + 1 + 1 + 1) hm y := by
  rw [outsAt_succ V c (m + 1 + 1) hm (by omega), outsAt_succ V c (m + 1) (by omega) (by omega),
    outsAt_succ V c m (by omega) (by omega), outsAt_first V c m (by omega) h0]

end Chain

/-! ## From the blocks to the array -/

section Array
variable (V : (c : Dev nD) → (b : Ref sig .tc) → Buf (Elt Ideal) ((c : Thread nD τ).loc b)) (c : Dev nD)

theorem contrib_ix4 (n : ℕ) (hn : n < cfg0.N) (u : Fin 1) (h : Fin 8) (d e : Fin 64) :
    contrib V c n hn (ix4 u h d e) = blockPart (iblk0 V c 0 ⟨n, hn⟩) (iblk0 V c 1 ⟨n, hn⟩) (iblk0 V c 2 ⟨n, hn⟩) h d e := rfl

/-- The staged block after a batch's fourth point, at `(u, h, d, e)`: the specification's `dotsK` of the batch. -/
theorem fourth_eq (m : ℕ) (hm : m + 1 + 1 + 1 < cfg0.N) (h0 : m % 4 = 0) (u : Fin 1) (h : Fin 8) (d e : Fin 64) (b : Fin 4)
    (hb : b.val = m / 4) :
    outsAt0 (F := Ideal) V c (m + 1 + 1 + 1) hm (ix4 u h d e)
      = Cert.Spec.dotsK (V c main_arg0) (V c main_v1) (V c main_v2) b h d e := by
  have hN : cfg0.N = 16 := N_0
  rw [outsAt_fourth V c m hm h0, contrib_ix4, contrib_ix4, contrib_ix4, contrib_ix4]
  unfold Cert.Spec.dotsK
  rw [Fin.sum_univ_four,
    blockPart_blocks V c ⟨m, by omega⟩ h d e b 0 (by show b.val = m / 4; omega) (by show 0 = m % 4; omega),
    blockPart_blocks V c ⟨m + 1, by omega⟩ h d e b 1 (by show b.val = (m + 1) / 4; omega) (by show 1 = (m + 1) % 4; omega),
    blockPart_blocks V c ⟨m + 1 + 1, by omega⟩ h d e b 2 (by show b.val = (m + 1 + 1) / 4; omega) (by show 2 = (m + 1 + 1) % 4; omega),
    blockPart_blocks V c ⟨m + 1 + 1 + 1, hm⟩ h d e b 3 (by show b.val = (m + 1 + 1 + 1) / 4; omega) (by show 3 = (m + 1 + 1 + 1) % 4; omega)]

/-- The first pass's result array, index by index. -/
def dotsArr : S4x8x64x64.Idx → EReal :=
  fun i => Cert.Spec.dotsK (V c main_arg0) (V c main_v1) (V c main_v2) (i 0) (i 1) (i 2) (i 3)

/-- The staged block at a fourth point, at a block index `y`, against the array index `i` it is written to. -/
theorem block_point0 (t : Fin cfg0.N) (h3 : t.val % 4 = 3) (y : S1x8x64x64.Idx) (i : S4x8x64x64.Idx)
    (h0 : (i 0).val = t.val / 4) (h1 : (i 1).val = (y 1).val) (h2 : (i 2).val = (y 2).val) (h3' : (i 3).val = (y 3).val) :
    outsAt0 (F := Ideal) V c t.val t.isLt y = dotsArr V c i := by
  obtain ⟨u, h, d, e, rfl⟩ : ∃ (u : Fin 1) (h : Fin 8) (d e : Fin 64), y = ix4 u h d e := ⟨y 0, y 1, y 2, y 3, eq_ix4 y⟩
  obtain ⟨b, h', d', e', rfl⟩ : ∃ (b : Fin 4) (h' : Fin 8) (d' e' : Fin 64), i = ix4 b h' d' e' := ⟨i 0, i 1, i 2, i 3, eq_ix4 i⟩
  obtain rfl : h' = h := Fin.ext h1
  obtain rfl : d' = d := Fin.ext h2
  obtain rfl : e' = e := Fin.ext h3'
  have key : ∀ (n : ℕ) (hn : n < cfg0.N) (m : ℕ), n = m + 1 + 1 + 1 → m % 4 = 0 → b.val = m / 4 →
      outsAt0 (F := Ideal) V c n hn (ix4 u h' d' e') = Cert.Spec.dotsK (V c main_arg0) (V c main_v1) (V c main_v2) b h' d' e' := by
    intro n hn m hnm hm0 hbm
    subst hnm
    exact fourth_eq V c m hn hm0 u h' d' e' b hbm
  exact key t.val t.isLt (t.val - 3) (by omega) (by omega) (by show b.val = (t.val - 3) / 4; have : b.val = t.val / 4 := h0; omega)

/-- What a batch's fourth point writes back is its block of the result. -/
theorem flushed_eq0 (t : Fin cfg0.N) (hf : (cfg0.win 3).flush t = true) :
    (dat0 (F := Ideal) V c).flushed 3 t = ((cfg0.win 3).blk t).view.read (Elt Ideal) (dotsArr V c) := by
  have h3 : t.val % 4 = 3 := (flush0_3 t).mp hf
  show (cfg0.win 3).cut (grid0.coords t) ((dat0 V c).after 3 t) = _
  rw [after0_3]
  funext y
  obtain ⟨-, -, -, -, -, -, -, -, -, e0, e1, e2, e3⟩ := idx_facts0 t
  have hy0 : (y 0).val < 1 := (y 0).isLt
  show outsAt0 (F := Ideal) V c t.val t.isLt y = dotsArr V c (((cfg0.win 3).blk t).view.emb y)
  exact block_point0 V c t h3 y (((cfg0.win 3).blk t).view.emb y)
    (by show win0_3.index t (0 : Fin 4) * 1 + 1 * (y 0).val = t.val / 4; omega)
    (by show win0_3.index t (1 : Fin 4) * 8 + 1 * (y 1).val = (y 1).val; omega)
    (by show win0_3.index t (2 : Fin 4) * 64 + 1 * (y 2).val = (y 2).val; omega)
    (by show win0_3.index t (3 : Fin 4) * 64 + 1 * (y 3).val = (y 3).val; omega)

/-- An index of the result is in point `t`'s block iff each coordinate is in the block's range on its axis. -/
theorem mem_blk0 (t : Fin cfg0.N) (i : S4x8x64x64.Idx) :
    i ∈ ((cfg0.win 3).blk t).view.set ↔ ∀ a : Fin 4, win0_3.index t a * S1x8x64x64.size a ≤ (i a).val
      ∧ (i a).val < win0_3.index t a * S1x8x64x64.size a + S1x8x64x64.size a := by
  show i ∈ ((View.whole main_v6).slice (win0_3.rect t)).set ↔ _
  rw [View.set_slice_whole, Rect.mem_set_unit]
  exact Iff.rfl

/-- Every index of the result is in the block some batch's fourth point writes back. -/
theorem cover0 (i : S4x8x64x64.Idx) :
    ∃ t : Fin cfg0.N, (cfg0.win 3).flush t = true ∧ i ∈ ((cfg0.win 3).blk t).view.set := by
  have hN : cfg0.N = 16 := N_0
  have h0 : (i 0).val < 4 := (i 0).isLt
  have h1 : (i 1).val < 8 := (i 1).isLt
  have h2 : (i 2).val < 64 := (i 2).isLt
  have h3 : (i 3).val < 64 := (i 3).isLt
  obtain ⟨t, ht⟩ : ∃ t : Fin cfg0.N, t.val = (i 0).val * 4 + 3 := ⟨⟨(i 0).val * 4 + 3, by rw [hN]; omega⟩, rfl⟩
  refine ⟨t, (flush0_3 t).mpr (by omega), ?_⟩
  rw [mem_blk0]
  obtain ⟨-, -, -, -, -, -, -, -, -, e0, e1, e2, e3⟩ := idx_facts0 t
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 8 ≤ (i 1).val ∧ (i 1).val < win0_3.index t (1 : Fin 4) * 8 + 8; omega
  | ⟨2, _⟩ => show win0_3.index t (2 : Fin 4) * 64 ≤ (i 2).val ∧ (i 2).val < win0_3.index t (2 : Fin 4) * 64 + 64; omega
  | ⟨3, _⟩ => show win0_3.index t (3 : Fin 4) * 64 ≤ (i 3).val ∧ (i 3).val < win0_3.index t (3 : Fin 4) * 64 + 64; omega

/-- The first pass's result array: `dotsK` of the arrays the pass found, at every index. -/
theorem final0 : (dat0 (F := Ideal) V c).arrAt 3 cfg0.N = dotsArr V c :=
  (dat0 (F := Ideal) V c).arrAt_eq_of_cover 3 _ (fun t hf => flushed_eq0 V c t hf) cover0

end Array

end Cert.KernelIdeal.Dots

end
-- ==== Proof.OutRegion.lean ====
/-
  The second pass of the two-pass linear attention, read as one formula.

  At a grid point the pass holds a block of 2048 input rows `x` (one batch, one quarter of the positions), the whole
  query weight `Wq` and output weight `Wo` laid out as (head, lane, channel), the batch's eight 64 × 64 matrices `D_h`
  that the first pass summed, and the bias row. For each head `h` in turn it adds

      ((x · Wq_hᵀ) · D_h / 8192) · Wo_h

  onto an accumulator that starts at zero, then adds the bias to every row and stores the block. Over the extended
  reals every operation is exact and a change of float format is the identity, so at row `r`, output channel `o` the
  stored value is

      (∑_h ∑_e ((∑_d (∑_k x[r,k] · Wq[h,d,k]) · D[h,d,e]) / 8192) · Wo[h,e,o]) + bias[o],

  the three products being plain sums over their one contracted axis. The sixteen grid points' blocks tile the
  `[4, 8192, 256]` result — point `t` is batch `t / 4`, positions `(t % 4) · 2048 …` — and every point writes its block
  back, so the result array ends holding that formula of the arrays the pass found, at every index (`final1`).
  Only associativity of the eight-term sum and `0 + a = a` are used: no law that needs finite values.
-/
import proofs.«164319_j23467701305835_1_alg».proof.Proof.Gen.KernelIdeal.Frame
import proofs.«164319_j23467701305835_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.ValueIdx

namespace Cert.KernelIdeal.OutRegion

open Cert.KernelIdeal Cert.KernelIdeal.Gen

/-! ## The three matrix products of one head, read at an index

Each is a product into a zero accumulator, so at an output index it is the plain sum over its one contracted axis.
First, per product, where its operands are read: the free axis of each operand follows the output index, the summed
axis follows the summation index. -/

theorem rowsByRows_lhs_free (j : S2048x64.Idx) (q : dot_S2048x256_S64x256_S2048x64_1_1_0_0_n_n.contr.Idx) : (dot_S2048x256_S64x256_S2048x64_1_1_0_0_n_n.lhsIdx j q 0).val = (j 0).val := by
  unfold DotDims.lhsIdx
  rw [dif_neg (show ¬(0 : Fin S2048x256.rank) ∈ dot_S2048x256_S64x256_S2048x64_1_1_0_0_n_n.lhsBatch by decide), dif_pos (show (0 : Fin S2048x256.rank) ∈ dot_S2048x256_S64x256_S2048x64_1_1_0_0_n_n.lhsNonContracting by decide)]
  rfl
theorem rowsByRows_lhs_sum (j : S2048x64.Idx) (q : dot_S2048x256_S64x256_S2048x64_1_1_0_0_n_n.contr.Idx) : (dot_S2048x256_S64x256_S2048x64_1_1_0_0_n_n.lhsIdx j q 1).val = (q ⟨0, by decide⟩).val :=
  dot_S2048x256_S64x256_S2048x64_1_1_0_0_n_n.lhsIdx_val_of_single rfl j q
theorem rowsByRows_rhs_free (j : S2048x64.Idx) (q : dot_S2048x256_S64x256_S2048x64_1_1_0_0_n_n.contr.Idx) : (dot_S2048x256_S64x256_S2048x64_1_1_0_0_n_n.rhsIdx j q 0).val = (j 1).val := by
  unfold DotDims.rhsIdx
  rw [dif_neg (show ¬(0 : Fin S64x256.rank) ∈ dot_S2048x256_S64x256_S2048x64_1_1_0_0_n_n.rhsBatch by decide), dif_pos (show (0 : Fin S64x256.rank) ∈ dot_S2048x256_S64x256_S2048x64_1_1_0_0_n_n.rhsNonContracting by decide)]
  rfl
theorem rowsByRows_rhs_sum (j : S2048x64.Idx) (q : dot_S2048x256_S64x256_S2048x64_1_1_0_0_n_n.contr.Idx) : (dot_S2048x256_S64x256_S2048x64_1_1_0_0_n_n.rhsIdx j q 1).val = (q ⟨0, by decide⟩).val :=
  dot_S2048x256_S64x256_S2048x64_1_1_0_0_n_n.rhsIdx_val_of_single rfl j q
theorem rowsBySquare_lhs_free (j : S2048x64.Idx) (q : dot_S2048x64_S64x64_S2048x64_1_0_0_1_n_n.contr.Idx) : (dot_S2048x64_S64x64_S2048x64_1_0_0_1_n_n.lhsIdx j q 0).val = (j 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem rowsBySquare_lhs_sum (j : S2048x64.Idx) (q : dot_S2048x64_S64x64_S2048x64_1_0_0_1_n_n.contr.Idx) : (dot_S2048x64_S64x64_S2048x64_1_0_0_1_n_n.lhsIdx j q 1).val = (q ⟨0, by decide⟩).val :=
  dot_S2048x64_S64x64_S2048x64_1_0_0_1_n_n.lhsIdx_val_of_single rfl j q
theorem rowsBySquare_rhs_free (j : S2048x64.Idx) (q : dot_S2048x64_S64x64_S2048x64_1_0_0_1_n_n.contr.Idx) : (dot_S2048x64_S64x64_S2048x64_1_0_0_1_n_n.rhsIdx j q 1).val = (j 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl
theorem rowsBySquare_rhs_sum (j : S2048x64.Idx) (q : dot_S2048x64_S64x64_S2048x64_1_0_0_1_n_n.contr.Idx) : (dot_S2048x64_S64x64_S2048x64_1_0_0_1_n_n.rhsIdx j q 0).val = (q ⟨0, by decide⟩).val :=
  dot_S2048x64_S64x64_S2048x64_1_0_0_1_n_n.rhsIdx_val_of_single rfl j q
theorem rowsByWide_lhs_free (j : S2048x256.Idx) (q : dot_S2048x64_S64x256_S2048x256_1_0_0_1_n_n.contr.Idx) : (dot_S2048x64_S64x256_S2048x256_1_0_0_1_n_n.lhsIdx j q 0).val = (j 0).val := by
  unfold DotDims.lhsIdx
  rw [dif_neg (show ¬(0 : Fin S2048x64.rank) ∈ dot_S2048x64_S64x256_S2048x256_1_0_0_1_n_n.lhsBatch by decide), dif_pos (show (0 : Fin S2048x64.rank) ∈ dot_S2048x64_S64x256_S2048x256_1_0_0_1_n_n.lhsNonContracting by decide)]
  rfl
theorem rowsByWide_lhs_sum (j : S2048x256.Idx) (q : dot_S2048x64_S64x256_S2048x256_1_0_0_1_n_n.contr.Idx) : (dot_S2048x64_S64x256_S2048x256_1_0_0_1_n_n.lhsIdx j q 1).val = (q ⟨0, by decide⟩).val :=
  dot_S2048x64_S64x256_S2048x256_1_0_0_1_n_n.lhsIdx_val_of_single rfl j q
theorem rowsByWide_rhs_free (j : S2048x256.Idx) (q : dot_S2048x64_S64x256_S2048x256_1_0_0_1_n_n.contr.Idx) : (dot_S2048x64_S64x256_S2048x256_1_0_0_1_n_n.rhsIdx j q 1).val = (j 1).val := by
  unfold DotDims.rhsIdx
  rw [dif_neg (show ¬(1 : Fin S64x256.rank) ∈ dot_S2048x64_S64x256_S2048x256_1_0_0_1_n_n.rhsBatch by decide), dif_pos (show (1 : Fin S64x256.rank) ∈ dot_S2048x64_S64x256_S2048x256_1_0_0_1_n_n.rhsNonContracting by decide)]
  rfl
theorem rowsByWide_rhs_sum (j : S2048x256.Idx) (q : dot_S2048x64_S64x256_S2048x256_1_0_0_1_n_n.contr.Idx) : (dot_S2048x64_S64x256_S2048x256_1_0_0_1_n_n.rhsIdx j q 0).val = (q ⟨0, by decide⟩).val :=
  dot_S2048x64_S64x256_S2048x256_1_0_0_1_n_n.rhsIdx_val_of_single rfl j q

/-- Rows of the input against rows of a weight, both summed along their 256 channels: entry `(r, p)` is
    `∑ k, x[r, k] · w[p, k]`. -/
theorem rowsByRows_apply (x : FVec Ideal S2048x256 .bf16) (w : FVec Ideal S64x256 .bf16) (r : Fin 2048) (p : Fin 64) :
    matmul dot_S2048x256_S64x256_S2048x64_1_1_0_0_n_n none x w (constant S2048x64 .f32 0x00000000#32) (ix2 r p)
      = ∑ k : Fin 256, x (ix2 r k) * w (ix2 p k) := by
  simp only [matmul]
  rw [Ideal.matmul_constant_zero_apply, ← Equiv.sum_comp (contrEquiv1 dot_S2048x256_S64x256_S2048x64_1_1_0_0_n_n 256 rfl rfl).symm]
  refine Finset.sum_congr rfl fun k _ => ?_
  have hk := contrEquiv1_symm_val dot_S2048x256_S64x256_S2048x64_1_1_0_0_n_n 256 rfl rfl k
  have el : dot_S2048x256_S64x256_S2048x64_1_1_0_0_n_n.lhsIdx (ix2 r p) ((contrEquiv1 dot_S2048x256_S64x256_S2048x64_1_1_0_0_n_n 256 rfl rfl).symm k) = ix2 r k := funext fun a => Fin.ext (by
    match a with
    | ⟨0, _⟩ => exact rowsByRows_lhs_free _ _
    | ⟨1, _⟩ => exact (rowsByRows_lhs_sum _ _).trans hk)
  have er : dot_S2048x256_S64x256_S2048x64_1_1_0_0_n_n.rhsIdx (ix2 r p) ((contrEquiv1 dot_S2048x256_S64x256_S2048x64_1_1_0_0_n_n 256 rfl rfl).symm k) = ix2 p k := funext fun a => Fin.ext (by
    match a with
    | ⟨0, _⟩ => exact rowsByRows_rhs_free _ _
    | ⟨1, _⟩ => exact (rowsByRows_rhs_sum _ _).trans hk)
  rw [el, er]

/-- Rows against the columns of a 64 × 64 matrix: entry `(r, p)` is `∑ k, x[r, k] · w[k, p]`. -/
theorem rowsBySquare_apply (x : FVec Ideal S2048x64 .bf16) (w : FVec Ideal S64x64 .bf16) (r : Fin 2048) (p : Fin 64) :
    matmul dot_S2048x64_S64x64_S2048x64_1_0_0_1_n_n none x w (constant S2048x64 .f32 0x00000000#32) (ix2 r p)
      = ∑ k : Fin 64, x (ix2 r k) * w (ix2 k p) := by
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r p) ((contrEquiv1 dot_S2048x64_S64x64_S2048x64_1_0_0_1_n_n 64 rfl rfl).symm k) = ix2 r k := funext fun a => Fin.ext (by
    match a with
    | ⟨0, _⟩ => exact rowsBySquare_lhs_free _ _
    | ⟨1, _⟩ => exact (rowsBySquare_lhs_sum _ _).trans hk)
  have er : dot_S2048x64_S64x64_S2048x64_1_0_0_1_n_n.rhsIdx (ix2 r p) ((contrEquiv1 dot_S2048x64_S64x64_S2048x64_1_0_0_1_n_n 64 rfl rfl).symm k) = ix2 k p := funext fun a => Fin.ext (by
    match a with
    | ⟨1, _⟩ => exact rowsBySquare_rhs_free _ _
    | ⟨0, _⟩ => exact (rowsBySquare_rhs_sum _ _).trans hk)
  rw [el, er]

/-- Rows against the columns of a 64 × 256 matrix: entry `(r, p)` is `∑ k, x[r, k] · w[k, p]`. -/
theorem rowsByWide_apply (x : FVec Ideal S2048x64 .bf16) (w : FVec Ideal S64x256 .bf16) (r : Fin 2048) (p : Fin 256) :
    matmul dot_S2048x64_S64x256_S2048x256_1_0_0_1_n_n none x w (constant S2048x256 .f32 0x00000000#32) (ix2 r p)
      = ∑ k : Fin 64, x (ix2 r k) * w (ix2 k p) := by
  simp only [matmul]
  rw [Ideal.matmul_constant_zero_apply, ← Equiv.sum_comp (contrEquiv1 dot_S2048x64_S64x256_S2048x256_1_0_0_1_n_n 64 rfl rfl).symm]
  refine Finset.sum_congr rfl fun k _ => ?_
  have hk := contrEquiv1_symm_val dot_S2048x64_S64x256_S2048x256_1_0_0_1_n_n 64 rfl rfl k
  have el : dot_S2048x64_S64x256_S2048x256_1_0_0_1_n_n.lhsIdx (ix2 r p) ((contrEquiv1 dot_S2048x64_S64x256_S2048x256_1_0_0_1_n_n 64 rfl rfl).symm k) = ix2 r k := funext fun a => Fin.ext (by
    match a with
    | ⟨0, _⟩ => exact rowsByWide_lhs_free _ _
    | ⟨1, _⟩ => exact (rowsByWide_lhs_sum _ _).trans hk)
  have er : dot_S2048x64_S64x256_S2048x256_1_0_0_1_n_n.rhsIdx (ix2 r p) ((contrEquiv1 dot_S2048x64_S64x256_S2048x256_1_0_0_1_n_n 64 rfl rfl).symm k) = ix2 k p := funext fun a => Fin.ext (by
    match a with
    | ⟨1, _⟩ => exact rowsByWide_rhs_free _ _
    | ⟨0, _⟩ => exact (rowsByWide_rhs_sum _ _).trans hk)
  rw [el, er]

/-! ## One head's update, and the stored value as eight of them

The body treats its eight heads alike: the input rows against the head's 64 query-weight rows; that against the head's
64 × 64 matrix from the first pass; divided by the position count; that against the head's 64 output-weight rows, added
onto an accumulator that starts at zero. After the eighth head the bias row is added to every row. -/

section Head
variable {F : FTy → Type} [FloatOps F]

/-- The block's rows as the products take them. -/
def rows (x0 : Vec F S1x2048x256 .f32) : FVec F S2048x256 .bf16 :=
  truncf .bf16 (shapeCast S2048x256 x0 shapeCasts_S1x2048x256_S2048x256) bitsLt_bf16_f32

/-- A head's 64 weight rows as the products take them. -/
def weight (w : Vec F S1x64x256 .f32) : FVec F S64x256 .bf16 :=
  truncf .bf16 (shapeCast S64x256 w shapeCasts_S1x64x256_S64x256) bitsLt_bf16_f32

/-- A head's 64 × 64 matrix as the products take it. -/
def square (dh : Vec F S1x1x64x64 .f32) : FVec F S64x64 .bf16 :=
  truncf .bf16 (shapeCast S64x64 dh shapeCasts_S1x1x64x64_S64x64) bitsLt_bf16_f32

/-- A head's query rows. -/
def queryRows (x : FVec F S2048x256 .bf16) (wq : Vec F S1x64x256 .f32) : FVec F S2048x64 .f32 :=
  matmul dot_S2048x256_S64x256_S2048x64_1_1_0_0_n_n none x (weight wq) (constant S2048x64 .f32 0x00000000#32)

/-- The query rows against the head's matrix. -/
def mixed (q : FVec F S2048x64 .f32) (m : FVec F S64x64 .bf16) : FVec F S2048x64 .f32 :=
  matmul dot_S2048x64_S64x64_S2048x64_1_0_0_1_n_n none (truncf .bf16 q bitsLt_bf16_f32) m (constant S2048x64 .f32 0x00000000#32)

/-- That divided by the position count, against the head's output-weight rows, added onto the accumulator. -/
def addHead (acc : FVec F S2048x256 .f32) (t : FVec F S2048x64 .f32) (wo : Vec F S1x64x256 .f32) : FVec F S2048x256 .f32 :=
  addf acc (matmul dot_S2048x64_S64x256_S2048x256_1_0_0_1_n_n none
    (truncf .bf16 (divf t (broadcast S2048x64 (Scalar.ofBits .f32 0x46000000#32))) bitsLt_bf16_f32)
    (weight wo) (constant S2048x256 .f32 0x00000000#32))

/-- One head's whole update of the accumulator. -/
def head (x : FVec F S2048x256 .bf16) (wq : Vec F S1x64x256 .f32) (dh : Vec F S1x1x64x64 .f32) (wo : Vec F S1x64x256 .f32)
    (acc : FVec F S2048x256 .f32) : FVec F S2048x256 .f32 :=
  addHead acc (mixed (queryRows x wq) (square dh)) wo

/-- The bias row under every row. -/
def biasRows (b : Vec F S1x256 .f32) : FVec F S2048x256 .f32 :=
  broadcastTo S2048x256 (shapeCast S1x256 (shapeCast S256 b shapeCasts_S1x256_S256) shapeCasts_S256_S1x256) broadcasts_S1x256_S2048x256

/-- The value the body stores, from the block of input rows, the eight heads' three operands each, and the bias: the
    eight updates in turn from the zero accumulator, plus the bias. The body states it as twelve fragments whose
    boundaries fall inside heads; composed, they are this, operation for operation. -/
theorem stored_eq (x0 : Vec F S1x2048x256 .f32)
    (q0 q1 q2 q3 q4 q5 q6 q7 : Vec F S1x64x256 .f32) (d0 d1 d2 d3 d4 d5 d6 d7 : Vec F S1x1x64x64 .f32)
    (o0 o1 o2 o3 o4 o5 o6 o7 : Vec F S1x64x256 .f32) (b : Vec F S1x256 .f32) :
    k1_pay1 (k1_pay11 (k1_pay2 x0) (k1_pay8 (k1_pay2 x0) (k1_pay5 (k1_pay2 x0) (k1_pay3 x0 q0 d0 o0) (k1_pay4 x0 q1 d1)
        (Scalar.ofBits .f32 0x46000000#32) o1 q2 d2 o2) (k1_pay6 d3) (k1_pay7 (k1_pay2 x0) q3)
        (constant S2048x64 .f32 0x00000000#32) o3 q4 d4 o4) (k1_pay9 (k1_pay2 x0) q5) (k1_pay10 d5) o5 q6 d6 o6)
        (k1_pay12 (k1_pay2 x0) q7) d7 o7 b
      = shapeCast S1x2048x256 (addf (head (rows x0) q7 d7 o7 (head (rows x0) q6 d6 o6 (head (rows x0) q5 d5 o5 (head (rows x0) q4 d4 o4 (head (rows x0) q3 d3 o3 (head (rows x0) q2 d2 o2 (head (rows x0) q1 d1 o1 (head (rows x0) q0 d0 o0 (broadcast S2048x256 (Scalar.ofBits .f32 0x00000000#32)))))))))) (biasRows b)) shapeCasts_S2048x256_S1x2048x256 := rfl

end Head

/-! ## One head read at an index -/

/-- The head's matrix, handed over as `[1, 1, 64, 64]`, read as `[64, 64]`. -/
theorem square_apply (dh : Vec Ideal S1x1x64x64 .f32) (d e : Fin 64) :
    square dh (ix2 d e) = dh (ix4 (0 : Fin 1) (0 : Fin 1) d e) := by
  unfold square
  rw [truncf_apply]
  exact shapeCast_apply dh shapeCasts_S1x1x64x64_S64x64 (ix2 d e) (ix4 (0 : Fin 1) (0 : Fin 1) d e) (by
    rw [Shape.rowMajor_val_four, Shape.rowMajor_val_two]
    show ((0 * 1 + 0) * 64 + d.val) * 64 + e.val = d.val * 64 + e.val
    omega)

theorem weight_apply (w : Vec Ideal S1x64x256 .f32) (d : Fin 64) (k : Fin 256) :
    weight w (ix2 d k) = w (ix3 (0 : Fin 1) d k) := by
  unfold weight
  rw [truncf_apply]
  exact shapeCast_1ab_ab_apply w shapeCasts_S1x64x256_S64x256 d k

theorem rows_apply (x0 : Vec Ideal S1x2048x256 .f32) (r : Fin 2048) (k : Fin 256) :
    rows x0 (ix2 r k) = x0 (ix3 (0 : Fin 1) r k) := by
  unfold rows
  rw [truncf_apply]
  exact shapeCast_1ab_ab_apply x0 shapeCasts_S1x2048x256_S2048x256 r k

theorem biasRows_apply (b : Vec Ideal S1x256 .f32) (r : Fin 2048) (o : Fin 256) :
    biasRows b (ix2 r o) = b (ix2 (0 : Fin 1) o) := by
  unfold biasRows
  rw [broadcastTo_1b_ab_apply, shapeCast_a_1a_apply, shapeCast_1a_a_apply]

/-- One head at row `r`, output channel `o`: the accumulator there plus
    `∑ₑ ((∑_d (∑_c x[r,c] · wq[d,c]) · D[d,e]) / 8192) · wo[e,o]`. -/
theorem head_apply (x : FVec Ideal S2048x256 .bf16) (wq : Vec Ideal S1x64x256 .f32) (dh : Vec Ideal S1x1x64x64 .f32)
    (wo : Vec Ideal S1x64x256 .f32) (acc : FVec Ideal S2048x256 .f32) (r : Fin 2048) (o : Fin 256) :
    head x wq dh wo acc (ix2 r o)
      = acc (ix2 r o) + ∑ e : Fin 64, Ideal.div (∑ d : Fin 64, (∑ k : Fin 256, x (ix2 r k) * wq (ix3 (0 : Fin 1) d k))
          * dh (ix4 (0 : Fin 1) (0 : Fin 1) d e)) Cert.Spec.cN * wo (ix3 (0 : Fin 1) e o) := by
  unfold head addHead mixed queryRows
  rw [addf_apply, rowsByWide_apply]
  refine congrArg (acc (ix2 r o) + ·) (Finset.sum_congr rfl fun e _ => ?_)
  rw [truncf_apply, divf_apply, broadcast_apply, rowsBySquare_apply, weight_apply]
  refine congrArg (fun s => Ideal.div s _ * _) (Finset.sum_congr rfl fun d _ => ?_)
  rw [truncf_apply, rowsByRows_apply, square_apply]
  refine congrArg (· * _) (Finset.sum_congr rfl fun k _ => ?_)
  rw [weight_apply]

/-! ## The stored value at an index, over the block's five operands

The heads' operands are slices of the whole weight arrays and of the block of first-pass matrices: head `h` reads rows
`(h, ·, ·)` of each weight and matrix `(0, h, ·, ·)`. -/

/-- Head `h`'s contribution at row `r`, output channel `o`, from the block's operands. -/
def headTerm (x0 : Vec Ideal S1x2048x256 .f32) (x1 : Vec Ideal S8x64x256 .f32) (x2 : Vec Ideal S1x8x64x64 .f32)
    (x3 : Vec Ideal S8x64x256 .f32) (r : Fin 2048) (o : Fin 256) (h : Fin 8) : EReal :=
  ∑ e : Fin 64, Ideal.div (∑ d : Fin 64, (∑ k : Fin 256, x0 (ix3 (0 : Fin 1) r k) * x1 (ix3 h d k))
    * x2 (ix4 (0 : Fin 1) h d e)) Cert.Spec.cN * x3 (ix3 h e o)

/-- A head's 64 rows of a weight: the slice at offset `(h, 0, 0)`. -/
theorem weightSlice_apply (X : Vec Ideal S8x64x256 .f32) (h : Fin 8) (off : Fin 3 → Nat)
    (inb : ∀ a, off a + S1x64x256.size a ≤ S8x64x256.size a) (hoff : off = ![h.val, 0, 0]) (d : Fin 64) (k : Fin 256) :
    View.ld X (Rect.unit (s := S8x64x256) off S1x64x256.size inb) (ix3 (0 : Fin 1) d k) = X (ix3 h d k) := by
  subst hoff
  show X _ = X _
  refine congrArg X (funext fun a => Fin.ext ?_)
  match a with
  | ⟨0, _⟩ => show h.val + 1 * 0 = h.val; omega
  | ⟨1, _⟩ => show 0 + 1 * d.val = d.val; omega
  | ⟨2, _⟩ => show 0 + 1 * k.val = k.val; omega

/-- A head's matrix: the slice at offset `(0, h, 0, 0)`. -/
theorem squareSlice_apply (X : Vec Ideal S1x8x64x64 .f32) (h : Fin 8) (off : Fin 4 → Nat)
    (inb : ∀ a, off a + S1x1x64x64.size a ≤ S1x8x64x64.size a) (hoff : off = ![0, h.val, 0, 0]) (d e : Fin 64) :
    View.ld X (Rect.unit (s := S1x8x64x64) off S1x1x64x64.size inb) (ix4 (0 : Fin 1) (0 : Fin 1) d e) = X (ix4 (0 : Fin 1) h d e) := by
  subst hoff
  show X _ = X _
  refine congrArg X (funext fun a => Fin.ext ?_)
  match a with
  | ⟨0, _⟩ => show 0 + 1 * 0 = 0; omega
  | ⟨1, _⟩ => show h.val + 1 * 0 = h.val; omega
  | ⟨2, _⟩ => show 0 + 1 * d.val = d.val; omega
  | ⟨3, _⟩ => show 0 + 1 * e.val = e.val; omega

/-- One head's update, its three operands being head `h`'s slices. -/
theorem head_slices_apply (x0 : Vec Ideal S1x2048x256 .f32) (x1 : Vec Ideal S8x64x256 .f32) (x2 : Vec Ideal S1x8x64x64 .f32)
    (x3 : Vec Ideal S8x64x256 .f32) (h : Fin 8) (wq : Vec Ideal S1x64x256 .f32) (dh : Vec Ideal S1x1x64x64 .f32)
    (wo : Vec Ideal S1x64x256 .f32)
    (hq : ∀ d k, wq (ix3 (0 : Fin 1) d k) = x1 (ix3 h d k))
    (hd : ∀ d e, dh (ix4 (0 : Fin 1) (0 : Fin 1) d e) = x2 (ix4 (0 : Fin 1) h d e))
    (ho : ∀ e o, wo (ix3 (0 : Fin 1) e o) = x3 (ix3 h e o))
    (acc : FVec Ideal S2048x256 .f32) (r : Fin 2048) (o : Fin 256) :
    head (rows x0) wq dh wo acc (ix2 r o) = acc (ix2 r o) + headTerm x0 x1 x2 x3 r o h := by
  rw [head_apply]
  unfold headTerm
  refine congrArg (acc (ix2 r o) + ·) (Finset.sum_congr rfl fun e _ => ?_)
  rw [ho]
  refine congrArg (fun s => Ideal.div s _ * _) (Finset.sum_congr rfl fun d _ => ?_)
  rw [hd]
  refine congrArg (· * _) (Finset.sum_congr rfl fun k _ => ?_)
  rw [hq, rows_apply]

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block, at row `r`, output channel `o`: the eight heads' contributions plus the bias. -/
theorem out_apply (x0 : Vec Ideal S1x2048x256 .f32) (x1 : Vec Ideal S8x64x256 .f32) (x2 : Vec Ideal S1x8x64x64 .f32)
    (x3 : Vec Ideal S8x64x256 .f32) (x4 : Vec Ideal S1x256 .f32) (u : Fin 1) (r : Fin 2048) (o : Fin 256) :
    out1_5 (F := Ideal) x0 x1 x2 x3 x4 (ix3 u r o)
      = (∑ h : Fin 8, headTerm x0 x1 x2 x3 r o h) + x4 (ix2 (0 : Fin 1) o) := by
  unfold out1_5
  rw [View.canon_unit_zero hz3]
  simp only [View.ld_unit_zero (S := S1x2048x256) hz3, View.ld_unit_zero (S := S1x256) hz2]
  rw [stored_eq, shapeCast_ab_1ab_apply, addf_apply, biasRows_apply, Fin.sum_univ_eight]
  refine congrArg (· + x4 (ix2 (0 : Fin 1) o)) ?_
  refine (head_slices_apply x0 x1 x2 x3 7 _ _ _ (weightSlice_apply x1 7 _ _ rfl) (squareSlice_apply x2 7 _ _ rfl) (weightSlice_apply x3 7 _ _ rfl) _ r o).trans (congrArg (· + headTerm x0 x1 x2 x3 r o 7) ?_)
  refine (head_slices_apply x0 x1 x2 x3 6 _ _ _ (weightSlice_apply x1 6 _ _ rfl) (squareSlice_apply x2 6 _ _ rfl) (weightSlice_apply x3 6 _ _ rfl) _ r o).trans (congrArg (· + headTerm x0 x1 x2 x3 r o 6) ?_)
  refine (head_slices_apply x0 x1 x2 x3 5 _ _ _ (weightSlice_apply x1 5 _ _ rfl) (squareSlice_apply x2 5 _ _ rfl) (weightSlice_apply x3 5 _ _ rfl) _ r o).trans (congrArg (· + headTerm x0 x1 x2 x3 r o 5) ?_)
  refine (head_slices_apply x0 x1 x2 x3 4 _ _ _ (weightSlice_apply x1 4 _ _ rfl) (squareSlice_apply x2 4 _ _ rfl) (weightSlice_apply x3 4 _ _ rfl) _ r o).trans (congrArg (· + headTerm x0 x1 x2 x3 r o 4) ?_)
  refine (head_slices_apply x0 x1 x2 x3 3 _ _ _ (weightSlice_apply x1 3 _ _ rfl) (squareSlice_apply x2 3 _ _ rfl) (weightSlice_apply x3 3 _ _ rfl) _ r o).trans (congrArg (· + headTerm x0 x1 x2 x3 r o 3) ?_)
  refine (head_slices_apply x0 x1 x2 x3 2 _ _ _ (weightSlice_apply x1 2 _ _ rfl) (squareSlice_apply x2 2 _ _ rfl) (weightSlice_apply x3 2 _ _ rfl) _ r o).trans (congrArg (· + headTerm x0 x1 x2 x3 r o 2) ?_)
  refine (head_slices_apply x0 x1 x2 x3 1 _ _ _ (weightSlice_apply x1 1 _ _ rfl) (squareSlice_apply x2 1 _ _ rfl) (weightSlice_apply x3 1 _ _ rfl) _ r o).trans (congrArg (· + headTerm x0 x1 x2 x3 r o 1) ?_)
  refine (head_slices_apply x0 x1 x2 x3 0 _ _ _ (weightSlice_apply x1 0 _ _ rfl) (squareSlice_apply x2 0 _ _ rfl) (weightSlice_apply x3 0 _ _ rfl) _ r o).trans ?_
  rw [broadcast_apply]
  show Ideal.ofBits .f32 0x00000000#32 + _ = _
  rw [Ideal.ofBits_zero_f32, zero_add]

/-! ## The windows' blocks

Grid point `t` of the 4 × 4 grid is batch `t / 4`, block of positions `t % 4`. The input rows' block and the output's
block sit at `(t / 4, t % 4, 0)` in blocks of `[1, 2048, 256]`; the first-pass matrices' block at `(t / 4, 0, 0, 0)` in blocks
of `[1, 8, 64, 64]`; the two weights and the bias are whole. -/

theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = 0 ∧ win1_1.index t (1 : Fin 3) = 0 ∧ win1_1.index t (2 : Fin 3) = 0
    ∧ win1_2.index t (0 : Fin 4) = t.val / 4 ∧ win1_2.index t (1 : Fin 4) = 0 ∧ win1_2.index t (2 : Fin 4) = 0 ∧ win1_2.index t (3 : Fin 4) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 3) = t.val / 4 ∧ win1_5.index t (1 : Fin 3) = t.val % 4 ∧ win1_5.index t (2 : Fin 3) = 0 :=
  (by decide +kernel : ∀ t : Fin grid1.N, _)

section Blocks
variable (V : (c : Dev nD) → (b : Ref sig .tc) → Buf (Elt Ideal) ((c : Thread nD τ).loc b)) (c : Dev nD) (t : Fin cfg1.N)

/-- The block of input rows: row `r` of the block is position `(t % 4) · 2048 + r` of batch `t / 4`. -/
theorem rowsBlock_apply (u : Fin 1) (r : Fin 2048) (k : Fin 256) (b : Fin 4) (n : Fin 8192)
    (hb : b.val = t.val / 4) (hn : n.val = t.val % 4 * 2048 + r.val) :
    (iblk1 V c 0 t : Vec Ideal S1x2048x256 .f32) (ix3 u r k) = (V c main_arg0 : S4x8192x256.Idx → EReal) (ix3 b n k) := by
  obtain ⟨e0, e1, e2, -⟩ := idx_facts t
  unfold iblk1
  rw [View.read_apply]
  show V c main_arg0 _ = V c main_arg0 _
  refine congrArg (V c main_arg0) (funext fun a => Fin.ext ?_)
  match a with
  | ⟨0, _⟩ => show win1_0.index t (0 : Fin 3) * 1 + 1 * u.val = b.val; have := u.isLt; omega
  | ⟨1, _⟩ => show win1_0.index t (1 : Fin 3) * 2048 + 1 * r.val = n.val; omega
  | ⟨2, _⟩ => show win1_0.index t (2 : Fin 3) * 256 + 1 * k.val = k.val; omega

/-- The query weight is staged whole. -/
theorem queryWeight_apply (h : Fin 8) (d : Fin 64) (k : Fin 256) :
    (iblk1 V c 1 t : Vec Ideal S8x64x256 .f32) (ix3 h d k) = (V c main_v0 : S8x64x256.Idx → EReal) (ix3 h d k) := by
  obtain ⟨-, -, -, e0, e1, e2, -⟩ := idx_facts t
  unfold iblk1
  rw [View.read_apply]
  show V c main_v0 _ = V c main_v0 _
  refine congrArg (V c main_v0) (funext fun a => Fin.ext ?_)
  match a with
  | ⟨0, _⟩ => show win1_1.index t (0 : Fin 3) * 8 + 1 * h.val = h.val; omega
  | ⟨1, _⟩ => show win1_1.index t (1 : Fin 3) * 64 + 1 * d.val = d.val; omega
  | ⟨2, _⟩ => show win1_1.index t (2 : Fin 3) * 256 + 1 * k.val = k.val; omega

/-- The block of first-pass matrices: the eight heads' matrices of batch `t / 4`. -/
theorem squaresBlock_apply (u : Fin 1) (h : Fin 8) (d e : Fin 64) (b : Fin 4) (hb : b.val = t.val / 4) :
    (iblk1 V c 2 t : Vec Ideal S1x8x64x64 .f32) (ix4 u h d e) = (V c main_v6 : S4x8x64x64.Idx → EReal) (ix4 b h d e) := by
  obtain ⟨-, -, -, -, -, -, e0, e1, e2, e3, -⟩ := idx_facts t
  unfold iblk1
  rw [View.read_apply]
  show V c main_v6 _ = V c main_v6 _
  refine congrArg (V c main_v6) (funext fun a => Fin.ext ?_)
  match a with
  | ⟨0, _⟩ => show win1_2.index t (0 : Fin 4) * 1 + 1 * u.val = b.val; have := u.isLt; omega
  | ⟨1, _⟩ => show win1_2.index t (1 : Fin 4) * 8 + 1 * h.val = h.val; omega
  | ⟨2, _⟩ => show win1_2.index t (2 : Fin 4) * 64 + 1 * d.val = d.val; omega
  | ⟨3, _⟩ => show win1_2.index t (3 : Fin 4) * 64 + 1 * e.val = e.val; omega

/-- The output weight is staged whole. -/
theorem outWeight_apply (h : Fin 8) (e : Fin 64) (o : Fin 256) :
    (iblk1 V c 3 t : Vec Ideal S8x64x256 .f32) (ix3 h e o) = (V c main_v4 : S8x64x256.Idx → EReal) (ix3 h e o) := by
  obtain ⟨-, -, -, -, -, -, -, -, -, -, e0, e1, e2, -⟩ := idx_facts t
  unfold iblk1
  rw [View.read_apply]
  show V c main_v4 _ = V c main_v4 _
  refine congrArg (V c main_v4) (funext fun a => Fin.ext ?_)
  match a with
  | ⟨0, _⟩ => show win1_3.index t (0 : Fin 3) * 8 + 1 * h.val = h.val; omega
  | ⟨1, _⟩ => show win1_3.index t (1 : Fin 3) * 64 + 1 * e.val = e.val; omega
  | ⟨2, _⟩ => show win1_3.index t (2 : Fin 3) * 256 + 1 * o.val = o.val; omega

/-- The bias row is staged whole. -/
theorem bias_apply (u : Fin 1) (o : Fin 256) :
    (iblk1 V c 4 t : Vec Ideal S1x256 .f32) (ix2 u o) = (V c main_v5 : S1x256.Idx → EReal) (ix2 u o) := by
  obtain ⟨-, -, -, -, -, -, -, -, -, -, -, -, -, e0, e1, -⟩ := idx_facts t
  unfold iblk1
  rw [View.read_apply]
  show V c main_v5 _ = V c main_v5 _
  refine congrArg (V c main_v5) (funext fun a => Fin.ext ?_)
  match a with
  | ⟨0, _⟩ => show win1_4.index t (0 : Fin 2) * 1 + 1 * u.val = u.val; omega
  | ⟨1, _⟩ => show win1_4.index t (1 : Fin 2) * 256 + 1 * o.val = o.val; omega

/-! ## What a grid point leaves, as the formula -/

/-- One head's contribution from the blocks is the formula's head term at batch `b`, position `n`. -/
theorem headTerm_blocks (r : Fin 2048) (o : Fin 256) (h : Fin 8) (b : Fin 4) (n : Fin 8192)
    (hb : b.val = t.val / 4) (hn : n.val = t.val % 4 * 2048 + r.val) :
    headTerm (iblk1 V c 0 t) (iblk1 V c 1 t) (iblk1 V c 2 t) (iblk1 V c 3 t) r o h
      = ∑ e : Fin 64, Ideal.div (∑ d : Fin 64, Cert.Spec.projK (V c main_arg0) (V c main_v0) b n h d * (V c main_v6 : S4x8x64x64.Idx → EReal) (ix4 b h d e)) Cert.Spec.cN
          * (V c main_v4 : S8x64x256.Idx → EReal) (ix3 h e o) := by
  unfold headTerm Cert.Spec.projK
  refine Finset.sum_congr rfl fun e _ => ?_
  refine congrArg₂ (fun s w => Ideal.div s Cert.Spec.cN * w) (Finset.sum_congr rfl fun d _ => ?_) (outWeight_apply V c t h e o)
  refine congrArg₂ (· * ·) (Finset.sum_congr rfl fun k _ => ?_) (squaresBlock_apply V c t 0 h d e b hb)
  exact congrArg₂ (· * ·) (rowsBlock_apply V c t 0 r k b n hb hn) (queryWeight_apply V c t h d k)

/-- The output block after the body, at row `r`, channel `o`, is the formula at batch `t / 4`, position
    `(t % 4) · 2048 + r`, channel `o`. -/
theorem block_eq (u : Fin 1) (r : Fin 2048) (o : Fin 256) (b : Fin 4) (n : Fin 8192)
    (hb : b.val = t.val / 4) (hn : n.val = t.val % 4 * 2048 + r.val) :
    out1_5 (F := Ideal) (iblk1 V c 0 t) (iblk1 V c 1 t) (iblk1 V c 2 t) (iblk1 V c 3 t) (iblk1 V c 4 t) (ix3 u r o)
      = Cert.Spec.outK (V c main_arg0) (V c main_v0) (V c main_v6) (V c main_v4) (V c main_v5) b n o := by
  refine (out_apply (iblk1 V c 0 t) (iblk1 V c 1 t) (iblk1 V c 2 t) (iblk1 V c 3 t) (iblk1 V c 4 t) u r o).trans ?_
  unfold Cert.Spec.outK
  exact congrArg₂ (· + ·) (Finset.sum_congr rfl fun h _ => headTerm_blocks V c t r o h b n hb hn) (bias_apply V c t 0 o)

end Blocks

/-! ## From the blocks to the array

Every grid point writes its output block back, and the sixteen blocks tile the `[4, 8192, 256]` result: index
`(b, n, o)` lies in the block of point `4 b + n / 2048`. So the array ends holding the formula everywhere. -/

section Array
variable (V : (c : Dev nD) → (b : Ref sig .tc) → Buf (Elt Ideal) ((c : Thread nD τ).loc b)) (c : Dev nD)

/-- The output block at a block index `y`, against the array index `i` it is written to. -/
theorem block_point (t : Fin cfg1.N) (y : S1x2048x256.Idx) (i : S4x8192x256.Idx) (h0 : (i 0).val = t.val / 4)
    (h1 : (i 1).val = t.val % 4 * 2048 + (y 1).val) (h2 : (i 2).val = (y 2).val) :
    out1_5 (F := Ideal) (iblk1 V c 0 t) (iblk1 V c 1 t) (iblk1 V c 2 t) (iblk1 V c 3 t) (iblk1 V c 4 t) y
      = Cert.Spec.outK (V c main_arg0) (V c main_v0) (V c main_v6) (V c main_v4) (V c main_v5) (i 0) (i 1) (i 2) := by
  obtain ⟨u, r, o, rfl⟩ : ∃ (u : Fin 1) (r : Fin 2048) (o : Fin 256), y = ix3 u r o := ⟨y 0, y 1, y 2, eq_ix3 y⟩
  obtain ⟨b, n, o', rfl⟩ : ∃ (b : Fin 4) (n : Fin 8192) (o' : Fin 256), i = ix3 b n o' := ⟨i 0, i 1, i 2, eq_ix3 i⟩
  obtain rfl : o' = o := Fin.ext h2
  exact block_eq V c t u r o' b n h0 h1

/-- What point `t` writes back is block `t` of the formula. -/
theorem flushed_eq (t : Fin cfg1.N) :
    (dat1 (F := Ideal) V c).flushed 5 t = ((cfg1.win 5).blk t).view.read (Elt Ideal) (fun i => Cert.Spec.outK (V c main_arg0) (V c main_v0) (V c main_v6) (V c main_v4) (V c main_v5) (i 0) (i 1) (i 2)) := by
  show (cfg1.win 5).cut (grid1.coords t) ((dat1 V c).after 5 t) = _
  rw [after1_5]
  funext y
  obtain ⟨-, -, -, -, -, -, -, -, -, -, -, -, -, -, -, e0, e1, e2⟩ := idx_facts t
  have hy0 : (y 0).val < 1 := (y 0).isLt
  show out1_5 (F := Ideal) (iblk1 V c 0 t) (iblk1 V c 1 t) (iblk1 V c 2 t) (iblk1 V c 3 t) (iblk1 V c 4 t) y
      = Cert.Spec.outK (V c main_arg0) (V c main_v0) (V c main_v6) (V c main_v4) (V c main_v5)
          ((((cfg1.win 5).blk t).view.emb y) 0) ((((cfg1.win 5).blk t).view.emb y) 1) ((((cfg1.win 5).blk t).view.emb y) 2)
  exact block_point V c t y (((cfg1.win 5).blk t).view.emb y)
    (by show win1_5.index t (0 : Fin 3) * 1 + 1 * (y 0).val = t.val / 4; omega)
    (by show win1_5.index t (1 : Fin 3) * 2048 + 1 * (y 1).val = t.val % 4 * 2048 + (y 1).val; omega)
    (by show win1_5.index t (2 : Fin 3) * 256 + 1 * (y 2).val = (y 2).val; omega)

/-- An index of the result is in point `t`'s block iff each coordinate is in the block's range on its axis. -/
theorem mem_blk (t : Fin cfg1.N) (i : S4x8192x256.Idx) :
    i ∈ ((cfg1.win 5).blk t).view.set ↔ ∀ a : Fin 3, win1_5.index t a * S1x2048x256.size a ≤ (i a).val
      ∧ (i a).val < win1_5.index t a * S1x2048x256.size a + S1x2048x256.size a := by
  show i ∈ ((View.whole main_v7).slice (win1_5.rect t)).set ↔ _
  rw [View.set_slice_whole, Rect.mem_set_unit]
  exact Iff.rfl

/-- Every index of the result is in some point's block. -/
theorem cover (i : S4x8192x256.Idx) :
    ∃ t : Fin cfg1.N, (cfg1.win 5).flush t = true ∧ i ∈ ((cfg1.win 5).blk t).view.set := by
  have hN : cfg1.N = 16 := N_1
  have h0 : (i 0).val < 4 := (i 0).isLt
  have h1 : (i 1).val < 8192 := (i 1).isLt
  have h2 : (i 2).val < 256 := (i 2).isLt
  obtain ⟨t, ht⟩ : ∃ t : Fin cfg1.N, t.val = (i 0).val * 4 + (i 1).val / 2048 :=
    ⟨⟨(i 0).val * 4 + (i 1).val / 2048, by rw [hN]; omega⟩, rfl⟩
  refine ⟨t, flush1_5 t, ?_⟩
  rw [mem_blk]
  obtain ⟨-, -, -, -, -, -, -, -, -, -, -, -, -, -, -, e0, e1, e2⟩ := idx_facts t
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 2048 ≤ (i 1).val ∧ (i 1).val < win1_5.index t (1 : Fin 3) * 2048 + 2048; omega
  | ⟨2, _⟩ => show win1_5.index t (2 : Fin 3) * 256 ≤ (i 2).val ∧ (i 2).val < win1_5.index t (2 : Fin 3) * 256 + 256; omega

/-- The result array after the second pass: the formula of the arrays the pass found, at every index. -/
theorem final1 :
    (dat1 (F := Ideal) V c).arrAt 5 cfg1.N
      = fun i => Cert.Spec.outK (V c main_arg0) (V c main_v0) (V c main_v6) (V c main_v4) (V c main_v5) (i 0) (i 1) (i 2) :=
  (dat1 (F := Ideal) V c).arrAt_eq_of_cover 5 _ (fun t _ => flushed_eq V c t) cover

end Array

end Cert.KernelIdeal.OutRegion

end
-- ==== Proof.SpecBridge.lean ====
/-
  The kernel's two-pass arrangement of the formula is the reference's.

  Given the re-laid weights — `Wq3 (h, d, c) = Wq (h·64 + d, c)`, likewise `Wk3`, `Wv3`; `Wo3 (h, e, o) = Wo (o, h·64 + e)`;
  `bo2 (0, o) = bo o` — and the first pass's array `D (b, h, d, e) = dotsK … b h d e`:

  * a projected entry against a re-laid weight is the projected entry against the weight's row `h·64 + d`;
  * the kernel's normaliser is the reference's (`normK_eq_normR`: the variance plus ε is positive);
  * the sum over 4 blocks of 2048 positions is the sum over the 8192 positions;
  * the sum over 8 heads of 64 lanes is the sum over the 512 concatenated lanes, lane `k` being head `k / 64`, lane `k % 64`.

  Only re-indexing and regrouping of finite sums: associativity and commutativity of `+` on the extended reals.
-/
import proofs.«164319_j23467701305835_1_alg».proof.Proof.Spec

noncomputable section

open scoped BigOperators

namespace Cert.Spec

open Idealize.ShloMosaic Idealize.ShloMosaic.ValueIdx

variable (X : TX) (Wq Wk Wv : TW) (Wo : TWo) (bo : TB) (Wq3 Wk3 Wv3 Wo3 : TW3) (bo2 : TB2) (D : TD)

theorem projK_eq (W : TW) (W3 : TW3) (hW : ∀ (h : Fin 8) (d : Fin 64) (c : Fin 256), W3 (ix3 h d c) = W (ix2 (he h d) c))
    (b : Fin 4) (n : Fin 8192) (h : Fin 8) (d : Fin 64) : projK X W3 b n h d = proj X W b n (he h d) := by
  unfold projK proj
  exact Finset.sum_congr rfl fun c _ => by rw [hW]

theorem kvK_eq (W : TW) (W3 : TW3) (hW : ∀ (h : Fin 8) (d : Fin 64) (c : Fin 256), W3 (ix3 h d c) = W (ix2 (he h d) c))
    (b : Fin 4) (h : Fin 8) (n : Fin 8192) (d : Fin 64) : kvK X W3 b h n d = kv X W b h n d := by
  unfold kvK kv
  rw [normK_eq_normR]
  exact congrArg (fun f => normR f d) (funext fun d' => projK_eq X W W3 hW b n h d')

/-- Position `r` of block `j` is the `(j, r)` entry of the 4 × 2048 blocking of the positions. -/
theorem pos_eq (j : Fin 4) (r : Fin 2048) : blockEquiv (N := 8192) 4 2048 (by omega) rfl (j, r) = pos j r := rfl

theorem dotsK_eq (hk : ∀ (h : Fin 8) (d : Fin 64) (c : Fin 256), Wk3 (ix3 h d c) = Wk (ix2 (he h d) c))
    (hv : ∀ (h : Fin 8) (d : Fin 64) (c : Fin 256), Wv3 (ix3 h d c) = Wv (ix2 (he h d) c))
    (b : Fin 4) (h : Fin 8) (d e : Fin 64) : dotsK X Wk3 Wv3 b h d e = dots X Wk Wv b h d e := by
  unfold dotsK dots
  rw [sum_blocks 4 2048 (by omega) rfl]
  refine Finset.sum_congr rfl fun j _ => Finset.sum_congr rfl fun r _ => ?_
  rw [pos_eq, kvK_eq X Wk Wk3 hk, kvK_eq X Wv Wv3 hv]

/-- Lane `e` of head `h` is the `(h, e)` entry of the 8 × 64 blocking of the concatenated lanes. -/
theorem he_eq (h : Fin 8) (e : Fin 64) : blockEquiv (N := 512) 8 64 (by omega) rfl (h, e) = he h e := rfl

theorem outK_eq (hq : ∀ (h : Fin 8) (d : Fin 64) (c : Fin 256), Wq3 (ix3 h d c) = Wq (ix2 (he h d) c))
    (hk : ∀ (h : Fin 8) (d : Fin 64) (c : Fin 256), Wk3 (ix3 h d c) = Wk (ix2 (he h d) c))
    (hv : ∀ (h : Fin 8) (d : Fin 64) (c : Fin 256), Wv3 (ix3 h d c) = Wv (ix2 (he h d) c))
    (ho : ∀ (h : Fin 8) (e : Fin 64) (o : Fin 256), Wo3 (ix3 h e o) = Wo (ix2 o (he h e)))
    (hb : ∀ o : Fin 256, bo2 (ix2 (0 : Fin 1) o) = bo (ix1 o))
    (hD : ∀ (b : Fin 4) (h : Fin 8) (d e : Fin 64), D (ix4 b h d e) = dotsK X Wk3 Wv3 b h d e)
    (b : Fin 4) (n : Fin 8192) (o : Fin 256) :
    outK X Wq3 D Wo3 bo2 b n o = out X Wq Wk Wv Wo bo b n o := by
  unfold outK out
  rw [hb, sum_blocks 8 64 (by omega) rfl]
  refine congrArg (· + bo (ix1 o)) (Finset.sum_congr rfl fun h _ => Finset.sum_congr rfl fun e _ => ?_)
  rw [he_eq, ho]
  have e1 : (⟨(he h e).val / 64, by have := (he h e).isLt; omega⟩ : Fin 8) = h :=
    Fin.ext (by show (h.val * 64 + e.val) / 64 = h.val; have := e.isLt; omega)
  have e2 : (⟨(he h e).val % 64, by omega⟩ : Fin 64) = e :=
    Fin.ext (by show (h.val * 64 + e.val) % 64 = e.val; have := e.isLt; omega)
  rw [e1, e2]
  unfold u
  refine congrArg (fun s => Ideal.div s cN * Wo (ix2 o (he h e))) (Finset.sum_congr rfl fun d _ => ?_)
  rw [projK_eq X Wq Wq3 hq, hD, dotsK_eq X Wk Wv Wk3 Wv3 hk hv]

end Cert.Spec

end
-- ==== Proof.KernelValue.lean ====
/-
  The idealized kernel's result array, as the formula of its arguments.

  At the second pass's entry the staged arrays are: the input as launched; the query weight re-laid `[8, 64, 256]`
  (a reshape: row `h·64 + d` becomes `(h, d)`); the first pass's result; the output weight reshaped `[256, 8, 64]` and
  transposed to `[8, 64, 256]` (so `(h, e, o)` reads `Wo (o, h·64 + e)`); the bias as a `[1, 256]` row. The first pass
  found the input and the key and value weights re-laid the same way. With the two passes' arrays read
  (`Dots.final0`, `OutRegion.final1`) and the regrouping of the sums (`Cert.Spec.outK_eq`) the result array is
  `Cert.Spec.out` of the seven argument arrays at every index.
-/
import proofs.«164319_j23467701305835_1_alg».proof.Proof.KernelRun
import proofs.«164319_j23467701305835_1_alg».proof.Proof.DotsRegion
import proofs.«164319_j23467701305835_1_alg».proof.Proof.OutRegion
import proofs.«164319_j23467701305835_1_alg».proof.Proof.SpecBridge
import Idealize.ShloMosaic.Lib.StableHlo.Run
import Idealize.ShloMosaic.Lib.ValueLayout

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo

/-! ## The re-laid weights, read at an index -/

/-- A `[512, 256]` weight reshaped `[8, 64, 256]`: `(h, d, c)` reads row `h·64 + d`. -/
theorem relay_w (W : S512x256.Idx → EReal) (h : Fin 8) (d : Fin 64) (c : Fin 256) :
    shapeCast S8x64x256 W shapeCasts_S512x256_S8x64x256 (ix3 h d c) = W (ix2 (Cert.Spec.he h d) c) :=
  shapeCast_apply W _ _ _ (by
    rw [Shape.rowMajor_val_two, Shape.rowMajor_val_three]
    show (h.val * 64 + d.val) * 256 + c.val = (h.val * 64 + d.val) * 256 + c.val
    rfl)

/-- The output weight reshaped `[256, 8, 64]` then transposed to `[8, 64, 256]`: `(h, e, o)` reads `Wo (o, h·64 + e)`. -/
theorem relay_wo (W : S256x512.Idx → EReal) (h : Fin 8) (e : Fin 64) (o : Fin 256) :
    transpose S8x64x256 [1, 2, 0] (shapeCast S256x8x64 W shapeCasts_S256x512_S256x8x64) transposes_S256x8x64_S8x64x256_1_2_0 (ix3 h e o)
      = W (ix2 o (Cert.Spec.he h e)) := by
  rw [transpose_apply [1, 2, 0] _ transposes_S256x8x64_S8x64x256_1_2_0 (ix3 h e o) (ix3 o h e)
    (fun b => match b with | ⟨0, _⟩ => rfl | ⟨1, _⟩ => rfl | ⟨2, _⟩ => rfl)]
  exact shapeCast_apply W _ _ _ (by
    rw [Shape.rowMajor_val_two, Shape.rowMajor_val_three]
    show o.val * 512 + (h.val * 64 + e.val) = (o.val * 8 + h.val) * 64 + e.val
    omega)

/-- The bias as a `[1, 256]` row. -/
theorem relay_b (B : S256.Idx → EReal) (o : Fin 256) :
    shapeCast S1x256 B shapeCasts_S256_S1x256 (ix2 (0 : Fin 1) o) = B (ix1 o) :=
  shapeCast_a_1a_apply B _ 0 o

/-! ## The buffers at the two passes' entries -/

section Entry
variable (m : (ℓ : Loc nD τ sig) → Buf (Elt Ideal) ℓ) (ρ : Dev nD → PrngReg) (c : Dev nD)

theorem W1_v0 : W1 m ρ c (Proc.devRef .tc main_v0)
    = shapeCast S8x64x256 (m ((c : Thread nD τ).loc main_arg2)) shapeCasts_S512x256_S8x64x256 := by
  dsimp only [W1, hostOps0]; after_results; rfl
theorem W1_v1 : W1 m ρ c (Proc.devRef .tc main_v1)
    = shapeCast S8x64x256 (m ((c : Thread nD τ).loc main_arg3)) shapeCasts_S512x256_S8x64x256 := by
  dsimp only [W1, hostOps0]; after_results; rfl
theorem W1_v2 : W1 m ρ c (Proc.devRef .tc main_v2)
    = shapeCast S8x64x256 (m ((c : Thread nD τ).loc main_arg4)) shapeCasts_S512x256_S8x64x256 := by
  dsimp only [W1, hostOps0]; after_results; rfl
theorem W1_v4 : W1 m ρ c (Proc.devRef .tc main_v4)
    = transpose S8x64x256 [1, 2, 0] (shapeCast S256x8x64 (m ((c : Thread nD τ).loc main_arg5)) shapeCasts_S256x512_S256x8x64)
        transposes_S256x8x64_S8x64x256_1_2_0 := by
  dsimp only [W1, hostOps0]; after_results; rfl
theorem W1_v5 : W1 m ρ c (Proc.devRef .tc main_v5)
    = shapeCast S1x256 (m ((c : Thread nD τ).loc main_arg6)) shapeCasts_S256_S1x256 := by
  dsimp only [W1, hostOps0]; after_results; rfl
theorem W1_arg0 : W1 m ρ c (Proc.devRef .tc main_arg0) = m ((c : Thread nD τ).loc main_arg0) := by
  dsimp only [W1, hostOps0]; after_results

/-- The first pass finds the input as launched, and leaves it so. -/
theorem V1_arg0 : V1 m ρ c main_arg0 = m ((c : Thread nD τ).loc main_arg0) := W1_arg0 m ρ c
theorem V2_arg0 : V2 m ρ c main_arg0 = m ((c : Thread nD τ).loc main_arg0) :=
  ((W2_arr m ρ c 0).trans (((dat0 (V1 m ρ) c).arrAt_in 0 rfl _).trans (A_eq0 (V1 m ρ) c 0))).trans (W1_arg0 m ρ c)

/-- The re-laid weights pass through the first pass untouched (it writes only its result). -/
theorem V2_v0 : V2 m ρ c main_v0 = shapeCast S8x64x256 (m ((c : Thread nD τ).loc main_arg2)) shapeCasts_S512x256_S8x64x256 :=
  (W2_of_ne m ρ c main_v0 (by decide)).trans (W1_v0 m ρ c)
theorem V2_v4 : V2 m ρ c main_v4
    = transpose S8x64x256 [1, 2, 0] (shapeCast S256x8x64 (m ((c : Thread nD τ).loc main_arg5)) shapeCasts_S256x512_S256x8x64)
        transposes_S256x8x64_S8x64x256_1_2_0 :=
  (W2_of_ne m ρ c main_v4 (by decide)).trans (W1_v4 m ρ c)
theorem V2_v5 : V2 m ρ c main_v5 = shapeCast S1x256 (m ((c : Thread nD τ).loc main_arg6)) shapeCasts_S256_S1x256 :=
  (W2_of_ne m ρ c main_v5 (by decide)).trans (W1_v5 m ρ c)

/-- The first pass's result, as the second pass finds it. -/
theorem V2_v6 : V2 m ρ c main_v6 = Dots.dotsArr (V1 m ρ) c :=
  (W2_arr m ρ c 3).trans (Dots.final0 (V1 m ρ) c)

/-- The result array after the second pass: the formula of the seven argument arrays. -/
theorem W3_result :
    W3 m ρ c (Proc.devRef .tc main_v7)
      = fun i => Cert.Spec.out (m ((c : Thread nD τ).loc main_arg0)) (m ((c : Thread nD τ).loc main_arg2))
          (m ((c : Thread nD τ).loc main_arg3)) (m ((c : Thread nD τ).loc main_arg4)) (m ((c : Thread nD τ).loc main_arg5))
          (m ((c : Thread nD τ).loc main_arg6)) (i 0) (i 1) (i 2) := by
  refine ((W3_arr m ρ c 5).trans (OutRegion.final1 (V2 m ρ) c)).trans ?_
  funext i
  rw [V2_arg0, V2_v0, V2_v4, V2_v5, V2_v6]
  refine Cert.Spec.outK_eq _ _ (m ((c : Thread nD τ).loc main_arg3)) (m ((c : Thread nD τ).loc main_arg4)) _ _ _
    (shapeCast S8x64x256 (m ((c : Thread nD τ).loc main_arg3)) shapeCasts_S512x256_S8x64x256)
    (shapeCast S8x64x256 (m ((c : Thread nD τ).loc main_arg4)) shapeCasts_S512x256_S8x64x256) _ _ _
    (fun h d k => relay_w _ h d k) (fun h d k => relay_w _ h d k) (fun h d k => relay_w _ h d k)
    (fun h e o => relay_wo _ h e o) (fun o => relay_b _ o) (fun b h d e => ?_) (i 0) (i 1) (i 2)
  show Cert.Spec.dotsK (V1 m ρ c main_arg0) (V1 m ρ c main_v1) (V1 m ρ c main_v2) b h d e = _
  rw [V1_arg0, show V1 m ρ c main_v1 = _ from W1_v1 m ρ c, show V1 m ρ c main_v2 = _ from W1_v2 m ρ c]

end Entry

/-! ## The run -/

/-- Every weakly fair execution of the idealized kernel's @main terminates, nothing faulting, with the result array at
    the formula of the launch arguments and the seven arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v7)
        = (fun i => Cert.Spec.out (m ((c : Thread nD τ).loc main_arg0)) (m ((c : Thread nD τ).loc main_arg2))
            (m ((c : Thread nD τ).loc main_arg3)) (m ((c : Thread nD τ).loc main_arg4)) (m ((c : Thread nD τ).loc main_arg5))
            (m ((c : Thread nD τ).loc main_arg6)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (W3_result m ρ c), (h c).2⟩) (run_W3 m ρ)

end Cert.KernelIdeal.Val

end
-- ==== Proof.RefValue.lean ====
/-
  The reference program's result, read at an index, is the specification's formula `Cert.Spec.out`.

  The reference computes, for a batch `b`, a position `n`, a head `h` and a lane `d`:
  * the three projections of the input row `X[b, n, ·]` against the weight rows `e = h·64 + d` — a contraction over the
    256 input channels, then a regrouping of the 512 output lanes as (head, lane) = `(e / 64, e % 64)` and an exchange of the
    position and head axes. Read at `(b, h, n, d)` this is `Cert.Spec.proj X W b n (he h d)`: the only arithmetic is
    that the row-major position of `(b, n, h, d)` in `[4, 8192, 8, 64]` is that of `(b, n, h·64 + d)` in `[4, 8192, 512]`;
  * for the keys and the values, the normalisation of each row of 64 lanes: the lane sum over 64 (the mean), the centred
    lanes, the sum of their squares over 64 (the variance), plus `ε`, the square root, and the quotient. Each of these
    is a pointwise operation, a sum over the last axis started from the float zero (which is the real `0`), or a copy
    along a unit axis, so at `(b, h, n, d)` the chain is literally `Cert.Spec.normR` of the row `d' ↦ proj … (he h d')`,
    that is `Cert.Spec.kv`;
  * `dots[b, h, d, e]`, the contraction of the normalised keys and values over the 8192 positions;
  * `u[b, h, n, e]`, the contraction of the query row with `dots` over the 64 lanes, over the position count;
  * the exchange of the head and position axes back, the heads' lanes laid side by side (lane `k` of 512 is lane
    `k % 64` of head `k / 64`), the contraction with the rows of `Wo`, and the bias copied along batch and position.

  Each step below states one intermediate array at an index built from explicit coordinates; the index maps of the
  layout operations are identified with those coordinates once, by cases on the axis (and linear arithmetic for the two
  regroupings). No algebraic law is used: the two sides are the same sums of the same terms.
-/
import proofs.«164319_j23467701305835_1_alg».proof.Proof.Gen.ReferenceIdeal.Read
import proofs.«164319_j23467701305835_1_alg».proof.Proof.Spec

noncomputable section

open scoped BigOperators

namespace Cert.RefValue

open Idealize.ShloMosaic Idealize.ShloMosaic.ValueIdx Cert.ReferenceIdeal Cert.ReferenceIdeal.Read Cert.Spec

/-- The input array and a projection weight, as the reference's operations take them. -/
abbrev AX := (⟨S4x8192x256, .f32⟩ : BufTy).Contents (Elt Ideal)
abbrev AW := (⟨S512x256, .f32⟩ : BufTy).Contents (Elt Ideal)

/-! ## Index bookkeeping: the layout operations at coordinate-built indices -/

theorem idx_tr (b : Fin 4) (h : Fin 8) (n : Fin 8192) (d : Fin 64) :
    idx_main_v5 (ix4 b h n d) = ix4 b n h d :=
  funext fun a => by match a with | ⟨0, _⟩ => rfl | ⟨1, _⟩ => rfl | ⟨2, _⟩ => rfl | ⟨3, _⟩ => rfl

theorem idx_rs (b : Fin 4) (h : Fin 8) (n : Fin 8192) (d : Fin 64) :
    idx_main_v4 (ix4 b n h d) = ix3 b n (he h d) :=
  funext fun a => Fin.ext (by
    have hb := b.isLt; have hh := h.isLt; have hn := n.isLt; have hd := d.isLt
    match a with
    | ⟨0, _⟩ => show (((b.val * 8192 + n.val) * 8 + h.val) * 64 + d.val) / 4194304 = b.val; omega
    | ⟨1, _⟩ => show (((b.val * 8192 + n.val) * 8 + h.val) * 64 + d.val) / 512 % 8192 = n.val; omega
    | ⟨2, _⟩ => show (((b.val * 8192 + n.val) * 8 + h.val) * 64 + d.val) % 512 = h.val * 64 + d.val; omega)

theorem lidx_pr (b : Fin 4) (n : Fin 8192) (e : Fin 512) (k : Fin 256) :
    lidx_main_v3 (ix3 b n e) k = ix3 b n k :=
  funext fun a => by match a with | ⟨0, _⟩ => rfl | ⟨1, _⟩ => rfl | ⟨2, _⟩ => rfl

theorem ridx_pr (b : Fin 4) (n : Fin 8192) (e : Fin 512) (k : Fin 256) :
    ridx_main_v3 (ix3 b n e) k = ix2 e k :=
  funext fun a => by match a with | ⟨0, _⟩ => rfl | ⟨1, _⟩ => rfl

/-- The lane sum reads the row `(b, h, n, ·)`. -/
theorem idx_lane (b : Fin 4) (h : Fin 8) (n : Fin 8192) (k : Fin 64) :
    idx_main_v6 (ix3 b h n) k = ix4 b h n k :=
  funext fun a => by match a with | ⟨0, _⟩ => rfl | ⟨1, _⟩ => rfl | ⟨2, _⟩ => rfl | ⟨3, _⟩ => rfl

/-- The kept unit axis: `(b, h, n, 0)` reads `(b, h, n)`. -/
theorem idx_keep (b : Fin 4) (h : Fin 8) (n : Fin 8192) (z : Fin 1) :
    idx_main_v7 (ix4 b h n z) = ix3 b h n :=
  funext fun a => by match a with | ⟨0, _⟩ => rfl | ⟨1, _⟩ => rfl | ⟨2, _⟩ => rfl

/-- Broadcasting the unit axis over the 64 lanes: `(b, h, n, d)` reads `(b, h, n, 0)`. -/
theorem idx_bc (b : Fin 4) (h : Fin 8) (n : Fin 8192) (d : Fin 64) :
    idx_main_v10 (ix4 b h n d) = ix4 b h n (0 : Fin 1) :=
  funext fun a => by match a with | ⟨0, _⟩ => rfl | ⟨1, _⟩ => rfl | ⟨2, _⟩ => rfl | ⟨3, _⟩ => rfl

/-! ## The key projection, normalised -/

theorem key_proj (x0 : AX) (x3 : AW) (b : Fin 4) (h : Fin 8) (n : Fin 8192) (d : Fin 64) :
    val_main_v5 (F := Ideal) x0 x3 (ix4 b h n d) = proj x0 x3 b n (he h d) := by
  rw [val_main_v5_apply, idx_tr, val_main_v4_apply, idx_rs, val_main_v3_apply]
  unfold proj
  simp only [lidx_pr, ridx_pr]

theorem key_sum (x0 : AX) (x3 : AW) (b : Fin 4) (h : Fin 8) (n : Fin 8192) :
    val_main_v6 (F := Ideal) x0 x3 (ix3 b h n) = ∑ k : Fin 64, proj x0 x3 b n (he h k) := by
  rw [val_main_v6_apply, val_main_cst_apply, Ideal.ofBits_def, Ideal.ofBits_zero_f32, zero_add]
  exact Finset.sum_congr rfl fun k _ => by rw [idx_lane, key_proj]

theorem key_mean (x0 : AX) (x3 : AW) (b : Fin 4) (h : Fin 8) (n : Fin 8192) (z : Fin 1) :
    val_main_v9 (F := Ideal) x0 x3 (ix4 b h n z) = mean (fun d => proj x0 x3 b n (he h d)) := by
  rw [val_main_v9_apply, val_main_v7_apply, idx_keep, key_sum, val_main_v8_apply, val_main_cst_0_apply,
    Ideal.ofBits_def, Ideal.hostDivf_def]
  rfl

theorem key_cen (x0 : AX) (x3 : AW) (b : Fin 4) (h : Fin 8) (n : Fin 8192) (d : Fin 64) :
    val_main_v11 (F := Ideal) x0 x3 (ix4 b h n d) = cen (fun d => proj x0 x3 b n (he h d)) d := by
  rw [val_main_v11_apply, key_proj, val_main_v10_apply, idx_bc, key_mean, Ideal.subf_def]
  rfl

theorem idx_lane2 (b : Fin 4) (h : Fin 8) (n : Fin 8192) (k : Fin 64) :
    idx_main_v13 (ix3 b h n) k = ix4 b h n k :=
  funext fun a => by match a with | ⟨0, _⟩ => rfl | ⟨1, _⟩ => rfl | ⟨2, _⟩ => rfl | ⟨3, _⟩ => rfl

theorem idx_keep2 (b : Fin 4) (h : Fin 8) (n : Fin 8192) (z : Fin 1) :
    idx_main_v14 (ix4 b h n z) = ix3 b h n :=
  funext fun a => by match a with | ⟨0, _⟩ => rfl | ⟨1, _⟩ => rfl | ⟨2, _⟩ => rfl

theorem idx_bc2 (b : Fin 4) (h : Fin 8) (n : Fin 8192) (d : Fin 64) :
    idx_main_v17 (ix4 b h n d) = ix4 b h n (0 : Fin 1) :=
  funext fun a => by match a with | ⟨0, _⟩ => rfl | ⟨1, _⟩ => rfl | ⟨2, _⟩ => rfl | ⟨3, _⟩ => rfl

theorem idx_bc3 (b : Fin 4) (h : Fin 8) (n : Fin 8192) (d : Fin 64) :
    idx_main_v22 (ix4 b h n d) = ix4 b h n (0 : Fin 1) :=
  funext fun a => by match a with | ⟨0, _⟩ => rfl | ⟨1, _⟩ => rfl | ⟨2, _⟩ => rfl | ⟨3, _⟩ => rfl

theorem key_sqsum (x0 : AX) (x3 : AW) (b : Fin 4) (h : Fin 8) (n : Fin 8192) :
    val_main_v13 (F := Ideal) x0 x3 (ix3 b h n)
      = ∑ k : Fin 64, cen (fun d => proj x0 x3 b n (he h d)) k * cen (fun d => proj x0 x3 b n (he h d)) k := by
  rw [val_main_v13_apply, val_main_cst_1_apply, Ideal.ofBits_def, Ideal.ofBits_zero_f32, zero_add]
  exact Finset.sum_congr rfl fun k _ => by rw [idx_lane2, val_main_v12_apply, key_cen, Ideal.mulf_def]

theorem key_var (x0 : AX) (x3 : AW) (b : Fin 4) (h : Fin 8) (n : Fin 8192) (z : Fin 1) :
    val_main_v16 (F := Ideal) x0 x3 (ix4 b h n z) = var (fun d => proj x0 x3 b n (he h d)) := by
  rw [val_main_v16_apply, val_main_v14_apply, idx_keep2, key_sqsum, val_main_v15_apply, val_main_cst_2_apply,
    Ideal.ofBits_def, Ideal.hostDivf_def]
  rfl

theorem key_cen' (x0 : AX) (x3 : AW) (b : Fin 4) (h : Fin 8) (n : Fin 8192) (d : Fin 64) :
    val_main_v18 (F := Ideal) x0 x3 (ix4 b h n d) = cen (fun d => proj x0 x3 b n (he h d)) d := by
  rw [val_main_v18_apply, key_proj, val_main_v17_apply, idx_bc2, key_mean, Ideal.subf_def]
  rfl

theorem key_sd (x0 : AX) (x3 : AW) (b : Fin 4) (h : Fin 8) (n : Fin 8192) (z : Fin 1) :
    val_main_v21 (F := Ideal) x0 x3 (ix4 b h n z)
      = Ideal.sqrt (var (fun d => proj x0 x3 b n (he h d)) + eps) := by
  rw [val_main_v21_apply, val_main_v20_apply, key_var, val_main_v19_apply, val_main_cst_3_apply,
    Ideal.ofBits_def, Ideal.addf_def, Ideal.hostUnary_sqrt_def]
  rfl

/-- The normalised key entry is the specification's. -/
theorem key_norm (x0 : AX) (x3 : AW) (b : Fin 4) (h : Fin 8) (n : Fin 8192) (d : Fin 64) :
    val_main_v23 (F := Ideal) x0 x3 (ix4 b h n d) = kv x0 x3 b h n d := by
  rw [val_main_v23_apply, key_cen', val_main_v22_apply, idx_bc3, key_sd, Ideal.hostDivf_def]
  rfl

/-! ## The same bookkeeping for the value projection's operations -/

theorem idx_trV (b : Fin 4) (h : Fin 8) (n : Fin 8192) (d : Fin 64) :
    idx_main_v26 (ix4 b h n d) = ix4 b n h d :=
  funext fun a => by match a with | ⟨0, _⟩ => rfl | ⟨1, _⟩ => rfl | ⟨2, _⟩ => rfl | ⟨3, _⟩ => rfl

theorem idx_rsV (b : Fin 4) (h : Fin 8) (n : Fin 8192) (d : Fin 64) :
    idx_main_v25 (ix4 b n h d) = ix3 b n (he h d) :=
  funext fun a => Fin.ext (by
    have hb := b.isLt; have hh := h.isLt; have hn := n.isLt; have hd := d.isLt
    match a with
    | ⟨0, _⟩ => show (((b.val * 8192 + n.val) * 8 + h.val) * 64 + d.val) / 4194304 = b.val; omega
    | ⟨1, _⟩ => show (((b.val * 8192 + n.val) * 8 + h.val) * 64 + d.val) / 512 % 8192 = n.val; omega
    | ⟨2, _⟩ => show (((b.val * 8192 + n.val) * 8 + h.val) * 64 + d.val) % 512 = h.val * 64 + d.val; omega)

theorem lidx_prV (b : Fin 4) (n : Fin 8192) (e : Fin 512) (k : Fin 256) :
    lidx_main_v24 (ix3 b n e) k = ix3 b n k :=
  funext fun a => by match a with | ⟨0, _⟩ => rfl | ⟨1, _⟩ => rfl | ⟨2, _⟩ => rfl

theorem ridx_prV (b : Fin 4) (n : Fin 8192) (e : Fin 512) (k : Fin 256) :
    ridx_main_v24 (ix3 b n e) k = ix2 e k :=
  funext fun a => by match a with | ⟨0, _⟩ => rfl | ⟨1, _⟩ => rfl

/-- The lane sum reads the row `(b, h, n, ·)`. -/
theorem idx_laneV (b : Fin 4) (h : Fin 8) (n : Fin 8192) (k : Fin 64) :
    idx_main_v27 (ix3 b h n) k = ix4 b h n k :=
  funext fun a => by match a with | ⟨0, _⟩ => rfl | ⟨1, _⟩ => rfl | ⟨2, _⟩ => rfl | ⟨3, _⟩ => rfl

/-- The kept unit axis: `(b, h, n, 0)` reads `(b, h, n)`. -/
theorem idx_keepV (b : Fin 4) (h : Fin 8) (n : Fin 8192) (z : Fin 1) :
    idx_main_v28 (ix4 b h n z) = ix3 b h n :=
  funext fun a => by match a with | ⟨0, _⟩ => rfl | ⟨1, _⟩ => rfl | ⟨2, _⟩ => rfl

/-- Broadcasting the unit axis over the 64 lanes: `(b, h, n, d)` reads `(b, h, n, 0)`. -/
theorem idx_bcV (b : Fin 4) (h : Fin 8) (n : Fin 8192) (d : Fin 64) :
    idx_main_v31 (ix4 b h n d) = ix4 b h n (0 : Fin 1) :=
  funext fun a => by match a with | ⟨0, _⟩ => rfl | ⟨1, _⟩ => rfl | ⟨2, _⟩ => rfl | ⟨3, _⟩ => rfl

/-! ## The value projection, normalised -/

theorem val_proj (x0 : AX) (x4 : AW) (b : Fin 4) (h : Fin 8) (n : Fin 8192) (d : Fin 64) :
    val_main_v26 (F := Ideal) x0 x4 (ix4 b h n d) = proj x0 x4 b n (he h d) := by
  rw [val_main_v26_apply, idx_trV, val_main_v25_apply, idx_rsV, val_main_v24_apply]
  unfold proj
  simp only [lidx_prV, ridx_prV]

theorem val_sum (x0 : AX) (x4 : AW) (b : Fin 4) (h : Fin 8) (n : Fin 8192) :
    val_main_v27 (F := Ideal) x0 x4 (ix3 b h n) = ∑ k : Fin 64, proj x0 x4 b n (he h k) := by
  rw [val_main_v27_apply, val_main_cst_4_apply, Ideal.ofBits_def, Ideal.ofBits_zero_f32, zero_add]
  exact Finset.sum_congr rfl fun k _ => by rw [idx_laneV, val_proj]

theorem val_mean (x0 : AX) (x4 : AW) (b : Fin 4) (h : Fin 8) (n : Fin 8192) (z : Fin 1) :
    val_main_v30 (F := Ideal) x0 x4 (ix4 b h n z) = mean (fun d => proj x0 x4 b n (he h d)) := by
  rw [val_main_v30_apply, val_main_v28_apply, idx_keepV, val_sum, val_main_v29_apply, val_main_cst_5_apply,
    Ideal.ofBits_def, Ideal.hostDivf_def]
  rfl

theorem val_cen (x0 : AX) (x4 : AW) (b : Fin 4) (h : Fin 8) (n : Fin 8192) (d : Fin 64) :
    val_main_v32 (F := Ideal) x0 x4 (ix4 b h n d) = cen (fun d => proj x0 x4 b n (he h d)) d := by
  rw [val_main_v32_apply, val_proj, val_main_v31_apply, idx_bcV, val_mean, Ideal.subf_def]
  rfl

theorem idx_lane2V (b : Fin 4) (h : Fin 8) (n : Fin 8192) (k : Fin 64) :
    idx_main_v34 (ix3 b h n) k = ix4 b h n k :=
  funext fun a => by match a with | ⟨0, _⟩ => rfl | ⟨1, _⟩ => rfl | ⟨2, _⟩ => rfl | ⟨3, _⟩ => rfl

theorem idx_keep2V (b : Fin 4) (h : Fin 8) (n : Fin 8192) (z : Fin 1) :
    idx_main_v35 (ix4 b h n z) = ix3 b h n :=
  funext fun a => by match a with | ⟨0, _⟩ => rfl | ⟨1, _⟩ => rfl | ⟨2, _⟩ => rfl

theorem idx_bc2V (b : Fin 4) (h : Fin 8) (n : Fin 8192) (d : Fin 64) :
    idx_main_v38 (ix4 b h n d) = ix4 b h n (0 : Fin 1) :=
  funext fun a => by match a with | ⟨0, _⟩ => rfl | ⟨1, _⟩ => rfl | ⟨2, _⟩ => rfl | ⟨3, _⟩ => rfl

theorem idx_bc3V (b : Fin 4) (h : Fin 8) (n : Fin 8192) (d : Fin 64) :
    idx_main_v43 (ix4 b h n d) = ix4 b h n (0 : Fin 1) :=
  funext fun a => by match a with | ⟨0, _⟩ => rfl | ⟨1, _⟩ => rfl | ⟨2, _⟩ => rfl | ⟨3, _⟩ => rfl

theorem val_sqsum (x0 : AX) (x4 : AW) (b : Fin 4) (h : Fin 8) (n : Fin 8192) :
    val_main_v34 (F := Ideal) x0 x4 (ix3 b h n)
      = ∑ k : Fin 64, cen (fun d => proj x0 x4 b n (he h d)) k * cen (fun d => proj x0 x4 b n (he h d)) k := by
  rw [val_main_v34_apply, val_main_cst_6_apply, Ideal.ofBits_def, Ideal.ofBits_zero_f32, zero_add]
  exact Finset.sum_congr rfl fun k _ => by rw [idx_lane2V, val_main_v33_apply, val_cen, Ideal.mulf_def]

theorem val_var (x0 : AX) (x4 : AW) (b : Fin 4) (h : Fin 8) (n : Fin 8192) (z : Fin 1) :
    val_main_v37 (F := Ideal) x0 x4 (ix4 b h n z) = var (fun d => proj x0 x4 b n (he h d)) := by
  rw [val_main_v37_apply, val_main_v35_apply, idx_keep2V, val_sqsum, val_main_v36_apply, val_main_cst_7_apply,
    Ideal.ofBits_def, Ideal.hostDivf_def]
  rfl

theorem val_cen' (x0 : AX) (x4 : AW) (b : Fin 4) (h : Fin 8) (n : Fin 8192) (d : Fin 64) :
    val_main_v39 (F := Ideal) x0 x4 (ix4 b h n d) = cen (fun d => proj x0 x4 b n (he h d)) d := by
  rw [val_main_v39_apply, val_proj, val_main_v38_apply, idx_bc2V, val_mean, Ideal.subf_def]
  rfl

theorem val_sd (x0 : AX) (x4 : AW) (b : Fin 4) (h : Fin 8) (n : Fin 8192) (z : Fin 1) :
    val_main_v42 (F := Ideal) x0 x4 (ix4 b h n z)
      = Ideal.sqrt (var (fun d => proj x0 x4 b n (he h d)) + eps) := by
  rw [val_main_v42_apply, val_main_v41_apply, val_var, val_main_v40_apply, val_main_cst_8_apply,
    Ideal.ofBits_def, Ideal.addf_def, Ideal.hostUnary_sqrt_def]
  rfl

/-- The normalised value entry is the specification's. -/
theorem val_norm (x0 : AX) (x4 : AW) (b : Fin 4) (h : Fin 8) (n : Fin 8192) (d : Fin 64) :
    val_main_v44 (F := Ideal) x0 x4 (ix4 b h n d) = kv x0 x4 b h n d := by
  rw [val_main_v44_apply, val_cen', val_main_v43_apply, idx_bc3V, val_sd, Ideal.hostDivf_def]
  rfl

/-! ## The query projection -/

theorem idx_trQ (b : Fin 4) (h : Fin 8) (n : Fin 8192) (d : Fin 64) :
    idx_main_v2 (ix4 b h n d) = ix4 b n h d :=
  funext fun a => by match a with | ⟨0, _⟩ => rfl | ⟨1, _⟩ => rfl | ⟨2, _⟩ => rfl | ⟨3, _⟩ => rfl

theorem idx_rsQ (b : Fin 4) (h : Fin 8) (n : Fin 8192) (d : Fin 64) :
    idx_main_v1 (ix4 b n h d) = ix3 b n (he h d) :=
  funext fun a => Fin.ext (by
    have hb := b.isLt; have hh := h.isLt; have hn := n.isLt; have hd := d.isLt
    match a with
    | ⟨0, _⟩ => show (((b.val * 8192 + n.val) * 8 + h.val) * 64 + d.val) / 4194304 = b.val; omega
    | ⟨1, _⟩ => show (((b.val * 8192 + n.val) * 8 + h.val) * 64 + d.val) / 512 % 8192 = n.val; omega
    | ⟨2, _⟩ => show (((b.val * 8192 + n.val) * 8 + h.val) * 64 + d.val) % 512 = h.val * 64 + d.val; omega)

theorem lidx_prQ (b : Fin 4) (n : Fin 8192) (e : Fin 512) (k : Fin 256) :
    lidx_main_v0 (ix3 b n e) k = ix3 b n k :=
  funext fun a => by match a with | ⟨0, _⟩ => rfl | ⟨1, _⟩ => rfl | ⟨2, _⟩ => rfl

theorem ridx_prQ (b : Fin 4) (n : Fin 8192) (e : Fin 512) (k : Fin 256) :
    ridx_main_v0 (ix3 b n e) k = ix2 e k :=
  funext fun a => by match a with | ⟨0, _⟩ => rfl | ⟨1, _⟩ => rfl

theorem qry_proj (x0 : AX) (x2 : AW) (b : Fin 4) (h : Fin 8) (n : Fin 8192) (d : Fin 64) :
    val_main_v2 (F := Ideal) x0 x2 (ix4 b h n d) = proj x0 x2 b n (he h d) := by
  rw [val_main_v2_apply, idx_trQ, val_main_v1_apply, idx_rsQ, val_main_v0_apply]
  unfold proj
  simp only [lidx_prQ, ridx_prQ]

/-! ## `dots`: the contraction over the 8192 positions -/

theorem lidx_dots (b : Fin 4) (h : Fin 8) (d e : Fin 64) (k : Fin 8192) :
    lidx_main_v45 (ix4 b h d e) k = ix4 b h k d :=
  funext fun a => by match a with | ⟨0, _⟩ => rfl | ⟨1, _⟩ => rfl | ⟨2, _⟩ => rfl | ⟨3, _⟩ => rfl

theorem ridx_dots (b : Fin 4) (h : Fin 8) (d e : Fin 64) (k : Fin 8192) :
    ridx_main_v45 (ix4 b h d e) k = ix4 b h k e :=
  funext fun a => by match a with | ⟨0, _⟩ => rfl | ⟨1, _⟩ => rfl | ⟨2, _⟩ => rfl | ⟨3, _⟩ => rfl

theorem dots_at (x0 : AX) (x3 x4 : AW) (b : Fin 4) (h : Fin 8) (d e : Fin 64) :
    val_main_v45 (F := Ideal) x0 x3 x4 (ix4 b h d e) = dots x0 x3 x4 b h d e := by
  rw [val_main_v45_apply]
  unfold dots
  exact Finset.sum_congr rfl fun k _ => by rw [lidx_dots, ridx_dots, key_norm, val_norm]

/-! ## `u`: the query rows against `dots`, over the position count -/

theorem lidx_u (b : Fin 4) (h : Fin 8) (n : Fin 8192) (e : Fin 64) (k : Fin 64) :
    lidx_main_v46 (ix4 b h n e) k = ix4 b h n k :=
  funext fun a => by match a with | ⟨0, _⟩ => rfl | ⟨1, _⟩ => rfl | ⟨2, _⟩ => rfl | ⟨3, _⟩ => rfl

theorem ridx_u (b : Fin 4) (h : Fin 8) (n : Fin 8192) (e : Fin 64) (k : Fin 64) :
    ridx_main_v46 (ix4 b h n e) k = ix4 b h k e :=
  funext fun a => by match a with | ⟨0, _⟩ => rfl | ⟨1, _⟩ => rfl | ⟨2, _⟩ => rfl | ⟨3, _⟩ => rfl

theorem u_at (x0 : AX) (x2 x3 x4 : AW) (b : Fin 4) (h : Fin 8) (n : Fin 8192) (e : Fin 64) :
    val_main_v48 (F := Ideal) x0 x2 x3 x4 (ix4 b h n e) = u x0 x2 x3 x4 b h n e := by
  rw [val_main_v48_apply, val_main_v46_apply, val_main_v47_apply, val_main_cst_9_apply, Ideal.ofBits_def,
    Ideal.hostDivf_def]
  unfold u
  refine congrArg (fun s => Ideal.div s cN) (Finset.sum_congr rfl fun k _ => ?_)
  rw [lidx_u, ridx_u, qry_proj, dots_at]

/-! ## The heads side by side, the output projection and the bias -/

theorem idx_trO (b : Fin 4) (n : Fin 8192) (h : Fin 8) (e : Fin 64) :
    idx_main_v49 (ix4 b n h e) = ix4 b h n e :=
  funext fun a => by match a with | ⟨0, _⟩ => rfl | ⟨1, _⟩ => rfl | ⟨2, _⟩ => rfl | ⟨3, _⟩ => rfl

/-- Lane `k` of the 512 concatenated lanes is lane `k % 64` of head `k / 64`. -/
theorem idx_rsO (b : Fin 4) (n : Fin 8192) (k : Fin 512) :
    idx_main_v50 (ix3 b n k)
      = ix4 b n (⟨k.val / 64, by have := k.isLt; omega⟩ : Fin 8) (⟨k.val % 64, by omega⟩ : Fin 64) :=
  funext fun a => Fin.ext (by
    have hb := b.isLt; have hn := n.isLt; have hk := k.isLt
    match a with
    | ⟨0, _⟩ => show ((b.val * 8192 + n.val) * 512 + k.val) / 4194304 = b.val; omega
    | ⟨1, _⟩ => show ((b.val * 8192 + n.val) * 512 + k.val) / 512 % 8192 = n.val; omega
    | ⟨2, _⟩ => show ((b.val * 8192 + n.val) * 512 + k.val) / 64 % 8 = k.val / 64; omega
    | ⟨3, _⟩ => show ((b.val * 8192 + n.val) * 512 + k.val) % 64 = k.val % 64; omega)

theorem heads_at (x0 : AX) (x2 x3 x4 : AW) (b : Fin 4) (n : Fin 8192) (k : Fin 512) :
    val_main_v50 (F := Ideal) x0 x2 x3 x4 (ix3 b n k)
      = u x0 x2 x3 x4 b ⟨k.val / 64, by have := k.isLt; omega⟩ n ⟨k.val % 64, by omega⟩ := by
  rw [val_main_v50_apply, idx_rsO, val_main_v49_apply, idx_trO, u_at]

theorem lidx_o (b : Fin 4) (n : Fin 8192) (o : Fin 256) (k : Fin 512) :
    lidx_main_v51 (ix3 b n o) k = ix3 b n k :=
  funext fun a => by match a with | ⟨0, _⟩ => rfl | ⟨1, _⟩ => rfl | ⟨2, _⟩ => rfl

theorem ridx_o (b : Fin 4) (n : Fin 8192) (o : Fin 256) (k : Fin 512) :
    ridx_main_v51 (ix3 b n o) k = ix2 o k :=
  funext fun a => by match a with | ⟨0, _⟩ => rfl | ⟨1, _⟩ => rfl

theorem idx_bias (b : Fin 4) (n : Fin 8192) (o : Fin 256) :
    idx_main_v52 (idx_main_v53 (ix3 b n o)) = ix1 o :=
  funext fun a => by match a with | ⟨0, _⟩ => rfl

/-- The reference's result at `(b, n, o)` is the specification's formula. -/
theorem ref_out (x0 : (⟨S4x8192x256, .f32⟩ : BufTy).Contents (Elt Ideal)) (x2 x3 x4 : (⟨S512x256, .f32⟩ : BufTy).Contents (Elt Ideal))
    (x5 : (⟨S256x512, .f32⟩ : BufTy).Contents (Elt Ideal)) (x6 : (⟨S256, .f32⟩ : BufTy).Contents (Elt Ideal))
    (b : Fin 4) (n : Fin 8192) (o : Fin 256) :
    val_main_v54 (F := Ideal) x0 x2 x3 x4 x5 x6 (ix3 b n o) = out x0 x2 x3 x4 x5 x6 b n o := by
  rw [val_main_v54_apply, val_main_v51_apply, val_main_v53_apply, val_main_v52_apply, idx_bias, Ideal.addf_def]
  unfold out
  refine congrArg (fun s => s + x6 (ix1 o)) (Finset.sum_congr rfl fun k _ => ?_)
  rw [lidx_o, ridx_o, heads_at]

end Cert.RefValue

end
-- ==== Proof.lean ====
/- The proof of `Cert.Claim`: a two-pass linear attention kernel against its plain reference, equal as extended reals.

   Both programs compute, for the input `X [4, 8192, 256]` and the weights `Wq Wk Wv [512, 256]`, `Wo [256, 512]`, `bo [256]`:
   the three projections of every input row, split into 8 heads of 64 lanes; the key and value rows normalised over their
   64 lanes; per batch and head the 64 × 64 matrix `Kᵀ V` summed over the 8192 positions; the output row
   `(Q · Kᵀ V) / 8192`, the heads laid side by side, times `Woᵀ`, plus the bias (`Cert.Spec.out`, Proof/Spec.lean).

   The kernel builds `Kᵀ V` in a first pass over blocks of 2048 positions, accumulating in a staged block it clears at each
   batch's first block (Proof/DotsHead*.lean: one head's update; Proof/DotsPoint.lean: what a grid point leaves;
   Proof/DotsRegion.lean: the pass's result array), and the output in a second pass, head by head into an accumulator
   (Proof/OutRegion.lean). The reference does each step once over whole arrays (Proof/RefValue.lean, over the generated
   read-at-an-index lemmas). The two differ in three ways, all harmless on the extended reals: the kernel multiplies by
   the reciprocal square root where the reference divides by the square root — equal because the variance plus ε is
   positive, infinite values included (`Cert.Spec.normK_eq_normR`); sums are grouped by blocks of positions and by heads
   (`Cert.Spec.sum_blocks`); and the weights are re-laid by reshapes and a transpose before the passes
   (Proof/KernelValue.lean). No finiteness of the inputs is used. The ideal pass rewrote nothing, so `preserves` is `True`;
   the three frames are the generated ones. -/
import proofs.«164319_j23467701305835_1_alg».proof.Defs
import proofs.«164319_j23467701305835_1_alg».proof.Proof.Gen.Kernel
import proofs.«164319_j23467701305835_1_alg».proof.Proof.Gen.Kernel.Skeleton
import proofs.«164319_j23467701305835_1_alg».proof.Proof.Gen.Kernel.Launch
import proofs.«164319_j23467701305835_1_alg».proof.Proof.Gen.Kernel.Points
import proofs.«164319_j23467701305835_1_alg».proof.Proof.Gen.Kernel.Frame
import proofs.«164319_j23467701305835_1_alg».proof.Proof.Gen.KernelIdeal
import proofs.«164319_j23467701305835_1_alg».proof.Proof.Gen.KernelIdeal.Skeleton
import proofs.«164319_j23467701305835_1_alg».proof.Proof.Gen.KernelIdeal.Launch
import proofs.«164319_j23467701305835_1_alg».proof.Proof.Gen.KernelIdeal.Points
import proofs.«164319_j23467701305835_1_alg».proof.Proof.Gen.KernelIdeal.Frame
import proofs.«164319_j23467701305835_1_alg».proof.Proof.Gen.ReferenceIdeal
import proofs.«164319_j23467701305835_1_alg».proof.Proof.Gen.ReferenceIdeal.Run
import proofs.«164319_j23467701305835_1_alg».proof.Proof.Gen.ReferenceIdeal.Read
import proofs.«164319_j23467701305835_1_alg».proof.Proof.Gen.Pre_finite_inputs
import proofs.«164319_j23467701305835_1_alg».proof.Proof.KernelValue
import proofs.«164319_j23467701305835_1_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result array at `Cert.Spec.out` of the
    arguments: the kernel by its two passes (`Cert.KernelIdeal.Val.run`), the reference by its run read at an index
    (`Cert.RefValue.ref_out`). -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨a0, -, a2, a3, a4, a5, a6⟩ := hagree c
  rw [Cert.ReferenceIdeal.Read.val_main_v54_eq, a0, a2, a3, a4, a5, a6]
  funext i
  obtain ⟨b, n, o, rfl⟩ : ∃ (b : Fin 4) (n : Fin 8192) (o : Fin 256), i = ix3 b n o := ⟨i 0, i 1, i 2, eq_ix3 i⟩
  exact Cert.RefValue.ref_out _ _ _ _ _ _ b n o

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
